-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S256 .f32) (main_arg5 : FVec F S256x10 .f32) (main_arg6 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg5
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S8192x8192 .f32) (main_arg1 : FVec F S8192x128 .f32) (main_arg2 : FVec F S8192 .f32) (main_arg3 : FVec F S128x256 .f32) (main_arg4 : FVec F S256 .f32) (main_arg5 : FVec F S256x10 .f32) (main_arg6 : FVec F S10 .f32) (main_arg7 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x1 : Shape := ⟨2, ![8192, 1]⟩
abbrev S1x256 : Shape := ⟨2, ![1, 256]⟩
abbrev S1x10 : Shape := ⟨2, ![1, 10]⟩
abbrev S8192x256 : Shape := ⟨2, ![8192, 256]⟩
abbrev S2048x2048 : Shape := ⟨2, ![2048, 2048]⟩
abbrev S2048x128 : Shape := ⟨2, ![2048, 128]⟩
abbrev S2048x1 : Shape := ⟨2, ![2048, 1]⟩
abbrev S2048x256 : Shape := ⟨2, ![2048, 256]⟩
abbrev S8192x10 : Shape := ⟨2, ![8192, 10]⟩
abbrev S2048x10 : Shape := ⟨2, ![2048, 10]⟩
abbrev S64x10 : Shape := ⟨2, ![64, 10]⟩
abbrev S64 : Shape := ⟨1, ![64]⟩
abbrev S64x1 : Shape := ⟨2, ![64, 1]⟩

abbrev nBuf : Space → Nat
  | .hbm => 41
  | .vmem => 22
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192, .f32⟩
  | .hbm, ⟨3, _⟩ => ⟨S128x256, .f32⟩
  | .hbm, ⟨4, _⟩ => ⟨S256, .f32⟩
  | .hbm, ⟨5, _⟩ => ⟨S256x10, .f32⟩
  | .hbm, ⟨6, _⟩ => ⟨S10, .f32⟩
  | .hbm, ⟨7, _⟩ => ⟨S8192, .i32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S1x256, .f32⟩
  | .hbm, ⟨18, _⟩ => ⟨S1x10, .f32⟩
  | .hbm, ⟨19, _⟩ => ⟨S8192x128, .f32⟩
  | .hbm, ⟨20, _⟩ => ⟨S8192x128, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x10, .f32⟩
  | .hbm, ⟨25, _⟩ => ⟨S_, .f32⟩
  | .hbm, ⟨26, _⟩ => ⟨S64x10, .f32⟩
  | .hbm, ⟨27, _⟩ => ⟨S8192x1, .i32⟩
  | .hbm, ⟨28, _⟩ => ⟨S64x10, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S64, .f32⟩
  | .hbm, ⟨33, _⟩ => ⟨S8192x1, .i32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x10, .f32⟩
  | .hbm, ⟨40, _⟩ => ⟨S64x10, .f32⟩
  | .local _ .vmem, ⟨0, _⟩ => ⟨S2048x2048, .f32⟩
  | .local _ .vmem, ⟨1, _⟩ => ⟨S2048x2048, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S128x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x128, .f32⟩
  | .local _ .vmem, ⟨11, _⟩ => ⟨S2048x2048, .f32⟩
  | .local _ .vmem, ⟨12, _⟩ => ⟨S2048x2048, .f32⟩
  | .local _ .vmem, ⟨13, _⟩ => ⟨S2048x256, .f32⟩
  | .local _ .vmem, ⟨14, _⟩ => ⟨S2048x256, .f32⟩
  | .local _ .vmem, ⟨15, _⟩ => ⟨S2048x1, .f32⟩
  | .local _ .vmem, ⟨16, _⟩ => ⟨S2048x1, .f32⟩
  | .local _ .vmem, ⟨17, _⟩ => ⟨S256x10, .f32⟩
  | .local _ .vmem, ⟨18, _⟩ => ⟨S1x10, .f32⟩
  | .local _ .vmem, ⟨19, _⟩ => ⟨S2048x10, .f32⟩
  | .local _ .vmem, ⟨20, _⟩ => ⟨S2048x10, .f32⟩
  | .local _ .vmem, ⟨21, _⟩ => ⟨S2048x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S8192 : S_.BroadcastsInDim S8192 (![] : Fin 0 → Fin S8192.rank)
  shapeCasts_S8192_S8192x1 : S8192.ShapeCasts S8192x1
  shapeCasts_S256_S1x256 : S256.ShapeCasts S1x256
  shapeCasts_S10_S1x10 : S10.ShapeCasts S1x10
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S8192x1_S8192x256_0_1 : S8192x1.BroadcastsInDim S8192x256 (![0, 1] : Fin 2 → Fin S8192x256.rank)
  shapeCasts_S2048x256_S2048x256 : S2048x256.ShapeCasts S2048x256
  broadcasts_S2048x1_S2048x256 : S2048x1.Broadcasts S2048x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  bcast_S_S64x10 : S_.BroadcastsInDim S64x10 (![] : Fin 0 → Fin S64x10.rank)
  bcast_S8192_S8192x1_0 : S8192.BroadcastsInDim S8192x1 (![0] : Fin 1 → Fin S8192x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  dot_S2048x2048_S2048x256_S2048x256_1_0_0_1_n_n_wf : DotDims.WF S2048x2048 S2048x256 S2048x256 [1] [0] [0] [1] [] []
  dot_S2048x256_S256x10_S2048x10_1_0_0_1_n_n_wf : DotDims.WF S2048x256 S256x10 S2048x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S8192x256.size a
  hwx0_5 : ∀ i : grid0.Coords, EltTy.bits .f32 = 32 ∨ (Rect.block (s := S8192x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x10.size a ≤ S256x10.size a
  hwx1_3 : ∀ i : grid1.Coords, EltTy.bits .f32 = 32 ∨ (Rect.block (s := S256x10) S256x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x10.size a ≤ S8192x10.size a
  hwx1_5 : ∀ i : grid1.Coords, EltTy.bits .f32 = 32 ∨ (Rect.block (s := S8192x10) S2048x10.size (cc1_transform_5 i) (hinb1_5 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x10_S2048x10_1_0_0_1_n_n : DotDims S2048x256 S256x10 S2048x10 where
  lhsContracting := [1]
  rhsContracting := [0]
  lhsNonContracting := [0]
  rhsNonContracting := [1]
  lhsBatch := []
  rhsBatch := []
  wf := dot_S2048x256_S256x10_S2048x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S2048x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩
abbrev S8192x10 : Shape := ⟨2, ![8192, 10]⟩
abbrev S1x10 : Shape := ⟨2, ![1, 10]⟩
abbrev S64x10 : Shape := ⟨2, ![64, 10]⟩
abbrev S64 : Shape := ⟨1, ![64]⟩
abbrev S64x1 : Shape := ⟨2, ![64, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192, .f32⟩
  | .hbm, ⟨3, _⟩ => ⟨S128x256, .f32⟩
  | .hbm, ⟨4, _⟩ => ⟨S256, .f32⟩
  | .hbm, ⟨5, _⟩ => ⟨S256x10, .f32⟩
  | .hbm, ⟨6, _⟩ => ⟨S10, .f32⟩
  | .hbm, ⟨7, _⟩ => ⟨S8192, .i32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x128, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x10, .f32⟩
  | .hbm, ⟨32, _⟩ => ⟨S1x10, .f32⟩
  | .hbm, ⟨33, _⟩ => ⟨S8192x10, .f32⟩
  | .hbm, ⟨34, _⟩ => ⟨S8192x10, .f32⟩
  | .hbm, ⟨35, _⟩ => ⟨S_, .f32⟩
  | .hbm, ⟨36, _⟩ => ⟨S64x10, .f32⟩
  | .hbm, ⟨37, _⟩ => ⟨S8192x1, .i32⟩
  | .hbm, ⟨38, _⟩ => ⟨S64x10, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S64, .f32⟩
  | .hbm, ⟨43, _⟩ => ⟨S8192x1, .i32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x1, .f32⟩
  | .hbm, ⟨49, _⟩ => ⟨S64x10, .f32⟩
  | .hbm, ⟨50, _⟩ => ⟨S64x10, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call2_cst : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x10_S8192x10_1_0_0_1_n_n_wf : DotDims.WF S8192x256 S256x10 S8192x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

class Facts : Prop extends Facts₀ where

variable [Facts]
-- ==== Proof.WRegion0Runs.lean ====
/-
  The program as printed, read on machine words (a float is its bit pattern, a float operation the word-level one).
  The first layer's kernel region: what its three control cases share.

  A grid point `t` of the 4 × 4 grid is row tile `t / 4` at contraction step `t % 4`. The body's first conditional
  (reset the accumulator) is taken exactly at step 0, its second (scale, multiply by the weights, add the bias, clamp
  and store the output tile) exactly at step 3. So a point is in one of three cases: step 0, a middle step, step 3.
  The output tile's staging buffer is stored only at step 3; at the other points the window is idle and nothing is
  written back. The accumulator lives in a scratch buffer of the kernel's own that keeps its contents from one point
  to the next.
-/
import proofs.«137329_j58411555225976_2_alg».proof.Proof.Gen.Kernel.Launch
import proofs.«137329_j58411555225976_2_alg».proof.Proof.Gen.Kernel.Skeleton
import proofs.«137329_j58411555225976_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals, decided over the grid -/

/-- The accumulator is reset: the contraction step (grid coordinate 1) is 0. -/
abbrev isFirst (i : grid0.Coords) : Prop :=
  (Scalar.cmpi .ne (Scalar.extui (Scalar.cmpi .eq (BitVec.ofNat 32 (i 1).val) 0#32)) 0#32) = 1#1
/-- That is the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- The output tile is produced: the contraction step is the last one. -/
abbrev isLast (i : grid0.Coords) : Prop := k0_cond2 i = 1#1
/-- That is the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last step nothing is stored into the output tile's buffer: the window is idle there, -/
theorem idle5 : ∀ t : Fin cfg0.N, ¬isLast (grid0.coords t) → cfg0.idle 5 (grid0.coords t) = true := by decide +kernel
/-- and it is not written back there. -/
theorem noFlush5 : ∀ t : Fin cfg0.N, ¬isLast (grid0.coords t) → (cfg0.win 5).flush t = false := by decide +kernel
/-- At the last step the output tile is stored. -/
theorem live5 : ∀ t : Fin cfg0.N, isLast (grid0.coords t) → cfg0.idle 5 (grid0.coords t) = false := by decide +kernel

/-! ## The memrefs the body is called with -/

abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S2048x128 .f32 := Memref.whole cc0_scratch0
/-- The view through which the accumulator's contents are stated, -/
abbrev accV : View sig .tc .vmem S2048x128 .f32 := accM.view
/-- and one staging buffer of the output window, through which the output tile's contents are stated. -/
abbrev outV : View sig .tc .vmem S2048x256 .f32 := (Memref.whole cc0_stg5_0 : Memref sig .tc .vmem S2048x256 .f32).view

/-! ## The class invariant as owned buffers -/

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The scoped buffers this region never touches: the second region's staging buffers and accumulator. -/
abbrev others (c : Dev nD) : sProp 𝕄 :=
  iprop(anyAt (F := F) c cc1_stg0_0 ∗ anyAt (F := F) c cc1_stg0_1 ∗ anyAt (F := F) c cc1_stg1_0 ∗ anyAt (F := F) c cc1_stg1_1
    ∗ anyAt (F := F) c cc1_stg2_0 ∗ anyAt (F := F) c cc1_stg2_1 ∗ anyAt (F := F) c cc1_stg3_0 ∗ anyAt (F := F) c cc1_stg4_0
    ∗ anyAt (F := F) c cc1_stg5_0 ∗ anyAt (F := F) c cc1_stg5_1 ∗ anyAt (F := F) c cc1_scratch0)

/-- What the region's invariant is before anything has run: the accumulator at some contents, the buffers the region
    never touches, the generator register at some state. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_eq]; simp only [accM, owns_whole]; try rfl

end Cert.Kernel.R0

end
-- ==== Proof.WRegion0RunA.lean ====
/-
  The program as printed, read on machine words (a float is its bit pattern, a float operation the word-level one).
  The first layer's kernel body at contraction step 0 (the accumulator reset, no output produced).
-/
import proofs.«137329_j58411555225976_2_alg».proof.Proof.WRegion0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- At contraction step 0, on whole memrefs — the five inputs at their contents, the output tile's buffer at contents
    `xo` (handed back untouched: nothing is stored into it), the accumulator at anything — the body runs to the
    continuation holding the inputs and the output tile's buffer as they were and the accumulator with a list of
    stored pieces written over it; the list is found by running the body. -/
noncomputable def runFirst (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : isFirst i) (hc1 : ¬isLast i)
    (x0 : Vec F S2048x2048 .f32) (x1 : Vec F S2048x128 .f32) (x2 : Vec F S2048x1 .f32) (x3 : Vec F S128x256 .f32) (x4 : Vec F S1x256 .f32) :
    { LS : List (View.Piece (Elt F) S2048x128 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun xo E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R0

end
-- ==== Proof.WRegion0RunB.lean ====
/-
  The program as printed, read on machine words (a float is its bit pattern, a float operation the word-level one).
  The first layer's kernel body at a middle contraction step (no reset, no output produced).
-/
import proofs.«137329_j58411555225976_2_alg».proof.Proof.WRegion0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- At a middle contraction step, on whole memrefs — the five inputs at their contents, the output tile's buffer at
    contents `xo` (handed back untouched), the accumulator at what the step before left (`xs`) — the body runs to the
    continuation holding the inputs and the output tile's buffer as they were and the accumulator with a list of
    stored pieces written over it; the list is found by running the body. -/
noncomputable def runMid (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : ¬isFirst i) (hc1 : ¬isLast i)
    (x0 : Vec F S2048x2048 .f32) (x1 : Vec F S2048x128 .f32) (x2 : Vec F S2048x1 .f32) (x3 : Vec F S128x256 .f32) (x4 : Vec F S1x256 .f32) (xs : Vec F S2048x128 .f32) :
    { LS : List (View.Piece (Elt F) S2048x128 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun xo E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R0

end
-- ==== Proof.WRegion0RunC.lean ====
/-
  The program as printed, read on machine words (a float is its bit pattern, a float operation the word-level one).
  The first layer's kernel body at the last contraction step (the reset not taken, the output produced).
-/
import proofs.«137329_j58411555225976_2_alg».proof.Proof.WRegion0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- At the last contraction step, on whole memrefs — the five inputs at their contents, the output tile's buffer at
    anything, the accumulator at what the step before left (`xs`) — the body runs to the continuation holding the
    inputs as they were, the accumulator with one list of stored pieces written over it and the output tile's buffer
    with another. The two lists are found by running the body: they are this definition's first two components. -/
noncomputable def runLast (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : ¬isFirst i) (hc1 : isLast i)
    (x0 : Vec F S2048x2048 .f32) (x1 : Vec F S2048x128 .f32) (x2 : Vec F S2048x1 .f32) (x3 : Vec F S128x256 .f32) (x4 : Vec F S1x256 .f32) (xs : Vec F S2048x128 .f32) :
    Σ' (L5 : List (View.Piece (Elt F) S2048x256 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, ?_, fun E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R0

end
-- ==== Proof.WRegion0.lean ====
/-
  The program as printed, read on machine words (a float is its bit pattern, a float operation the word-level one).
  The first layer's kernel region: what its buffers hold point by point, and the body obligation.

  Stated at a parameter `V`, the contents of the TensorCore's buffers when the region is entered. At point `t` each
  input window's staging buffer holds that window's block of its array (`iblk`), fetched there or not. The
  accumulator after the body at point `t` is the pieces that point's case stores, read back: at step 0 they are
  computed from the point's blocks alone, at a later step also from what the point before left. The output tile's
  buffer is stored at step 3 only. `outsAt` follows both through the sixteen points, and the region's invariant
  after a point holds the accumulator at `outsAt`'s second component.
-/
import proofs.«137329_j58411555225976_2_alg».proof.Proof.WRegion0RunA
import proofs.«137329_j58411555225976_2_alg».proof.Proof.WRegion0RunB
import proofs.«137329_j58411555225976_2_alg».proof.Proof.WRegion0RunC

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch — for any proof data whose array is `V`'s and whose body leaves the
    block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The body's run at a point of step 0, on the memrefs the pipeline passes there and the point's blocks. -/
abbrev firstAt (c : Dev nD) (t : Fin cfg0.N) (h0 : t.val % 4 = 0) (h1 : ¬t.val % 4 = 3) :=
  runFirst (F := F) c (grid0.coords t) (ms0 t) (hs0 t) (ms1 t) (hs1 t) (ms2 t) (hs2 t) (ms3 t) (hs3 t) (ms4 t) (hs4 t) (ms5 t) (hs5 t) accM (Memref.isWhole_whole _) ((isFirst_iff t).mpr h0) (fun h => h1 ((isLast_iff t).mp h)) (iblk V c 0 t) (iblk V c 1 t) (iblk V c 2 t) (iblk V c 3 t) (iblk V c 4 t)
/-- The body's run at a point of a middle step, the accumulator entering at `xs`. -/
abbrev midAt (c : Dev nD) (t : Fin cfg0.N) (h0 : ¬t.val % 4 = 0) (h1 : ¬t.val % 4 = 3) (xs : Vec F S2048x128 .f32) :=
  runMid (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) (fun h => h1 ((isLast_iff t).mp h)) (iblk V c 0 t) (iblk V c 1 t) (iblk V c 2 t) (iblk V c 3 t) (iblk V c 4 t) xs
/-- The body's run at a point of step 3, the accumulator entering at `xs`. -/
abbrev lastAt (c : Dev nD) (t : Fin cfg0.N) (h0 : ¬t.val % 4 = 0) (h1 : t.val % 4 = 3) (xs : Vec F S2048x128 .f32) :=
  runLast (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) xs

/-- The pieces stored into the accumulator at a point of step 0 cover it, -/
theorem coverAccFirst (c : Dev nD) (t : Fin cfg0.N) (h0 : t.val % 4 = 0) (h1 : ¬t.val % 4 = 3) (y : S2048x128.Idx) :
    ∃ pc ∈ (firstAt V c t h0 h1).1, y ∈ pc.1.set :=
  View.cover_of_tiledL (firstAt V c t h0 h1).1 S2048x128.size (by sl_kernel_rfl) y
/-- so the accumulator after that point is those pieces read back. -/
def accFirst (c : Dev nD) (t : Fin cfg0.N) (h0 : t.val % 4 = 0) (h1 : ¬t.val % 4 = 3) : Vec F S2048x128 .f32 :=
  accV.read (Elt F) (accV.writes (Elt F) accV.junk (firstAt V c t h0 h1).1)

theorem coverAccMid (c : Dev nD) (t : Fin cfg0.N) (h0 : ¬t.val % 4 = 0) (h1 : ¬t.val % 4 = 3) (xs : Vec F S2048x128 .f32) (y : S2048x128.Idx) :
    ∃ pc ∈ (midAt V c t h0 h1 xs).1, y ∈ pc.1.set :=
  View.cover_of_tiledL (midAt V c t h0 h1 xs).1 S2048x128.size (by sl_kernel_rfl) y
/-- The accumulator after a point of a middle step. -/
def accMid (c : Dev nD) (t : Fin cfg0.N) (h0 : ¬t.val % 4 = 0) (h1 : ¬t.val % 4 = 3) (xs : Vec F S2048x128 .f32) : Vec F S2048x128 .f32 :=
  accV.read (Elt F) (accV.writes (Elt F) accV.junk (midAt V c t h0 h1 xs).1)

theorem coverAccLast (c : Dev nD) (t : Fin cfg0.N) (h0 : ¬t.val % 4 = 0) (h1 : t.val % 4 = 3) (xs : Vec F S2048x128 .f32) (y : S2048x128.Idx) :
    ∃ pc ∈ (lastAt V c t h0 h1 xs).2.1, y ∈ pc.1.set :=
  View.cover_of_tiledL (lastAt V c t h0 h1 xs).2.1 S2048x128.size (by sl_kernel_rfl) y
/-- The accumulator after a point of step 3. -/
def accLast (c : Dev nD) (t : Fin cfg0.N) (h0 : ¬t.val % 4 = 0) (h1 : t.val % 4 = 3) (xs : Vec F S2048x128 .f32) : Vec F S2048x128 .f32 :=
  accV.read (Elt F) (accV.writes (Elt F) accV.junk (lastAt V c t h0 h1 xs).2.1)

theorem coverOutLast (c : Dev nD) (t : Fin cfg0.N) (h0 : ¬t.val % 4 = 0) (h1 : t.val % 4 = 3) (xs : Vec F S2048x128 .f32) (y : S2048x256.Idx) :
    ∃ pc ∈ (lastAt V c t h0 h1 xs).1, y ∈ pc.1.set :=
  View.cover_of_tiledL (lastAt V c t h0 h1 xs).1 S2048x256.size (by sl_kernel_rfl) y
/-- The output tile's buffer after a point of step 3. -/
def outLast (c : Dev nD) (t : Fin cfg0.N) (h0 : ¬t.val % 4 = 0) (h1 : t.val % 4 = 3) (xs : Vec F S2048x128 .f32) : Vec F S2048x256 .f32 :=
  outV.read (Elt F) (outV.writes (Elt F) outV.junk (lastAt V c t h0 h1 xs).1)

/-- Where nothing is stored into the output tile's buffer its contents are never consulted (the window is idle and
    not written back): a placeholder. -/
def noOut : Vec F S2048x256 .f32 := outV.read (Elt F) outV.junk

/-! ## Point by point -/

/-- What the output tile's buffer and the accumulator hold after the body at position `n`. -/
def outsAt (c : Dev nD) : (n : ℕ) → n < cfg0.N → Vec F S2048x256 .f32 × Vec F S2048x128 .f32
  | 0, hn => (noOut, accFirst V c ⟨0, hn⟩ (Nat.zero_mod _) (fun h => absurd h (by decide : ¬(0 % 4 = 3))))
  | n + 1, hn =>
    if h0 : (n + 1) % 4 = 0 then
      if h1 : (n + 1) % 4 = 3 then False.elim (by omega)
      else (noOut, accFirst V c ⟨n + 1, hn⟩ h0 h1)
    else
      if h1 : (n + 1) % 4 = 3 then
        (outLast V c ⟨n + 1, hn⟩ h0 h1 (outsAt c n (Nat.lt_of_succ_lt hn)).2, accLast V c ⟨n + 1, hn⟩ h0 h1 (outsAt c n (Nat.lt_of_succ_lt hn)).2)
      else (noOut, accMid V c ⟨n + 1, hn⟩ h0 h1 (outsAt c n (Nat.lt_of_succ_lt hn)).2)

theorem outsAt_first (c : Dev nD) (t : Fin cfg0.N) (h0 : t.val % 4 = 0) (h1 : ¬t.val % 4 = 3) :
    outsAt V c t.val t.isLt = (noOut, accFirst V c t h0 h1) := by
  obtain ⟨n, hn⟩ := t
  cases n with
  | zero => rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (noOut, accMid V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 4 = 0) (h1 : t.val % 4 = 3) :
    outsAt V c t.val t.isLt = (outLast V c t h0 h1 (outsAt V c (t.val - 1) (Nat.lt_of_le_of_lt (Nat.sub_le _ _) t.isLt)).2,
      accLast V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: before the first point the accumulator is at anything; afterwards at what the point before
    left. Beside it, the scoped buffers the region never touches and the generator register. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its block and the output tile's at
    `outsAt`'s first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_in4 (c : Dev nD) (t : Fin cfg0.N) : (dat V c).after 4 t = iblk V c 4 t := by dsimp only [dat]
theorem after_out (c : Dev nD) (t : Fin cfg0.N) : (dat V c).after 5 t = (outsAt V c t.val t.isLt).1 := by dsimp only [dat]
theorem before_in0 (c : Dev nD) (t : Fin cfg0.N) (d) : (dat V c).before 0 t d = iblk V c 0 t :=
  before_in0_of V (dat V c) (A_eq V c 0) (after_in0 V c) t d
theorem before_in1 (c : Dev nD) (t : Fin cfg0.N) (d) : (dat V c).before 1 t d = iblk V c 1 t :=
  before_in1_of V (dat V c) (A_eq V c 1) (after_in1 V c) t d
theorem before_in2 (c : Dev nD) (t : Fin cfg0.N) (d) : (dat V c).before 2 t d = iblk V c 2 t :=
  before_in2_of V (dat V c) (A_eq V c 2) (after_in2 V c) t d
theorem before_in3 (c : Dev nD) (t : Fin cfg0.N) (d) : (dat V c).before 3 t d = iblk V c 3 t :=
  before_in3_of V (dat V c) (A_eq V c 3) (after_in3 V c) t d
theorem before_in4 (c : Dev nD) (t : Fin cfg0.N) (d) : (dat V c).before 4 t d = iblk V c 4 t :=
  before_in4_of V (dat V c) (A_eq V c 4) (after_in4 V c) t d
theorem leaves_in0 (c : Dev nD) (t : Fin cfg0.N) :
    (dat V c).leavesExact 0 t = owns (c : Thread nD τ) (ms0 t) fullShare (iblk V c 0 t) := by
  unfold Dat.leavesExact; rw [live0 t, after_in0]
theorem leaves_in1 (c : Dev nD) (t : Fin cfg0.N) :
    (dat V c).leavesExact 1 t = owns (c : Thread nD τ) (ms1 t) fullShare (iblk V c 1 t) := by
  unfold Dat.leavesExact; rw [live1 t, after_in1]
theorem leaves_in2 (c : Dev nD) (t : Fin cfg0.N) :
    (dat V c).leavesExact 2 t = owns (c : Thread nD τ) (ms2 t) fullShare (iblk V c 2 t) := by
  unfold Dat.leavesExact; rw [live2 t, after_in2]
theorem leaves_in3 (c : Dev nD) (t : Fin cfg0.N) :
    (dat V c).leavesExact 3 t = owns (c : Thread nD τ) (ms3 t) fullShare (iblk V c 3 t) := by
  unfold Dat.leavesExact; rw [live3 t, after_in3]
theorem leaves_in4 (c : Dev nD) (t : Fin cfg0.N) :
    (dat V c).leavesExact 4 t = owns (c : Thread nD τ) (ms4 t) fullShare (iblk V c 4 t) := by
  unfold Dat.leavesExact; rw [live4 t, after_in4]

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any point. The closed forms say which case the point is in; the inputs' buffers hold their blocks; the
    invariant hands over the accumulator (at anything before the first point, at what the point before left otherwise)
    and takes it back at this point's contents; the output tile's buffer comes back untouched except at step 3. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3, leaves_in4]
  have hN : t.val < 16 := lt_of_lt_of_eq t.isLt (show cfg0.N = 16 from N_0)
  by_cases h0 : t.val % 4 = 0
  · have h1 : ¬t.val % 4 = 3 := by omega
    rw [Dat.leavesExact_idle (dat V c) 5 t (idle5 t (fun h => h1 ((isLast_iff t).mp h))) (noFlush5 t (fun h => h1 ((isLast_iff t).mp h)))]
    rw [outsAt_first V c t h0 h1]
    unfold accFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((firstAt V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccFirst V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((firstAt V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccFirst V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

  · have hz : t.val ≠ 0 := fun e => h0 (by rw [e])
    by_cases h1 : t.val % 4 = 3
    · rw [show (dat V c).leavesExact 5 t = owns (c : Thread nD τ) (ms5 t) fullShare ((dat V c).after 5 t) from by
      unfold Dat.leavesExact; rw [live5 t ((isLast_iff t).mpr h1)], after_out]
      rw [outsAt_last V c t h0 h1]
      unfold outLast accLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((lastAt V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAccLast V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast V c t h0 h1 _)

    · rw [Dat.leavesExact_idle (dat V c) 5 t (idle5 t (fun h => h1 ((isLast_iff t).mp h))) (noFlush5 t (fun h => h1 ((isLast_iff t).mp h)))]
      rw [outsAt_mid V c t h0 h1]
      unfold accMid; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((midAt V c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccMid V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]; · iexists _; iexact HS
    iexact Hrest
  iexact Hg

theorem hout (c : Dev nD) : (dat V c).Φ (Fin.last cfg0.N) ⊢ Pipeline.ΦA spec0 c :=
  Phi_out V c _ (by rw [Fin.val_last]; have : cfg0.N = 16 := N_0; omega)

end

end Cert.Kernel.R0

end
-- ==== Proof.WRegion1Runs.lean ====
/-
  The program as printed, read on machine words (a float is its bit pattern, a float operation the word-level one).
  The second layer's kernel region: the facts its three control cases have in common.

  The grid is 4 × 4 and point `t` stands for row tile `t / 4` and contraction step `t % 4`. The accumulator
  (2048 × 256, a scratch buffer owned by the kernel, whose contents survive from one point to the next) is cleared
  when the step is 0, receives `tile · slab` at every step, and at step 3 is scaled row by row, multiplied by the
  256 × 10 weights and shifted by the bias row to give the 2048 × 10 output tile. A point is therefore in exactly
  one of three cases — step 0, step 1 or 2, step 3 — and the output tile's staging buffer is stored, and written
  back, only in the last of them.
-/
import proofs.«137329_j58411555225976_2_alg».proof.Proof.Gen.Kernel.Launch
import proofs.«137329_j58411555225976_2_alg».proof.Proof.Gen.Kernel.Skeleton
import proofs.«137329_j58411555225976_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals, decided over the grid -/

/-- The first conditional's guard, as the body computes it from grid coordinate 1: the contraction step is 0,
    so the accumulator is cleared. -/
abbrev isFirst (i : grid1.Coords) : Prop :=
  (Scalar.cmpi .ne (Scalar.extui (Scalar.cmpi .eq (BitVec.ofNat 32 (i 1).val) 0#32)) 0#32) = 1#1
/-- Over the sixteen points it holds exactly where `t % 4 = 0`. -/
theorem isFirst_iff : ∀ t : Fin cfg1.N, isFirst (grid1.coords t) ↔ t.val % 4 = 0 :=
  (by decide +kernel : ∀ t : Fin grid1.N, isFirst (grid1.coords t) ↔ t.val % 4 = 0)

/-- The second conditional's guard: the contraction step is 3, so the output tile is formed and stored. -/
abbrev isLast (i : grid1.Coords) : Prop := k1_cond2 i = 1#1
/-- Over the sixteen points it holds exactly where `t % 4 = 3`. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

/-- The five input windows are live at every point. -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- At steps 0, 1 and 2 the body stores nothing into the output tile's buffer, and the window is idle there; -/
theorem idle5 : ∀ t : Fin cfg1.N, ¬isLast (grid1.coords t) → cfg1.idle 5 (grid1.coords t) = true := by decide +kernel
/-- nor is its block written back at those points. -/
theorem noFlush5 : ∀ t : Fin cfg1.N, ¬isLast (grid1.coords t) → (cfg1.win 5).flush t = false := by decide +kernel
/-- At step 3 the output window is live: its tile is stored. -/
theorem live5 : ∀ t : Fin cfg1.N, isLast (grid1.coords t) → cfg1.idle 5 (grid1.coords t) = false := by decide +kernel

/-! ## The memrefs the body is called with -/

/-- Window `w`'s staging memref in use at point `t`, and the fact that it is a whole buffer. -/

abbrev ms0 (t : Fin cfg1.N) : Memref sig .tc .vmem S2048x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x10 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x10 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x10 .f32 := win1_5.stage (cfg1.slots t 5)
abbrev hs5 (t : Fin cfg1.N) : (ms5 t).IsWhole := hstage1_5 ((cfg1.slots t 5).cast nbuf1_5)
/-- The 2048 × 256 accumulator, a whole scoped buffer that belongs to this kernel alone. -/
abbrev accM : Memref sig .tc .vmem S2048x256 .f32 := Memref.whole cc1_scratch0
/-- Its view: the accumulator's contents are read through it. -/
abbrev accV : View sig .tc .vmem S2048x256 .f32 := accM.view
/-- A view of the output tile's shape (that of the window's first staging buffer), through which the tile's contents
    are read; which staging buffer is taken makes no difference to what is read. -/
abbrev outV : View sig .tc .vmem S2048x10 .f32 := (Memref.whole cc1_stg5_0 : Memref sig .tc .vmem S2048x10 .f32).view

/-! ## The region's invariant as owned buffers -/

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The eleven scoped buffers this region never touches — the first layer's ten staging buffers and its accumulator —
    each held at some contents, followed by a resource `S` in the place where this layer's accumulator stands (it is the
    twelfth and last scoped buffer that is no staging buffer of this region). -/
abbrev othersThen (c : Dev nD) (S : sProp 𝕄) : sProp 𝕄 :=
  iprop(anyAt (F := F) c cc0_stg0_0 ∗ anyAt (F := F) c cc0_stg0_1 ∗ anyAt (F := F) c cc0_stg1_0 ∗ anyAt (F := F) c cc0_stg1_1
    ∗ anyAt (F := F) c cc0_stg2_0 ∗ anyAt (F := F) c cc0_stg2_1 ∗ anyAt (F := F) c cc0_stg3_0 ∗ anyAt (F := F) c cc0_stg4_0
    ∗ anyAt (F := F) c cc0_stg5_0 ∗ anyAt (F := F) c cc0_stg5_1 ∗ anyAt (F := F) c cc0_scratch0 ∗ S)

/-- Before any point has run the invariant is: the eleven untouched buffers, the accumulator at some contents, and the
    generator register at some state. -/
theorem PhiA_eq (c : Dev nD) :
    (Pipeline.ΦA spec1 c : sProp 𝕄)
      = iprop(othersThen (F := F) c iprop(∃ d, owns (c : Thread nD τ) accM fullShare d) ∗ (∃ r, prngReg c r)) := by
  unfold Pipeline.ΦA; rw [scopedRest1_eq]; simp only [accM, owns_whole]; try rfl

end Cert.Kernel.R1

end
-- ==== Proof.WRegion1RunA.lean ====
/-
  The program as printed, read on machine words (a float is its bit pattern, a float operation the word-level one).
  The second layer's kernel body when the contraction step is 0: the accumulator is cleared, then receives
  `tile · slab`; no output tile is formed.
-/
import proofs.«137329_j58411555225976_2_alg».proof.Proof.WRegion1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- Step 0. Given whole memrefs holding the five input blocks `x0 … x4`, the output tile's buffer at contents `xo`
    and the accumulator at any contents, the body runs to a continuation that receives the six window buffers exactly
    as they were (the output tile's buffer is not stored into) and the accumulator overwritten by a list `LS` of
    stored pieces. The list is this definition's value; it is determined by executing the body's memory operations
    in order. -/
noncomputable def runFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) :
    { LS : List (View.Piece (Elt F) S2048x256 .f32) //
      ∀ (xo : Vec F S2048x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, fun xo E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.WRegion1RunB.lean ====
/-
  The program as printed, read on machine words (a float is its bit pattern, a float operation the word-level one).
  The second layer's kernel body when the contraction step is 1 or 2: the accumulator receives `tile · slab` on top of
  what it held; it is not cleared and no output tile is formed.
-/
import proofs.«137329_j58411555225976_2_alg».proof.Proof.WRegion1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- Steps 1 and 2. Given whole memrefs holding the five input blocks, the output tile's buffer at contents `xo` and
    the accumulator at the contents `xs` the previous step left, the body runs to a continuation that receives the
    six window buffers exactly as they were and the accumulator overwritten by a list `LS` of stored pieces, found by
    executing the body's memory operations in order. -/
noncomputable def runMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) :
    { LS : List (View.Piece (Elt F) S2048x256 .f32) //
      ∀ (xo : Vec F S2048x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, fun xo E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.WRegion1RunC.lean ====
/-
  The program as printed, read on machine words (a float is its bit pattern, a float operation the word-level one).
  The second layer's kernel body when the contraction step is 3: the accumulator receives the last `tile · slab`, and
  the output tile — the accumulator scaled row by row, times the weights, plus the bias row — is stored.
-/
import proofs.«137329_j58411555225976_2_alg».proof.Proof.WRegion1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- Step 3. Given whole memrefs holding the five input blocks, the output tile's buffer at any contents and the
    accumulator at the contents `xs` the previous step left, the body runs to a continuation that receives the five
    input buffers as they were, the output tile's buffer overwritten by a list `L5` of stored pieces and the
    accumulator overwritten by a list `LS`. Both lists are found by executing the body's memory operations in order;
    they are the first two components of this definition. -/
noncomputable def runLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) :
    Σ' (L5 : List (View.Piece (Elt F) S2048x10 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, ?_, fun E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R1

end
-- ==== Proof.WRegion1.lean ====
/-
  The program as printed, read on machine words (a float is its bit pattern, a float operation the word-level one).
  The second layer's kernel region: what its buffers hold point by point, and the body's triple at every point.

  After the body at point `t` the accumulator holds: at step 0, `tile · slab` added to zero; at a later step, `tile · slab`
  added to what the previous point left. The output tile's staging buffer is stored only at step 3, from the accumulator
  as that same point leaves it. These contents are defined by recursion on the point (`outsAt`); the region's invariant
  before a point that is not the first names the accumulator's contents after the point before (`PhiS`); and the body's
  triple at a point follows from the run of the case the point is in.
-/
import proofs.«137329_j58411555225976_2_alg».proof.Proof.WRegion1RunA
import proofs.«137329_j58411555225976_2_alg».proof.Proof.WRegion1RunB
import proofs.«137329_j58411555225976_2_alg».proof.Proof.WRegion1RunC

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the window's array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block was
    fetched at that point (where it was not, the block index is the one of the point before), for any proof data whose
    array is `V`'s and whose body leaves the block in place. One statement per input window. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, as the stored pieces read back -/

/-- The output tile's buffer at a point where nothing is stored into it: contents nobody reads (the window is idle
    there, and its block is not written back). -/
def idleOut : Vec F S2048x10 .f32 := outV.read (Elt F) (outV.junk (Val := Elt F))

/-- At step 0 the stored pieces cover the accumulator. -/
theorem coverAccFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) (y : S2048x256.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S2048x256.size (by sl_kernel_rfl) y

/-- What step 0 leaves in the accumulator: its pieces read back. -/
def accFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) : Vec F S2048x256 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

/-- At step 1 or 2 the stored pieces cover the accumulator. -/
theorem coverAccMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x256.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S2048x256.size (by sl_kernel_rfl) y

/-- What step 1 or 2 leaves in the accumulator. -/
def accMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x256 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

/-- At step 3 the stored pieces cover the output tile, -/
theorem coverOutLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x10.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S2048x10.size (by sl_kernel_rfl) y

/-- and this is the output tile: its pieces read back. -/
def outLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x10 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-- At step 3 the stored pieces cover the accumulator too. -/
theorem coverAccLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S2048x256.size (by sl_kernel_rfl) y

/-- What step 3 leaves in the accumulator. -/
def accLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x256 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-! ## What the buffers hold after each point -/

/-- The output tile's staging buffer and the accumulator after the body at position `n`: the case that `n % 4` selects,
    run at the point's memrefs and input blocks, over the accumulator as position `n - 1` left it. (Step 0 and step 3 at
    once is no point of the grid.) -/
def outsAt (c : Dev nD) : (n : ℕ) → n < cfg1.N → Vec F S2048x10 .f32 × Vec F S2048x256 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 4 = 0 then
      if h1 : (n + 1) % 4 = 3 then
        False.elim (by omega)
      else
        (idleOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (idleOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at a point of step 0. -/
theorem outsAt_first (c : Dev nD) (t : Fin cfg1.N) (h0 : t.val % 4 = 0) (h1 : ¬t.val % 4 = 3) :
    outsAt V c t.val t.isLt = (idleOut, accFirst c (grid1.coords t) (ms0 t) (hs0 t) (ms1 t) (hs1 t) (ms2 t) (hs2 t) (ms3 t) (hs3 t) (ms4 t) (hs4 t) (ms5 t) (hs5 t) accM (Memref.isWhole_whole _) ((isFirst_iff t).mpr h0) (fun h => h1 ((isLast_iff t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt` at a point of step 1 or 2: over what the point before left. -/
theorem outsAt_mid (c : Dev nD) (t : Fin cfg1.N) (h0 : ¬t.val % 4 = 0) (h1 : ¬t.val % 4 = 3) :
    outsAt V c t.val t.isLt = (idleOut, accMid c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) (fun h => h1 ((isLast_iff t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of step 3: over what the point before left. -/
theorem outsAt_last (c : Dev nD) (t : Fin cfg1.N) (h0 : ¬t.val % 4 = 0) (h1 : t.val % 4 = 3) :
    outsAt V c t.val t.isLt = (outLast c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) (outsAt V c (t.val - 1) (Nat.lt_of_le_of_lt (Nat.sub_le _ _) t.isLt)).2, accLast c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position 0: the invariant the launch hands over (the accumulator at anything). Before position `n + 1`: the
    eleven untouched buffers, the accumulator at what position `n` left in it, and the generator register. -/
def PhiS (c : Dev nD) : (n : ℕ) → n ≤ cfg1.N → sProp 𝕄
  | 0, _ => Pipeline.ΦA spec1 c
  | n + 1, hn => iprop(othersThen (F := F) c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(othersThen (F := F) c (owns (c : Thread nD τ) accM fullShare ((outsAt V c n hn).2)) ∗ (∃ r, prngReg c r)) := rfl

theorem PhiS_pos (c : Dev nD) (n : ℕ) (h : n ≤ cfg1.N) (hz : n ≠ 0) :
    PhiS V c n h = iprop(othersThen (F := F) c (owns (c : Thread nD τ) accM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` every input's
    buffer at its block and the output tile's buffer at `outsAt`'s first component; the invariant `PhiS`; full shares;
    nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body's triple at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' buffers hold their blocks; `t % 4` says which case the point is in; the invariant
    hands over the accumulator (at anything before the first point, at what the point before left otherwise) and takes it
    back at this point's contents, which the stored pieces determine because they cover it; at steps 0, 1, 2 the output
    tile's buffer goes back untouched, at step 3 at the tile its pieces cover; the eleven other buffers, the generator
    register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle5 t (fun h => h1 ((isLast_iff t).mp h))) (noFlush5 t (fun h => h1 ((isLast_iff t).mp h)))]
      rw [outsAt_first V c t h0 h1]
      unfold accFirst; (try dsimp only)
      by_cases hz : t.val = 0
      · rw [PhiS_castSucc V c t, PhiS_zero V c _ _ hz, PhiA_eq]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((isFirst_iff t).mpr h0) (fun h => h1 ((isLast_iff t).mp h)) (iblk V c 0 t) (iblk V c 1 t) (iblk V c 2 t) (iblk V c 3 t) (iblk V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((isFirst_iff t).mpr h0) (fun h => h1 ((isLast_iff t).mp h)) (iblk V c 0 t) (iblk V c 1 t) (iblk V c 2 t) (iblk V c 3 t) (iblk V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t ((isLast_iff t).mpr h1)], after_out]
      rw [outsAt_last V c t h0 h1]
      unfold outLast accLast; (try dsimp only)
      by_cases hz : t.val = 0
      · exfalso; omega
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runLast c (grid1.coords t) _ _ _ _ _ _ _ _ _ _ _ _ _ _ (fun h => h0 ((isFirst_iff t).mp h)) ((isLast_iff t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccLast c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverOutLast c _ _ _ _ _ _ _ _ _ _ _ _ _ _ _ _ _ _ _ _ _ _ _)
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle5 t (fun h => h1 ((isLast_iff t).mp h))) (noFlush5 t (fun h => h1 ((isLast_iff t).mp h)))]
      rw [outsAt_mid V c t h0 h1]
      unfold accMid; (try dsimp only)
      by_cases hz : t.val = 0
      · exfalso; omega
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runMid c (grid1.coords t) _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccMid c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨O1, O2, O3, O4, O5, O6, O7, O8, O9, O10, O11, HS⟩, Hg⟩
  isplitl [O1 O2 O3 O4 O5 O6 O7 O8 O9 O10 O11 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Cert.Kernel.R1

end
-- ==== Proof.WKRun.lean ====
/-
  The program as printed, read on machine words (a float is its bit pattern, a float operation the word-level one).
  The kernel's program from launch to return: its host operations and its two kernel regions in order.

  Between two items every unscoped buffer of a core is held whole at a known valuation: the launch memory, then each
  stretch of host operations applied (`StableHlo.after`), and after a region that region's arrays at what its
  write-backs leave (`Dat.arrAt … N`, every other buffer as the region found it). Each region is entered from the
  valuation before it and hands over the valuation after it; what rides along unchanged is the core's generator
  register and the fact that it owes nothing. The run's conclusion: every weakly fair execution terminates, and at the
  end every unscoped buffer holds the last valuation's contents.
-/
import proofs.«137329_j58411555225976_2_alg».proof.Proof.Gen.Kernel.Regions
import proofs.«137329_j58411555225976_2_alg».proof.Proof.WRegion0
import proofs.«137329_j58411555225976_2_alg».proof.Proof.WRegion1
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- What the first region is entered from (the launch memory after the four stretches of host operations before it),
    read at the TensorCore's references. -/
abbrev X4 : (c : Dev nD) → (b : Ref sig .tc) → Buf (Elt F) ((c : Thread nD τ).loc b) := fun c b => Gen.V4 m c b
/-- After the first region: its arrays at what its write-backs leave, every other buffer as entered. -/
def W5 (c : Dev nD) : Valuation τ sig (Elt F) :=
  Pipeline.withArrays spec0 c (Gen.V4 m c) fun w => (R0.dat (X4 m) c).arrAt w cfg0.N
abbrev X5 : (c : Dev nD) → (b : Ref sig .tc) → Buf (Elt F) ((c : Thread nD τ).loc b) := fun c b => W5 m c b
/-- After the host operations between the regions. -/
abbrev W6 (c : Dev nD) : Valuation τ sig (Elt F) := StableHlo.after hostOps1 (W5 m c)
abbrev X6 : (c : Dev nD) → (b : Ref sig .tc) → Buf (Elt F) ((c : Thread nD τ).loc b) := fun c b => W6 m c b
/-- After the second region. -/
def W7 (c : Dev nD) : Valuation τ sig (Elt F) :=
  Pipeline.withArrays spec1 c (W6 m c) fun w => (R1.dat (X6 m) c).arrAt w cfg1.N
abbrev X7 : (c : Dev nD) → (b : Ref sig .tc) → Buf (Elt F) ((c : Thread nD τ).loc b) := fun c b => W7 m c b
/-- After the last stretch of host operations: what the program ends with. -/
abbrev W8 (c : Dev nD) : Valuation τ sig (Elt F) := StableHlo.after hostOps2 (W7 m c)

theorem W5_arr (c : Dev nD) (w : Fin cfg0.W) :
    W5 m c (Proc.devRef .tc (Pipeline.arrRef spec0 w)) = (R0.dat (X4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
theorem hF0 (c : Dev nD) (w : Fin cfg0.W) : (R0.dat (X4 m) c).arrAt w cfg0.N = X5 m c (Pipeline.arrRef spec0 w) :=
  (W5_arr m c w).symm
theorem hrest0 (c : Dev nD) : ∀ b, b ∉ Finset.univ.image (Pipeline.arrRef spec0) → X5 m c b = X4 m c b :=
  fun b hb => W5_of_ne m c b fun w e => hb (Finset.mem_image.mpr ⟨w, Finset.mem_univ _, e⟩)

theorem W7_arr (c : Dev nD) (w : Fin cfg1.W) :
    W7 m c (Proc.devRef .tc (Pipeline.arrRef spec1 w)) = (R1.dat (X6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (R1.dat (X6 m) c).arrAt w cfg1.N = X7 m c (Pipeline.arrRef spec1 w) :=
  (W7_arr m c w).symm
theorem hrest1 (c : Dev nD) : ∀ b, b ∉ Finset.univ.image (Pipeline.arrRef spec1) → X7 m c b = X6 m c b :=
  fun b hb => W7_of_ne m c b fun w e => hb (Finset.mem_image.mpr ⟨w, Finset.mem_univ _, e⟩)

/-! ## The proof data family and what rides along -/

/-- Each region's proof data at its entry contents: a literal match on the region's number. -/
def pdats : (p : Fin 2) → (c : Dev nD) → Dat τ (Elt F) Unit ℕ (UR sig nD τ) ℕ (Pipeline.pin (pcfgs (F := F)) adm p) c
  | ⟨0, _⟩ => fun c => R0.dat (X4 m) c
  | ⟨1, _⟩ => fun c => R1.dat (X6 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev rest (c : Dev nD) : sProp 𝕄 := iprop((∃ r, prngReg c r) ∗ ∃ W, owes (c : Thread nD τ) (0 : CellTallies nD τ sig Unit) W)
/-- The same at every stage of the program (the generated host segments take it indexed by stage). -/
abbrev restAt : Fin 3 → Dev nD → sProp 𝕄 := fun _ c => rest (F := F) c

theorem hostOps1_fresh : (hostOps1 : List (HloOp τ sig (Elt F))).Forall fun op => op.fresh = ∅ := Gen.hostOps1_fresh
theorem hostOps2_fresh : (hostOps2 : List (HloOp τ sig (Elt F))).Forall fun op => op.fresh = ∅ := Gen.hostOps2_fresh

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (rest (F := F))

/-! ## The regions as segments -/

set_option backward.isDefEq.respectTransparency.types false in
/-- The first layer's region as a segment: entered with every unscoped buffer at the contents before it,
    left with the region's arrays at what its write-backs leave and every other buffer as entered. The arrays are split
    out of the unscoped buffers on entry and put back on exit; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (X4 m) c).loose
  hwaits := Pipeline.hwaits_of_owed_zero _ _ _ _ L lv 0 fun _ _ => rfl
  pre c := iprop(StableHlo.held (c : Thread nD τ) (Pipeline.ucRefs τ sig) (Gen.V4 m c) ∗ rest (F := F) c)
  post c := iprop(StableHlo.held (c : Thread nD τ) (Pipeline.ucRefs τ sig) (W5 m c) ∗ rest (F := F) c)
  X c := iprop(∃ r, prngReg c r)
  Y c := iprop(∃ r, prngReg c r)
  Z c := Pipeline.unscopedRest (Ix := Unit) (Name := ℕ) (U := UR sig nD τ) (Lvl := ℕ) spec0 c (X4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (X4 m) c)
    unfold Pipeline.ΦA
    iintro ⟨Hp, -, Hr⟩
    isplitl [Hr]; · iexact Hr
    iexact Hp
  hout c := by
    rw [Pipeline.ownSems0_none]
    refine BIBase.Entails.trans (R0.hout (X4 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X4 m c) (X5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region as a segment: entered with every unscoped buffer at the contents before it,
    left with the region's arrays at what its write-backs leave and every other buffer as entered. The arrays are split
    out of the unscoped buffers on entry and put back on exit; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (X6 m) c).loose
  hwaits := Pipeline.hwaits_of_owed_zero _ _ _ _ L lv 1 fun _ _ => rfl
  pre c := iprop(StableHlo.held (c : Thread nD τ) (Pipeline.ucRefs τ sig) (W6 m c) ∗ rest (F := F) c)
  post c := iprop(StableHlo.held (c : Thread nD τ) (Pipeline.ucRefs τ sig) (W7 m c) ∗ rest (F := F) c)
  X c := iprop(∃ r, prngReg c r)
  Y c := iprop(∃ r, prngReg c r)
  Z c := Pipeline.unscopedRest (Ix := Unit) (Name := ℕ) (U := UR sig nD τ) (Lvl := ℕ) spec1 c (X6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (X6 m) c)
    unfold Pipeline.ΦA
    iintro ⟨Hp, -, Hr⟩
    isplitl [Hr]; · iexact Hr
    iexact Hp
  hout c := by
    rw [Pipeline.ownSems0_none]
    refine BIBase.Entails.trans (R1.hout (X6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X6 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's eight items on a core: four stretches of host operations, the first region, one stretch, the second
    region, the last stretch. -/
abbrev segs (c : Dev nD) : List (Seg (pcfgs (F := F)) adm (pdats m) () defs₀ 𝒱₀ L lv) :=
  [ .host (Gen.seg0 m 𝒱₀ L lv (restAt (F := F))), .host (Gen.seg1 m 𝒱₀ L lv (restAt (F := F))), .host (Gen.seg2 m 𝒱₀ L lv (restAt (F := F))),
    .host (Gen.seg3 m 𝒱₀ L lv (restAt (F := F))), .region (reg0 m), .host (hseg hostOps1 hostOps1_sub hostOps1_fresh (W5 m)),
    .region (reg1 m), .host (hseg hostOps2 hostOps2_sub hostOps2_fresh (W7 m)) ]

/-- After the last item: the buffers and the generator register on one side, the core owing nothing on the other. -/
theorem lastLink (c : Dev nD) :
    (iprop(StableHlo.held (c : Thread nD τ) (Pipeline.ucRefs τ sig) (W8 m c) ∗ rest (F := F) c) : sProp 𝕄)
      ⊢ iprop(iprop(StableHlo.held (c : Thread nD τ) (Pipeline.ucRefs τ sig) (W8 m c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN. From any memory with zero counters every weakly fair execution of the program terminates, nothing
    faulting, and at the end every unscoped buffer of every core holds the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest (F := F) c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl, lastLink m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Run

end
-- ==== Proof.WKArgs.lean ====
/-
  The program as printed, read on machine words (a float is its bit pattern, a float operation the word-level one).
  The program's arguments end as launched: no host operation writes an argument, and a region either reads it through
  an input window (whose array the write-backs never touch) or does not see it at all. So the last valuation at an
  argument walks back, item by item, to the launch memory; with the run this is the frame statement.
-/
import proofs.«137329_j58411555225976_2_alg».proof.Proof.WKRun

set_option maxRecDepth 16384

noncomputable section

namespace Cert.Kernel.Run

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ)

/-- An unscoped TensorCore reference is among those the run's last state reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer no host operation writes, and that each region leaves as it found it, ends as launched. -/
theorem W8_keep (c : Dev nD) (b : Ref sig .tc) (h2 : b ∉ hostOps2_W) (h7 : W7 m c b = W6 m c b)
    (h1 : b ∉ hostOps1_W) (h5 : W5 m c b = Gen.V4 m c b)
    (h03 : b ∉ hostOps0_3_W) (h02 : b ∉ hostOps0_2_W) (h01 : b ∉ hostOps0_1_W) (h00 : b ∉ hostOps0_W) :
    W8 m c b = m ((c : Thread nD τ).loc b) :=
  (StableHlo.after_of_writes_sub hostOps2 _ Gen.hostOps2_writes h2).trans <| h7.trans <|
    (StableHlo.after_of_writes_sub hostOps1 _ Gen.hostOps1_writes h1).trans <| h5.trans <|
    (Gen.V4_of m c b h03).trans <| (Gen.V3_of m c b h02).trans <| (Gen.V2_of m c b h01).trans <| (Gen.V1_of m c b h00).trans rfl

theorem W8_arg0 (c : Dev nD) : W8 m c main_arg0 = m ((c : Thread nD τ).loc main_arg0) :=
  W8_keep m c main_arg0 (by decide) ((W7_arr m c 0).trans (((R1.dat (X6 m) c).arrAt_in 0 rfl _).trans (R1.A_eq (X6 m) c 0))) (by decide) ((W5_arr m c 0).trans (((R0.dat (X4 m) c).arrAt_in 0 rfl _).trans (R0.A_eq (X4 m) c 0))) (by decide) (by decide) (by decide) (by decide)
theorem W8_arg1 (c : Dev nD) : W8 m c main_arg1 = m ((c : Thread nD τ).loc main_arg1) :=
  W8_keep m c main_arg1 (by decide) (W7_of_ne m c main_arg1 (by decide)) (by decide) (W5_of_ne m c main_arg1 (by decide)) (by decide) (by decide) (by decide) (by decide)
theorem W8_arg2 (c : Dev nD) : W8 m c main_arg2 = m ((c : Thread nD τ).loc main_arg2) :=
  W8_keep m c main_arg2 (by decide) (W7_of_ne m c main_arg2 (by decide)) (by decide) (W5_of_ne m c main_arg2 (by decide)) (by decide) (by decide) (by decide) (by decide)
theorem W8_arg3 (c : Dev nD) : W8 m c main_arg3 = m ((c : Thread nD τ).loc main_arg3) :=
  W8_keep m c main_arg3 (by decide) (W7_of_ne m c main_arg3 (by decide)) (by decide) ((W5_arr m c 3).trans (((R0.dat (X4 m) c).arrAt_in 3 rfl _).trans (R0.A_eq (X4 m) c 3))) (by decide) (by decide) (by decide) (by decide)
theorem W8_arg4 (c : Dev nD) : W8 m c main_arg4 = m ((c : Thread nD τ).loc main_arg4) :=
  W8_keep m c main_arg4 (by decide) (W7_of_ne m c main_arg4 (by decide)) (by decide) (W5_of_ne m c main_arg4 (by decide)) (by decide) (by decide) (by decide) (by decide)
theorem W8_arg5 (c : Dev nD) : W8 m c main_arg5 = m ((c : Thread nD τ).loc main_arg5) :=
  W8_keep m c main_arg5 (by decide) ((W7_arr m c 3).trans (((R1.dat (X6 m) c).arrAt_in 3 rfl _).trans (R1.A_eq (X6 m) c 3))) (by decide) (W5_of_ne m c main_arg5 (by decide)) (by decide) (by decide) (by decide) (by decide)
theorem W8_arg6 (c : Dev nD) : W8 m c main_arg6 = m ((c : Thread nD τ).loc main_arg6) :=
  W8_keep m c main_arg6 (by decide) (W7_of_ne m c main_arg6 (by decide)) (by decide) (W5_of_ne m c main_arg6 (by decide)) (by decide) (by decide) (by decide) (by decide)
theorem W8_arg7 (c : Dev nD) : W8 m c main_arg7 = m ((c : Thread nD τ).loc main_arg7) :=
  W8_keep m c main_arg7 (by decide) (W7_of_ne m c main_arg7 (by decide)) (by decide) (W5_of_ne m c main_arg7 (by decide)) (by decide) (by decide) (by decide) (by decide)

/-- THE FRAME: every weakly fair execution terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_arg0 m c),
     (h c _ (mem_uc main_arg1 (by decide))).trans (W8_arg1 m c),
     (h c _ (mem_uc main_arg2 (by decide))).trans (W8_arg2 m c),
     (h c _ (mem_uc main_arg3 (by decide))).trans (W8_arg3 m c),
     (h c _ (mem_uc main_arg4 (by decide))).trans (W8_arg4 m c),
     (h c _ (mem_uc main_arg5 (by decide))).trans (W8_arg5 m c),
     (h c _ (mem_uc main_arg6 (by decide))).trans (W8_arg6 m c),
     (h c _ (mem_uc main_arg7 (by decide))).trans (W8_arg7 m c)⟩) (run m ρ)

end Cert.Kernel.Run

end
-- ==== Proof.Region0Runs.lean ====
/-
  The first layer's kernel region: what its three control cases share.

  A grid point `t` of the 4 × 4 grid is row tile `t / 4` at contraction step `t % 4`. The body's first conditional
  (reset the accumulator) is taken exactly at step 0, its second (scale, multiply by the weights, add the bias, clamp
  and store the output tile) exactly at step 3. So a point is in one of three cases: step 0, a middle step, step 3.
  The output tile's staging buffer is stored only at step 3; at the other points the window is idle and nothing is
  written back. The accumulator lives in a scratch buffer of the kernel's own that keeps its contents from one point
  to the next.
-/
import proofs.«137329_j58411555225976_2_alg».proof.Proof.Gen.KernelIdeal.Launch
import proofs.«137329_j58411555225976_2_alg».proof.Proof.Gen.KernelIdeal.Skeleton
import proofs.«137329_j58411555225976_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals, decided over the grid -/

/-- The accumulator is reset: the contraction step (grid coordinate 1) is 0. -/
abbrev isFirst (i : grid0.Coords) : Prop :=
  (Scalar.cmpi .ne (Scalar.extui (Scalar.cmpi .eq (BitVec.ofNat 32 (i 1).val) 0#32)) 0#32) = 1#1
/-- That is the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)

/-- The output tile is produced: the contraction step is the last one. -/
abbrev isLast (i : grid0.Coords) : Prop := k0_cond2 i = 1#1
/-- That is the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last step nothing is stored into the output tile's buffer: the window is idle there, -/
theorem idle5 : ∀ t : Fin cfg0.N, ¬isLast (grid0.coords t) → cfg0.idle 5 (grid0.coords t) = true := by decide +kernel
/-- and it is not written back there. -/
theorem noFlush5 : ∀ t : Fin cfg0.N, ¬isLast (grid0.coords t) → (cfg0.win 5).flush t = false := by decide +kernel
/-- At the last step the output tile is stored. -/
theorem live5 : ∀ t : Fin cfg0.N, isLast (grid0.coords t) → cfg0.idle 5 (grid0.coords t) = false := by decide +kernel

/-! ## The memrefs the body is called with -/

abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S2048x128 .f32 := Memref.whole cc0_scratch0
/-- The view through which the accumulator's contents are stated, -/
abbrev accV : View sig .tc .vmem S2048x128 .f32 := accM.view
/-- and one staging buffer of the output window, through which the output tile's contents are stated. -/
abbrev outV : View sig .tc .vmem S2048x256 .f32 := (Memref.whole cc0_stg5_0 : Memref sig .tc .vmem S2048x256 .f32).view

/-! ## The class invariant as owned buffers -/

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The scoped buffers this region never touches: the second region's staging buffers and accumulator. -/
abbrev others (c : Dev nD) : sProp 𝕄 :=
  iprop(anyAt (F := F) c cc1_stg0_0 ∗ anyAt (F := F) c cc1_stg0_1 ∗ anyAt (F := F) c cc1_stg1_0 ∗ anyAt (F := F) c cc1_stg1_1
    ∗ anyAt (F := F) c cc1_stg2_0 ∗ anyAt (F := F) c cc1_stg2_1 ∗ anyAt (F := F) c cc1_stg3_0 ∗ anyAt (F := F) c cc1_stg4_0
    ∗ anyAt (F := F) c cc1_stg5_0 ∗ anyAt (F := F) c cc1_stg5_1 ∗ anyAt (F := F) c cc1_scratch0)

/-- What the region's invariant is before anything has run: the accumulator at some contents, the buffers the region
    never touches, the generator register at some state. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_eq]; simp only [accM, owns_whole]; try rfl

end Cert.KernelIdeal.R0

end
-- ==== Proof.Region0RunA.lean ====
/-
  The first layer's kernel body at contraction step 0 (the accumulator reset, no output produced).
-/
import proofs.«137329_j58411555225976_2_alg».proof.Proof.Region0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- At contraction step 0, on whole memrefs — the five inputs at their contents, the output tile's buffer at contents
    `xo` (handed back untouched: nothing is stored into it), the accumulator at anything — the body runs to the
    continuation holding the inputs and the output tile's buffer as they were and the accumulator with a list of
    stored pieces written over it; the list is found by running the body. -/
noncomputable def runFirst (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : isFirst i) (hc1 : ¬isLast i)
    (x0 : Vec F S2048x2048 .f32) (x1 : Vec F S2048x128 .f32) (x2 : Vec F S2048x1 .f32) (x3 : Vec F S128x256 .f32) (x4 : Vec F S1x256 .f32) :
    { LS : List (View.Piece (Elt F) S2048x128 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun xo E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R0

end
-- ==== Proof.Region0RunB.lean ====
/-
  The first layer's kernel body at a middle contraction step (no reset, no output produced).
-/
import proofs.«137329_j58411555225976_2_alg».proof.Proof.Region0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- At a middle contraction step, on whole memrefs — the five inputs at their contents, the output tile's buffer at
    contents `xo` (handed back untouched), the accumulator at what the step before left (`xs`) — the body runs to the
    continuation holding the inputs and the output tile's buffer as they were and the accumulator with a list of
    stored pieces written over it; the list is found by running the body. -/
noncomputable def runMid (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : ¬isFirst i) (hc1 : ¬isLast i)
    (x0 : Vec F S2048x2048 .f32) (x1 : Vec F S2048x128 .f32) (x2 : Vec F S2048x1 .f32) (x3 : Vec F S128x256 .f32) (x4 : Vec F S1x256 .f32) (xs : Vec F S2048x128 .f32) :
    { LS : List (View.Piece (Elt F) S2048x128 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun xo E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R0

end
-- ==== Proof.Region0RunC.lean ====
/-
  The first layer's kernel body at the last contraction step (the reset not taken, the output produced).
-/
import proofs.«137329_j58411555225976_2_alg».proof.Proof.Region0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- At the last contraction step, on whole memrefs — the five inputs at their contents, the output tile's buffer at
    anything, the accumulator at what the step before left (`xs`) — the body runs to the continuation holding the
    inputs as they were, the accumulator with one list of stored pieces written over it and the output tile's buffer
    with another. The two lists are found by running the body: they are this definition's first two components. -/
noncomputable def runLast (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x128 .f32) (harg8 : arg8.IsWhole) (hc0 : ¬isFirst i) (hc1 : isLast i)
    (x0 : Vec F S2048x2048 .f32) (x1 : Vec F S2048x128 .f32) (x2 : Vec F S2048x1 .f32) (x3 : Vec F S128x256 .f32) (x4 : Vec F S1x256 .f32) (xs : Vec F S2048x128 .f32) :
    Σ' (L5 : List (View.Piece (Elt F) S2048x256 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, ?_, fun E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R0

end
-- ==== Proof.Region0.lean ====
/-
  The first layer's kernel region: what its buffers hold point by point, and the body obligation.

  Stated at a parameter `V`, the contents of the TensorCore's buffers when the region is entered. At point `t` each
  input window's staging buffer holds that window's block of its array (`iblk`), fetched there or not. The
  accumulator after the body at point `t` is the pieces that point's case stores, read back: at step 0 they are
  computed from the point's blocks alone, at a later step also from what the point before left. The output tile's
  buffer is stored at step 3 only. `outsAt` follows both through the sixteen points, and the region's invariant
  after a point holds the accumulator at `outsAt`'s second component.
-/
import proofs.«137329_j58411555225976_2_alg».proof.Proof.Region0RunA
import proofs.«137329_j58411555225976_2_alg».proof.Proof.Region0RunB
import proofs.«137329_j58411555225976_2_alg».proof.Proof.Region0RunC

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch — for any proof data whose array is `V`'s and whose body leaves the
    block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The body's run at a point of step 0, on the memrefs the pipeline passes there and the point's blocks. -/
abbrev firstAt (c : Dev nD) (t : Fin cfg0.N) (h0 : t.val % 4 = 0) (h1 : ¬t.val % 4 = 3) :=
  runFirst (F := F) c (grid0.coords t) (ms0 t) (hs0 t) (ms1 t) (hs1 t) (ms2 t) (hs2 t) (ms3 t) (hs3 t) (ms4 t) (hs4 t) (ms5 t) (hs5 t) accM (Memref.isWhole_whole _) ((isFirst_iff t).mpr h0) (fun h => h1 ((isLast_iff t).mp h)) (iblk V c 0 t) (iblk V c 1 t) (iblk V c 2 t) (iblk V c 3 t) (iblk V c 4 t)
/-- The body's run at a point of a middle step, the accumulator entering at `xs`. -/
abbrev midAt (c : Dev nD) (t : Fin cfg0.N) (h0 : ¬t.val % 4 = 0) (h1 : ¬t.val % 4 = 3) (xs : Vec F S2048x128 .f32) :=
  runMid (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) (fun h => h1 ((isLast_iff t).mp h)) (iblk V c 0 t) (iblk V c 1 t) (iblk V c 2 t) (iblk V c 3 t) (iblk V c 4 t) xs
/-- The body's run at a point of step 3, the accumulator entering at `xs`. -/
abbrev lastAt (c : Dev nD) (t : Fin cfg0.N) (h0 : ¬t.val % 4 = 0) (h1 : t.val % 4 = 3) (xs : Vec F S2048x128 .f32) :=
  runLast (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) xs

/-- The pieces stored into the accumulator at a point of step 0 cover it, -/
theorem coverAccFirst (c : Dev nD) (t : Fin cfg0.N) (h0 : t.val % 4 = 0) (h1 : ¬t.val % 4 = 3) (y : S2048x128.Idx) :
    ∃ pc ∈ (firstAt V c t h0 h1).1, y ∈ pc.1.set :=
  View.cover_of_tiledL (firstAt V c t h0 h1).1 S2048x128.size (by sl_kernel_rfl) y
/-- so the accumulator after that point is those pieces read back. -/
def accFirst (c : Dev nD) (t : Fin cfg0.N) (h0 : t.val % 4 = 0) (h1 : ¬t.val % 4 = 3) : Vec F S2048x128 .f32 :=
  accV.read (Elt F) (accV.writes (Elt F) accV.junk (firstAt V c t h0 h1).1)

theorem coverAccMid (c : Dev nD) (t : Fin cfg0.N) (h0 : ¬t.val % 4 = 0) (h1 : ¬t.val % 4 = 3) (xs : Vec F S2048x128 .f32) (y : S2048x128.Idx) :
    ∃ pc ∈ (midAt V c t h0 h1 xs).1, y ∈ pc.1.set :=
  View.cover_of_tiledL (midAt V c t h0 h1 xs).1 S2048x128.size (by sl_kernel_rfl) y
/-- The accumulator after a point of a middle step. -/
def accMid (c : Dev nD) (t : Fin cfg0.N) (h0 : ¬t.val % 4 = 0) (h1 : ¬t.val % 4 = 3) (xs : Vec F S2048x128 .f32) : Vec F S2048x128 .f32 :=
  accV.read (Elt F) (accV.writes (Elt F) accV.junk (midAt V c t h0 h1 xs).1)

theorem coverAccLast (c : Dev nD) (t : Fin cfg0.N) (h0 : ¬t.val % 4 = 0) (h1 : t.val % 4 = 3) (xs : Vec F S2048x128 .f32) (y : S2048x128.Idx) :
    ∃ pc ∈ (lastAt V c t h0 h1 xs).2.1, y ∈ pc.1.set :=
  View.cover_of_tiledL (lastAt V c t h0 h1 xs).2.1 S2048x128.size (by sl_kernel_rfl) y
/-- The accumulator after a point of step 3. -/
def accLast (c : Dev nD) (t : Fin cfg0.N) (h0 : ¬t.val % 4 = 0) (h1 : t.val % 4 = 3) (xs : Vec F S2048x128 .f32) : Vec F S2048x128 .f32 :=
  accV.read (Elt F) (accV.writes (Elt F) accV.junk (lastAt V c t h0 h1 xs).2.1)

theorem coverOutLast (c : Dev nD) (t : Fin cfg0.N) (h0 : ¬t.val % 4 = 0) (h1 : t.val % 4 = 3) (xs : Vec F S2048x128 .f32) (y : S2048x256.Idx) :
    ∃ pc ∈ (lastAt V c t h0 h1 xs).1, y ∈ pc.1.set :=
  View.cover_of_tiledL (lastAt V c t h0 h1 xs).1 S2048x256.size (by sl_kernel_rfl) y
/-- The output tile's buffer after a point of step 3. -/
def outLast (c : Dev nD) (t : Fin cfg0.N) (h0 : ¬t.val % 4 = 0) (h1 : t.val % 4 = 3) (xs : Vec F S2048x128 .f32) : Vec F S2048x256 .f32 :=
  outV.read (Elt F) (outV.writes (Elt F) outV.junk (lastAt V c t h0 h1 xs).1)

/-- Where nothing is stored into the output tile's buffer its contents are never consulted (the window is idle and
    not written back): a placeholder. -/
def noOut : Vec F S2048x256 .f32 := outV.read (Elt F) outV.junk

/-! ## Point by point -/

/-- What the output tile's buffer and the accumulator hold after the body at position `n`. -/
def outsAt (c : Dev nD) : (n : ℕ) → n < cfg0.N → Vec F S2048x256 .f32 × Vec F S2048x128 .f32
  | 0, hn => (noOut, accFirst V c ⟨0, hn⟩ (Nat.zero_mod _) (fun h => absurd h (by decide : ¬(0 % 4 = 3))))
  | n + 1, hn =>
    if h0 : (n + 1) % 4 = 0 then
      if h1 : (n + 1) % 4 = 3 then False.elim (by omega)
      else (noOut, accFirst V c ⟨n + 1, hn⟩ h0 h1)
    else
      if h1 : (n + 1) % 4 = 3 then
        (outLast V c ⟨n + 1, hn⟩ h0 h1 (outsAt c n (Nat.lt_of_succ_lt hn)).2, accLast V c ⟨n + 1, hn⟩ h0 h1 (outsAt c n (Nat.lt_of_succ_lt hn)).2)
      else (noOut, accMid V c ⟨n + 1, hn⟩ h0 h1 (outsAt c n (Nat.lt_of_succ_lt hn)).2)

theorem outsAt_first (c : Dev nD) (t : Fin cfg0.N) (h0 : t.val % 4 = 0) (h1 : ¬t.val % 4 = 3) :
    outsAt V c t.val t.isLt = (noOut, accFirst V c t h0 h1) := by
  obtain ⟨n, hn⟩ := t
  cases n with
  | zero => rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (noOut, accMid V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 4 = 0) (h1 : t.val % 4 = 3) :
    outsAt V c t.val t.isLt = (outLast V c t h0 h1 (outsAt V c (t.val - 1) (Nat.lt_of_le_of_lt (Nat.sub_le _ _) t.isLt)).2,
      accLast V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: before the first point the accumulator is at anything; afterwards at what the point before
    left. Beside it, the scoped buffers the region never touches and the generator register. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its block and the output tile's at
    `outsAt`'s first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_in4 (c : Dev nD) (t : Fin cfg0.N) : (dat V c).after 4 t = iblk V c 4 t := by dsimp only [dat]
theorem after_out (c : Dev nD) (t : Fin cfg0.N) : (dat V c).after 5 t = (outsAt V c t.val t.isLt).1 := by dsimp only [dat]
theorem before_in0 (c : Dev nD) (t : Fin cfg0.N) (d) : (dat V c).before 0 t d = iblk V c 0 t :=
  before_in0_of V (dat V c) (A_eq V c 0) (after_in0 V c) t d
theorem before_in1 (c : Dev nD) (t : Fin cfg0.N) (d) : (dat V c).before 1 t d = iblk V c 1 t :=
  before_in1_of V (dat V c) (A_eq V c 1) (after_in1 V c) t d
theorem before_in2 (c : Dev nD) (t : Fin cfg0.N) (d) : (dat V c).before 2 t d = iblk V c 2 t :=
  before_in2_of V (dat V c) (A_eq V c 2) (after_in2 V c) t d
theorem before_in3 (c : Dev nD) (t : Fin cfg0.N) (d) : (dat V c).before 3 t d = iblk V c 3 t :=
  before_in3_of V (dat V c) (A_eq V c 3) (after_in3 V c) t d
theorem before_in4 (c : Dev nD) (t : Fin cfg0.N) (d) : (dat V c).before 4 t d = iblk V c 4 t :=
  before_in4_of V (dat V c) (A_eq V c 4) (after_in4 V c) t d
theorem leaves_in0 (c : Dev nD) (t : Fin cfg0.N) :
    (dat V c).leavesExact 0 t = owns (c : Thread nD τ) (ms0 t) fullShare (iblk V c 0 t) := by
  unfold Dat.leavesExact; rw [live0 t, after_in0]
theorem leaves_in1 (c : Dev nD) (t : Fin cfg0.N) :
    (dat V c).leavesExact 1 t = owns (c : Thread nD τ) (ms1 t) fullShare (iblk V c 1 t) := by
  unfold Dat.leavesExact; rw [live1 t, after_in1]
theorem leaves_in2 (c : Dev nD) (t : Fin cfg0.N) :
    (dat V c).leavesExact 2 t = owns (c : Thread nD τ) (ms2 t) fullShare (iblk V c 2 t) := by
  unfold Dat.leavesExact; rw [live2 t, after_in2]
theorem leaves_in3 (c : Dev nD) (t : Fin cfg0.N) :
    (dat V c).leavesExact 3 t = owns (c : Thread nD τ) (ms3 t) fullShare (iblk V c 3 t) := by
  unfold Dat.leavesExact; rw [live3 t, after_in3]
theorem leaves_in4 (c : Dev nD) (t : Fin cfg0.N) :
    (dat V c).leavesExact 4 t = owns (c : Thread nD τ) (ms4 t) fullShare (iblk V c 4 t) := by
  unfold Dat.leavesExact; rw [live4 t, after_in4]

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any point. The closed forms say which case the point is in; the inputs' buffers hold their blocks; the
    invariant hands over the accumulator (at anything before the first point, at what the point before left otherwise)
    and takes it back at this point's contents; the output tile's buffer comes back untouched except at step 3. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3, leaves_in4]
  have hN : t.val < 16 := lt_of_lt_of_eq t.isLt (show cfg0.N = 16 from N_0)
  by_cases h0 : t.val % 4 = 0
  · have h1 : ¬t.val % 4 = 3 := by omega
    rw [Dat.leavesExact_idle (dat V c) 5 t (idle5 t (fun h => h1 ((isLast_iff t).mp h))) (noFlush5 t (fun h => h1 ((isLast_iff t).mp h)))]
    rw [outsAt_first V c t h0 h1]
    unfold accFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((firstAt V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccFirst V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((firstAt V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccFirst V c t h0 h1)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

  · have hz : t.val ≠ 0 := fun e => h0 (by rw [e])
    by_cases h1 : t.val % 4 = 3
    · rw [show (dat V c).leavesExact 5 t = owns (c : Thread nD τ) (ms5 t) fullShare ((dat V c).after 5 t) from by
      unfold Dat.leavesExact; rw [live5 t ((isLast_iff t).mpr h1)], after_out]
      rw [outsAt_last V c t h0 h1]
      unfold outLast accLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((lastAt V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAccLast V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast V c t h0 h1 _)

    · rw [Dat.leavesExact_idle (dat V c) 5 t (idle5 t (fun h => h1 ((isLast_iff t).mp h))) (noFlush5 t (fun h => h1 ((isLast_iff t).mp h)))]
      rw [outsAt_mid V c t h0 h1]
      unfold accMid; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((midAt V c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (coverAccMid V c t h0 h1 _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]; · iexists _; iexact HS
    iexact Hrest
  iexact Hg

theorem hout (c : Dev nD) : (dat V c).Φ (Fin.last cfg0.N) ⊢ Pipeline.ΦA spec0 c :=
  Phi_out V c _ (by rw [Fin.val_last]; have : cfg0.N = 16 := N_0; omega)

end

end Cert.KernelIdeal.R0

end
-- ==== Proof.Region1Runs.lean ====
/-
  The second layer's kernel region: the facts its three control cases have in common.

  The grid is 4 × 4 and point `t` stands for row tile `t / 4` and contraction step `t % 4`. The accumulator
  (2048 × 256, a scratch buffer owned by the kernel, whose contents survive from one point to the next) is cleared
  when the step is 0, receives `tile · slab` at every step, and at step 3 is scaled row by row, multiplied by the
  256 × 10 weights and shifted by the bias row to give the 2048 × 10 output tile. A point is therefore in exactly
  one of three cases — step 0, step 1 or 2, step 3 — and the output tile's staging buffer is stored, and written
  back, only in the last of them.
-/
import proofs.«137329_j58411555225976_2_alg».proof.Proof.Gen.KernelIdeal.Launch
import proofs.«137329_j58411555225976_2_alg».proof.Proof.Gen.KernelIdeal.Skeleton
import proofs.«137329_j58411555225976_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals, decided over the grid -/

/-- The first conditional's guard, as the body computes it from grid coordinate 1: the contraction step is 0,
    so the accumulator is cleared. -/
abbrev isFirst (i : grid1.Coords) : Prop :=
  (Scalar.cmpi .ne (Scalar.extui (Scalar.cmpi .eq (BitVec.ofNat 32 (i 1).val) 0#32)) 0#32) = 1#1
/-- Over the sixteen points it holds exactly where `t % 4 = 0`. -/
theorem isFirst_iff : ∀ t : Fin cfg1.N, isFirst (grid1.coords t) ↔ t.val % 4 = 0 :=
  (by decide +kernel : ∀ t : Fin grid1.N, isFirst (grid1.coords t) ↔ t.val % 4 = 0)

/-- The second conditional's guard: the contraction step is 3, so the output tile is formed and stored. -/
abbrev isLast (i : grid1.Coords) : Prop := k1_cond2 i = 1#1
/-- Over the sixteen points it holds exactly where `t % 4 = 3`. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

/-- The five input windows are live at every point. -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- At steps 0, 1 and 2 the body stores nothing into the output tile's buffer, and the window is idle there; -/
theorem idle5 : ∀ t : Fin cfg1.N, ¬isLast (grid1.coords t) → cfg1.idle 5 (grid1.coords t) = true := by decide +kernel
/-- nor is its block written back at those points. -/
theorem noFlush5 : ∀ t : Fin cfg1.N, ¬isLast (grid1.coords t) → (cfg1.win 5).flush t = false := by decide +kernel
/-- At step 3 the output window is live: its tile is stored. -/
theorem live5 : ∀ t : Fin cfg1.N, isLast (grid1.coords t) → cfg1.idle 5 (grid1.coords t) = false := by decide +kernel

/-! ## The memrefs the body is called with -/

/-- Window `w`'s staging memref in use at point `t`, and the fact that it is a whole buffer. -/

abbrev ms0 (t : Fin cfg1.N) : Memref sig .tc .vmem S2048x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x10 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x10 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x10 .f32 := win1_5.stage (cfg1.slots t 5)
abbrev hs5 (t : Fin cfg1.N) : (ms5 t).IsWhole := hstage1_5 ((cfg1.slots t 5).cast nbuf1_5)
/-- The 2048 × 256 accumulator, a whole scoped buffer that belongs to this kernel alone. -/
abbrev accM : Memref sig .tc .vmem S2048x256 .f32 := Memref.whole cc1_scratch0
/-- Its view: the accumulator's contents are read through it. -/
abbrev accV : View sig .tc .vmem S2048x256 .f32 := accM.view
/-- A view of the output tile's shape (that of the window's first staging buffer), through which the tile's contents
    are read; which staging buffer is taken makes no difference to what is read. -/
abbrev outV : View sig .tc .vmem S2048x10 .f32 := (Memref.whole cc1_stg5_0 : Memref sig .tc .vmem S2048x10 .f32).view

/-! ## The region's invariant as owned buffers -/

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The eleven scoped buffers this region never touches — the first layer's ten staging buffers and its accumulator —
    each held at some contents, followed by a resource `S` in the place where this layer's accumulator stands (it is the
    twelfth and last scoped buffer that is no staging buffer of this region). -/
abbrev othersThen (c : Dev nD) (S : sProp 𝕄) : sProp 𝕄 :=
  iprop(anyAt (F := F) c cc0_stg0_0 ∗ anyAt (F := F) c cc0_stg0_1 ∗ anyAt (F := F) c cc0_stg1_0 ∗ anyAt (F := F) c cc0_stg1_1
    ∗ anyAt (F := F) c cc0_stg2_0 ∗ anyAt (F := F) c cc0_stg2_1 ∗ anyAt (F := F) c cc0_stg3_0 ∗ anyAt (F := F) c cc0_stg4_0
    ∗ anyAt (F := F) c cc0_stg5_0 ∗ anyAt (F := F) c cc0_stg5_1 ∗ anyAt (F := F) c cc0_scratch0 ∗ S)

/-- Before any point has run the invariant is: the eleven untouched buffers, the accumulator at some contents, and the
    generator register at some state. -/
theorem PhiA_eq (c : Dev nD) :
    (Pipeline.ΦA spec1 c : sProp 𝕄)
      = iprop(othersThen (F := F) c iprop(∃ d, owns (c : Thread nD τ) accM fullShare d) ∗ (∃ r, prngReg c r)) := by
  unfold Pipeline.ΦA; rw [scopedRest1_eq]; simp only [accM, owns_whole]; try rfl

end Cert.KernelIdeal.R1

end
-- ==== Proof.Region1RunA.lean ====
/-
  The second layer's kernel body when the contraction step is 0: the accumulator is cleared, then receives
  `tile · slab`; no output tile is formed.
-/
import proofs.«137329_j58411555225976_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- Step 0. Given whole memrefs holding the five input blocks `x0 … x4`, the output tile's buffer at contents `xo`
    and the accumulator at any contents, the body runs to a continuation that receives the six window buffers exactly
    as they were (the output tile's buffer is not stored into) and the accumulator overwritten by a list `LS` of
    stored pieces. The list is this definition's value; it is determined by executing the body's memory operations
    in order. -/
noncomputable def runFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) :
    { LS : List (View.Piece (Elt F) S2048x256 .f32) //
      ∀ (xo : Vec F S2048x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, fun xo E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.Region1RunB.lean ====
/-
  The second layer's kernel body when the contraction step is 1 or 2: the accumulator receives `tile · slab` on top of
  what it held; it is not cleared and no output tile is formed.
-/
import proofs.«137329_j58411555225976_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- Steps 1 and 2. Given whole memrefs holding the five input blocks, the output tile's buffer at contents `xo` and
    the accumulator at the contents `xs` the previous step left, the body runs to a continuation that receives the
    six window buffers exactly as they were and the accumulator overwritten by a list `LS` of stored pieces, found by
    executing the body's memory operations in order. -/
noncomputable def runMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) :
    { LS : List (View.Piece (Elt F) S2048x256 .f32) //
      ∀ (xo : Vec F S2048x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, fun xo E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.Region1RunC.lean ====
/-
  The second layer's kernel body when the contraction step is 3: the accumulator receives the last `tile · slab`, and
  the output tile — the accumulator scaled row by row, times the weights, plus the bias row — is stored.
-/
import proofs.«137329_j58411555225976_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- Step 3. Given whole memrefs holding the five input blocks, the output tile's buffer at any contents and the
    accumulator at the contents `xs` the previous step left, the body runs to a continuation that receives the five
    input buffers as they were, the output tile's buffer overwritten by a list `L5` of stored pieces and the
    accumulator overwritten by a list `LS`. Both lists are found by executing the body's memory operations in order;
    they are the first two components of this definition. -/
noncomputable def runLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) :
    Σ' (L5 : List (View.Piece (Elt F) S2048x10 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__conv_kernel i arg2 harg2 arg3 harg3 arg4 harg4 arg5 harg5 arg6 harg6 arg7 harg7 arg8 harg8) K } := by
  refine ⟨?_, ?_, fun E K => ?run⟩
  case run =>
    simp only [cc1__conv_kernel_eq_skeleton]; unfold cc1__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R1

end
-- ==== Proof.Region1.lean ====
/-
  The second layer's kernel region: what its buffers hold point by point, and the body's triple at every point.

  After the body at point `t` the accumulator holds: at step 0, `tile · slab` added to zero; at a later step, `tile · slab`
  added to what the previous point left. The output tile's staging buffer is stored only at step 3, from the accumulator
  as that same point leaves it. These contents are defined by recursion on the point (`outsAt`); the region's invariant
  before a point that is not the first names the accumulator's contents after the point before (`PhiS`); and the body's
  triple at a point follows from the run of the case the point is in.
-/
import proofs.«137329_j58411555225976_2_alg».proof.Proof.Region1RunA
import proofs.«137329_j58411555225976_2_alg».proof.Proof.Region1RunB
import proofs.«137329_j58411555225976_2_alg».proof.Proof.Region1RunC

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the window's array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block was
    fetched at that point (where it was not, the block index is the one of the point before), for any proof data whose
    array is `V`'s and whose body leaves the block in place. One statement per input window. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, as the stored pieces read back -/

/-- The output tile's buffer at a point where nothing is stored into it: contents nobody reads (the window is idle
    there, and its block is not written back). -/
def idleOut : Vec F S2048x10 .f32 := outV.read (Elt F) (outV.junk (Val := Elt F))

/-- At step 0 the stored pieces cover the accumulator. -/
theorem coverAccFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) (y : S2048x256.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S2048x256.size (by sl_kernel_rfl) y

/-- What step 0 leaves in the accumulator: its pieces read back. -/
def accFirst (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) : Vec F S2048x256 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

/-- At step 1 or 2 the stored pieces cover the accumulator. -/
theorem coverAccMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x256.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S2048x256.size (by sl_kernel_rfl) y

/-- What step 1 or 2 leaves in the accumulator. -/
def accMid (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x256 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

/-- At step 3 the stored pieces cover the output tile, -/
theorem coverOutLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x10.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S2048x10.size (by sl_kernel_rfl) y

/-- and this is the output tile: its pieces read back. -/
def outLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x10 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-- At step 3 the stored pieces cover the accumulator too. -/
theorem coverAccLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) (y : S2048x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S2048x256.size (by sl_kernel_rfl) y

/-- What step 3 leaves in the accumulator. -/
def accLast (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) : Vec F S2048x256 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-! ## What the buffers hold after each point -/

/-- The output tile's staging buffer and the accumulator after the body at position `n`: the case that `n % 4` selects,
    run at the point's memrefs and input blocks, over the accumulator as position `n - 1` left it. (Step 0 and step 3 at
    once is no point of the grid.) -/
def outsAt (c : Dev nD) : (n : ℕ) → n < cfg1.N → Vec F S2048x10 .f32 × Vec F S2048x256 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 4 = 0 then
      if h1 : (n + 1) % 4 = 3 then
        False.elim (by omega)
      else
        (idleOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (idleOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at a point of step 0. -/
theorem outsAt_first (c : Dev nD) (t : Fin cfg1.N) (h0 : t.val % 4 = 0) (h1 : ¬t.val % 4 = 3) :
    outsAt V c t.val t.isLt = (idleOut, accFirst c (grid1.coords t) (ms0 t) (hs0 t) (ms1 t) (hs1 t) (ms2 t) (hs2 t) (ms3 t) (hs3 t) (ms4 t) (hs4 t) (ms5 t) (hs5 t) accM (Memref.isWhole_whole _) ((isFirst_iff t).mpr h0) (fun h => h1 ((isLast_iff t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt` at a point of step 1 or 2: over what the point before left. -/
theorem outsAt_mid (c : Dev nD) (t : Fin cfg1.N) (h0 : ¬t.val % 4 = 0) (h1 : ¬t.val % 4 = 3) :
    outsAt V c t.val t.isLt = (idleOut, accMid c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) (fun h => h1 ((isLast_iff t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of step 3: over what the point before left. -/
theorem outsAt_last (c : Dev nD) (t : Fin cfg1.N) (h0 : ¬t.val % 4 = 0) (h1 : t.val % 4 = 3) :
    outsAt V c t.val t.isLt = (outLast c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) (outsAt V c (t.val - 1) (Nat.lt_of_le_of_lt (Nat.sub_le _ _) t.isLt)).2, accLast c (grid1.coords t) (ms0 t) (hs0 t) (ms1 t) (hs1 t) (ms2 t) (hs2 t) (ms3 t) (hs3 t) (ms4 t) (hs4 t) (ms5 t) (hs5 t) accM (Memref.isWhole_whole _) (fun h => h0 ((isFirst_iff t).mp h)) ((isLast_iff t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before position 0: the invariant the launch hands over (the accumulator at anything). Before position `n + 1`: the
    eleven untouched buffers, the accumulator at what position `n` left in it, and the generator register. -/
def PhiS (c : Dev nD) : (n : ℕ) → n ≤ cfg1.N → sProp 𝕄
  | 0, _ => Pipeline.ΦA spec1 c
  | n + 1, hn => iprop(othersThen (F := F) c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(othersThen (F := F) c (owns (c : Thread nD τ) accM fullShare ((outsAt V c n hn).2)) ∗ (∃ r, prngReg c r)) := rfl

theorem PhiS_pos (c : Dev nD) (n : ℕ) (h : n ≤ cfg1.N) (hz : n ≠ 0) :
    PhiS V c n h = iprop(othersThen (F := F) c (owns (c : Thread nD τ) accM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` every input's
    buffer at its block and the output tile's buffer at `outsAt`'s first component; the invariant `PhiS`; full shares;
    nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body's triple at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' buffers hold their blocks; `t % 4` says which case the point is in; the invariant
    hands over the accumulator (at anything before the first point, at what the point before left otherwise) and takes it
    back at this point's contents, which the stored pieces determine because they cover it; at steps 0, 1, 2 the output
    tile's buffer goes back untouched, at step 3 at the tile its pieces cover; the eleven other buffers, the generator
    register and what the core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle5 t (fun h => h1 ((isLast_iff t).mp h))) (noFlush5 t (fun h => h1 ((isLast_iff t).mp h)))]
      rw [outsAt_first V c t h0 h1]
      unfold accFirst; (try dsimp only)
      by_cases hz : t.val = 0
      · rw [PhiS_castSucc V c t, PhiS_zero V c _ _ hz, PhiA_eq]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((isFirst_iff t).mpr h0) (fun h => h1 ((isLast_iff t).mp h)) (iblk V c 0 t) (iblk V c 1 t) (iblk V c 2 t) (iblk V c 3 t) (iblk V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((isFirst_iff t).mpr h0) (fun h => h1 ((isLast_iff t).mp h)) (iblk V c 0 t) (iblk V c 1 t) (iblk V c 2 t) (iblk V c 3 t) (iblk V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live5 t ((isLast_iff t).mpr h1)], after_out]
      rw [outsAt_last V c t h0 h1]
      unfold outLast accLast; (try dsimp only)
      by_cases hz : t.val = 0
      · exfalso; omega
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runLast c (grid1.coords t) _ _ _ _ _ _ _ _ _ _ _ _ _ _ (fun h => h0 ((isFirst_iff t).mp h)) ((isLast_iff t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccLast c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverOutLast c _ _ _ _ _ _ _ _ _ _ _ _ _ _ _ _ _ _ _ _ _ _ _)
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle5 t (fun h => h1 ((isLast_iff t).mp h))) (noFlush5 t (fun h => h1 ((isLast_iff t).mp h)))]
      rw [outsAt_mid V c t h0 h1]
      unfold accMid; (try dsimp only)
      by_cases hz : t.val = 0
      · exfalso; omega
      · rw [PhiS_castSucc V c t, PhiS_pos V c _ _ hz]
        iintro ⟨⟨⟨O1, O2, O3, O4, O5, O6, O7, O8, O9, O10, O11, HS⟩, Hg⟩, Ho, ⟨%d0, H0⟩, ⟨%d1, H1⟩, ⟨%d2, H2⟩, ⟨%d3, H3⟩, ⟨%d4, H4⟩, ⟨%d5, H5⟩⟩
        iapply ((runMid c (grid1.coords t) _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [O1 O2 O3 O4 O5 O6 O7 O8 O9 O10 O11 HS Hg]
        · isplitl [O1 O2 O3 O4 O5 O6 O7 O8 O9 O10 O11 HS]
          · isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            unfold owns; iexists _; isplitr
            swap; · iexact HS
            ipureintro; exact View.read_writes_of_cover _ _ _ _ _ (coverAccMid c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨O1, O2, O3, O4, O5, O6, O7, O8, O9, O10, O11, HS⟩, Hg⟩
  isplitl [O1 O2 O3 O4 O5 O6 O7 O8 O9 O10 O11 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Cert.KernelIdeal.R1

end
-- ==== Proof.KRun.lean ====
/-
  The kernel's program from launch to return: its host operations and its two kernel regions in order.

  Between two items every unscoped buffer of a core is held whole at a known valuation: the launch memory, then each
  stretch of host operations applied (`StableHlo.after`), and after a region that region's arrays at what its
  write-backs leave (`Dat.arrAt … N`, every other buffer as the region found it). Each region is entered from the
  valuation before it and hands over the valuation after it; what rides along unchanged is the core's generator
  register and the fact that it owes nothing. The run's conclusion: every weakly fair execution terminates, and at the
  end every unscoped buffer holds the last valuation's contents.
-/
import proofs.«137329_j58411555225976_2_alg».proof.Proof.Gen.KernelIdeal.Regions
import proofs.«137329_j58411555225976_2_alg».proof.Proof.Region0
import proofs.«137329_j58411555225976_2_alg».proof.Proof.Region1
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- What the first region is entered from (the launch memory after the four stretches of host operations before it),
    read at the TensorCore's references. -/
abbrev X4 : (c : Dev nD) → (b : Ref sig .tc) → Buf (Elt F) ((c : Thread nD τ).loc b) := fun c b => Gen.V4 m c b
/-- After the first region: its arrays at what its write-backs leave, every other buffer as entered. -/
def W5 (c : Dev nD) : Valuation τ sig (Elt F) :=
  Pipeline.withArrays spec0 c (Gen.V4 m c) fun w => (R0.dat (X4 m) c).arrAt w cfg0.N
abbrev X5 : (c : Dev nD) → (b : Ref sig .tc) → Buf (Elt F) ((c : Thread nD τ).loc b) := fun c b => W5 m c b
/-- After the host operations between the regions. -/
abbrev W6 (c : Dev nD) : Valuation τ sig (Elt F) := StableHlo.after hostOps1 (W5 m c)
abbrev X6 : (c : Dev nD) → (b : Ref sig .tc) → Buf (Elt F) ((c : Thread nD τ).loc b) := fun c b => W6 m c b
/-- After the second region. -/
def W7 (c : Dev nD) : Valuation τ sig (Elt F) :=
  Pipeline.withArrays spec1 c (W6 m c) fun w => (R1.dat (X6 m) c).arrAt w cfg1.N
abbrev X7 : (c : Dev nD) → (b : Ref sig .tc) → Buf (Elt F) ((c : Thread nD τ).loc b) := fun c b => W7 m c b
/-- After the last stretch of host operations: what the program ends with. -/
abbrev W8 (c : Dev nD) : Valuation τ sig (Elt F) := StableHlo.after hostOps2 (W7 m c)

theorem W5_arr (c : Dev nD) (w : Fin cfg0.W) :
    W5 m c (Proc.devRef .tc (Pipeline.arrRef spec0 w)) = (R0.dat (X4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
theorem hF0 (c : Dev nD) (w : Fin cfg0.W) : (R0.dat (X4 m) c).arrAt w cfg0.N = X5 m c (Pipeline.arrRef spec0 w) :=
  (W5_arr m c w).symm
theorem hrest0 (c : Dev nD) : ∀ b, b ∉ Finset.univ.image (Pipeline.arrRef spec0) → X5 m c b = X4 m c b :=
  fun b hb => W5_of_ne m c b fun w e => hb (Finset.mem_image.mpr ⟨w, Finset.mem_univ _, e⟩)

theorem W7_arr (c : Dev nD) (w : Fin cfg1.W) :
    W7 m c (Proc.devRef .tc (Pipeline.arrRef spec1 w)) = (R1.dat (X6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (R1.dat (X6 m) c).arrAt w cfg1.N = X7 m c (Pipeline.arrRef spec1 w) :=
  (W7_arr m c w).symm
theorem hrest1 (c : Dev nD) : ∀ b, b ∉ Finset.univ.image (Pipeline.arrRef spec1) → X7 m c b = X6 m c b :=
  fun b hb => W7_of_ne m c b fun w e => hb (Finset.mem_image.mpr ⟨w, Finset.mem_univ _, e⟩)

/-! ## The proof data family and what rides along -/

/-- Each region's proof data at its entry contents: a literal match on the region's number. -/
def pdats : (p : Fin 2) → (c : Dev nD) → Dat τ (Elt F) Unit ℕ (UR sig nD τ) ℕ (Pipeline.pin (pcfgs (F := F)) adm p) c
  | ⟨0, _⟩ => fun c => R0.dat (X4 m) c
  | ⟨1, _⟩ => fun c => R1.dat (X6 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev rest (c : Dev nD) : sProp 𝕄 := iprop((∃ r, prngReg c r) ∗ ∃ W, owes (c : Thread nD τ) (0 : CellTallies nD τ sig Unit) W)
/-- The same at every stage of the program (the generated host segments take it indexed by stage). -/
abbrev restAt : Fin 3 → Dev nD → sProp 𝕄 := fun _ c => rest (F := F) c

theorem hostOps1_fresh : (hostOps1 : List (HloOp τ sig (Elt F))).Forall fun op => op.fresh = ∅ := Gen.hostOps1_fresh
theorem hostOps2_fresh : (hostOps2 : List (HloOp τ sig (Elt F))).Forall fun op => op.fresh = ∅ := Gen.hostOps2_fresh

/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (rest (F := F))

/-! ## The regions as segments -/

set_option backward.isDefEq.respectTransparency.types false in
/-- The first layer's region as a segment: entered with every unscoped buffer at the contents before it,
    left with the region's arrays at what its write-backs leave and every other buffer as entered. The arrays are split
    out of the unscoped buffers on entry and put back on exit; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (X4 m) c).loose
  hwaits := Pipeline.hwaits_of_owed_zero _ _ _ _ L lv 0 fun _ _ => rfl
  pre c := iprop(StableHlo.held (c : Thread nD τ) (Pipeline.ucRefs τ sig) (Gen.V4 m c) ∗ rest (F := F) c)
  post c := iprop(StableHlo.held (c : Thread nD τ) (Pipeline.ucRefs τ sig) (W5 m c) ∗ rest (F := F) c)
  X c := iprop(∃ r, prngReg c r)
  Y c := iprop(∃ r, prngReg c r)
  Z c := Pipeline.unscopedRest (Ix := Unit) (Name := ℕ) (U := UR sig nD τ) (Lvl := ℕ) spec0 c (X4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (X4 m) c)
    unfold Pipeline.ΦA
    iintro ⟨Hp, -, Hr⟩
    isplitl [Hr]; · iexact Hr
    iexact Hp
  hout c := by
    rw [Pipeline.ownSems0_none]
    refine BIBase.Entails.trans (R0.hout (X4 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X4 m c) (X5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region as a segment: entered with every unscoped buffer at the contents before it,
    left with the region's arrays at what its write-backs leave and every other buffer as entered. The arrays are split
    out of the unscoped buffers on entry and put back on exit; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (X6 m) c).loose
  hwaits := Pipeline.hwaits_of_owed_zero _ _ _ _ L lv 1 fun _ _ => rfl
  pre c := iprop(StableHlo.held (c : Thread nD τ) (Pipeline.ucRefs τ sig) (W6 m c) ∗ rest (F := F) c)
  post c := iprop(StableHlo.held (c : Thread nD τ) (Pipeline.ucRefs τ sig) (W7 m c) ∗ rest (F := F) c)
  X c := iprop(∃ r, prngReg c r)
  Y c := iprop(∃ r, prngReg c r)
  Z c := Pipeline.unscopedRest (Ix := Unit) (Name := ℕ) (U := UR sig nD τ) (Lvl := ℕ) spec1 c (X6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (X6 m) c)
    unfold Pipeline.ΦA
    iintro ⟨Hp, -, Hr⟩
    isplitl [Hr]; · iexact Hr
    iexact Hp
  hout c := by
    rw [Pipeline.ownSems0_none]
    refine BIBase.Entails.trans (R1.hout (X6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X6 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's eight items on a core: four stretches of host operations, the first region, one stretch, the second
    region, the last stretch. -/
abbrev segs (c : Dev nD) : List (Seg (pcfgs (F := F)) adm (pdats m) () defs₀ 𝒱₀ L lv) :=
  [ .host (Gen.seg0 m 𝒱₀ L lv (restAt (F := F))), .host (Gen.seg1 m 𝒱₀ L lv (restAt (F := F))), .host (Gen.seg2 m 𝒱₀ L lv (restAt (F := F))),
    .host (Gen.seg3 m 𝒱₀ L lv (restAt (F := F))), .region (reg0 m), .host (hseg hostOps1 hostOps1_sub hostOps1_fresh (W5 m)),
    .region (reg1 m), .host (hseg hostOps2 hostOps2_sub hostOps2_fresh (W7 m)) ]

/-- After the last item: the buffers and the generator register on one side, the core owing nothing on the other. -/
theorem lastLink (c : Dev nD) :
    (iprop(StableHlo.held (c : Thread nD τ) (Pipeline.ucRefs τ sig) (W8 m c) ∗ rest (F := F) c) : sProp 𝕄)
      ⊢ iprop(iprop(StableHlo.held (c : Thread nD τ) (Pipeline.ucRefs τ sig) (W8 m c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN. From any memory with zero counters every weakly fair execution of the program terminates, nothing
    faulting, and at the end every unscoped buffer of every core holds the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest (F := F) c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl, lastLink m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Run

end
-- ==== Proof.KArgs.lean ====
/-
  The program's arguments end as launched: no host operation writes an argument, and a region either reads it through
  an input window (whose array the write-backs never touch) or does not see it at all. So the last valuation at an
  argument walks back, item by item, to the launch memory; with the run this is the frame statement.
-/
import proofs.«137329_j58411555225976_2_alg».proof.Proof.KRun

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- An unscoped TensorCore reference is among those the run's last state reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer no host operation writes, and that each region leaves as it found it, ends as launched. -/
theorem W8_keep (c : Dev nD) (b : Ref sig .tc) (h2 : b ∉ hostOps2_W) (h7 : W7 m c b = W6 m c b)
    (h1 : b ∉ hostOps1_W) (h5 : W5 m c b = Gen.V4 m c b)
    (h03 : b ∉ hostOps0_3_W) (h02 : b ∉ hostOps0_2_W) (h01 : b ∉ hostOps0_1_W) (h00 : b ∉ hostOps0_W) :
    W8 m c b = m ((c : Thread nD τ).loc b) :=
  (StableHlo.after_of_writes_sub hostOps2 _ Gen.hostOps2_writes h2).trans <| h7.trans <|
    (StableHlo.after_of_writes_sub hostOps1 _ Gen.hostOps1_writes h1).trans <| h5.trans <|
    (Gen.V4_of m c b h03).trans <| (Gen.V3_of m c b h02).trans <| (Gen.V2_of m c b h01).trans <| (Gen.V1_of m c b h00).trans rfl

theorem W8_arg0 (c : Dev nD) : W8 m c main_arg0 = m ((c : Thread nD τ).loc main_arg0) :=
  W8_keep m c main_arg0 (by decide) ((W7_arr m c 0).trans (((R1.dat (X6 m) c).arrAt_in 0 rfl _).trans (R1.A_eq (X6 m) c 0))) (by decide) ((W5_arr m c 0).trans (((R0.dat (X4 m) c).arrAt_in 0 rfl _).trans (R0.A_eq (X4 m) c 0))) (by decide) (by decide) (by decide) (by decide)
theorem W8_arg1 (c : Dev nD) : W8 m c main_arg1 = m ((c : Thread nD τ).loc main_arg1) :=
  W8_keep m c main_arg1 (by decide) (W7_of_ne m c main_arg1 (by decide)) (by decide) (W5_of_ne m c main_arg1 (by decide)) (by decide) (by decide) (by decide) (by decide)
theorem W8_arg2 (c : Dev nD) : W8 m c main_arg2 = m ((c : Thread nD τ).loc main_arg2) :=
  W8_keep m c main_arg2 (by decide) (W7_of_ne m c main_arg2 (by decide)) (by decide) (W5_of_ne m c main_arg2 (by decide)) (by decide) (by decide) (by decide) (by decide)
theorem W8_arg3 (c : Dev nD) : W8 m c main_arg3 = m ((c : Thread nD τ).loc main_arg3) :=
  W8_keep m c main_arg3 (by decide) (W7_of_ne m c main_arg3 (by decide)) (by decide) ((W5_arr m c 3).trans (((R0.dat (X4 m) c).arrAt_in 3 rfl _).trans (R0.A_eq (X4 m) c 3))) (by decide) (by decide) (by decide) (by decide)
theorem W8_arg4 (c : Dev nD) : W8 m c main_arg4 = m ((c : Thread nD τ).loc main_arg4) :=
  W8_keep m c main_arg4 (by decide) (W7_of_ne m c main_arg4 (by decide)) (by decide) (W5_of_ne m c main_arg4 (by decide)) (by decide) (by decide) (by decide) (by decide)
theorem W8_arg5 (c : Dev nD) : W8 m c main_arg5 = m ((c : Thread nD τ).loc main_arg5) :=
  W8_keep m c main_arg5 (by decide) ((W7_arr m c 3).trans (((R1.dat (X6 m) c).arrAt_in 3 rfl _).trans (R1.A_eq (X6 m) c 3))) (by decide) (W5_of_ne m c main_arg5 (by decide)) (by decide) (by decide) (by decide) (by decide)
theorem W8_arg6 (c : Dev nD) : W8 m c main_arg6 = m ((c : Thread nD τ).loc main_arg6) :=
  W8_keep m c main_arg6 (by decide) (W7_of_ne m c main_arg6 (by decide)) (by decide) (W5_of_ne m c main_arg6 (by decide)) (by decide) (by decide) (by decide) (by decide)
theorem W8_arg7 (c : Dev nD) : W8 m c main_arg7 = m ((c : Thread nD τ).loc main_arg7) :=
  W8_keep m c main_arg7 (by decide) (W7_of_ne m c main_arg7 (by decide)) (by decide) (W5_of_ne m c main_arg7 (by decide)) (by decide) (by decide) (by decide) (by decide)

/-- THE FRAME: every weakly fair execution terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_arg0 m c),
     (h c _ (mem_uc main_arg1 (by decide))).trans (W8_arg1 m c),
     (h c _ (mem_uc main_arg2 (by decide))).trans (W8_arg2 m c),
     (h c _ (mem_uc main_arg3 (by decide))).trans (W8_arg3 m c),
     (h c _ (mem_uc main_arg4 (by decide))).trans (W8_arg4 m c),
     (h c _ (mem_uc main_arg5 (by decide))).trans (W8_arg5 m c),
     (h c _ (mem_uc main_arg6 (by decide))).trans (W8_arg6 m c),
     (h c _ (mem_uc main_arg7 (by decide))).trans (W8_arg7 m c)⟩) (run m ρ)

end Cert.KernelIdeal.Run

end
-- ==== Proof.Region0Values.lean ====
/-
  The first layer's kernel region: what each case's stored pieces amount to, in the body's own arithmetic.

  Every store of the body covers its whole buffer, so a buffer's contents after a point are the last store's value;
  a load after a store reads that value back. Hence: after step 0 the accumulator is one accumulation step over the
  zero block, after a later step one accumulation step over what it held, and at step 3 the output tile is the
  epilogue of the accumulator just stored.
-/
import proofs.«137329_j58411555225976_2_alg».proof.Proof.Region0
import Idealize.ShloMosaic.Lib.Pipeline.Value

set_option maxRecDepth 16384

noncomputable section
namespace Cert.KernelIdeal.R0
open Idealize.ShloMosaic Idealize.ShloMosaic.TcCoe Idealize.ShloMosaic.Tactic Idealize.SL.Sem
open Idealize.ShloMosaic.Pipeline (Dat)
open Cert.KernelIdeal Cert.KernelIdeal.Gen
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- After a middle step the accumulator is one accumulation step over what it held. -/
theorem accMid_eq (c : Dev nD) (t : Fin cfg0.N) (h0 : ¬t.val % 4 = 0) (h1 : ¬t.val % 4 = 3) (xs : Vec F S2048x128 .f32) :
    accMid V c t h0 h1 xs = k0_pay2 (iblk V c 0 t) (iblk V c 1 t) xs := by
  unfold accMid
  rw [View.read_writes_eq_canon _ _ _ (coverAccMid V c t h0 h1 xs)]
  unfold midAt runMid
  dsimp only
  rw [View.canon_unit_zero hz]
  simp only [View.readAt_eq_ld, Memref.IsWhole.read_unread, View.ld_unit_zero (S := S2048x2048) hz, View.ld_unit_zero (S := S2048x128) hz]
  exact congrArg (k0_pay2 (iblk V c 0 t) (iblk V c 1 t)) ((Memref.isWhole_whole (cc0_scratch0 : Ref sig .tc)).read_unread xs)

/-- After step 3 likewise (the epilogue does not touch the accumulator). -/
theorem accLast_eq (c : Dev nD) (t : Fin cfg0.N) (h0 : ¬t.val % 4 = 0) (h1 : t.val % 4 = 3) (xs : Vec F S2048x128 .f32) :
    accLast V c t h0 h1 xs = k0_pay2 (iblk V c 0 t) (iblk V c 1 t) xs := by
  unfold accLast
  rw [View.read_writes_eq_canon _ _ _ (coverAccLast V c t h0 h1 xs)]
  unfold lastAt runLast
  dsimp only
  sl_unfold_words
  rw [View.canon_unit_zero hz]
  simp only [View.readAt_eq_ld, Memref.IsWhole.read_unread, View.ld_unit_zero (S := S2048x2048) hz, View.ld_unit_zero (S := S2048x128) hz,
    View.ld_unit_zero (S := S2048x1) hz, View.ld_unit_zero (S := S128x256) hz, View.ld_unit_zero (S := S1x256) hz]
  exact congrArg (k0_pay2 (iblk V c 0 t) (iblk V c 1 t)) ((Memref.isWhole_whole (cc0_scratch0 : Ref sig .tc)).read_unread xs)

/-- At step 3 the output tile is the epilogue of the accumulator just stored, the tile's degree entries, the weights
    and the bias row. -/
theorem outLast_eq (c : Dev nD) (t : Fin cfg0.N) (h0 : ¬t.val % 4 = 0) (h1 : t.val % 4 = 3) (xs : Vec F S2048x128 .f32) :
    outLast V c t h0 h1 xs = k0_pay3 (k0_pay2 (iblk V c 0 t) (iblk V c 1 t) xs) (iblk V c 2 t) (iblk V c 3 t) (iblk V c 4 t) := by
  unfold outLast
  rw [View.read_writes_eq_canon _ _ _ (coverOutLast V c t h0 h1 xs)]
  unfold lastAt runLast
  dsimp only
  sl_unfold_words
  rw [View.canon_unit_zero hz, View.readCov_unit_zero (S := S2048x128) _ hz]
  simp only [View.readAt_eq_ld, Memref.IsWhole.read_unread, View.ld_unit_zero (S := S2048x2048) hz, View.ld_unit_zero (S := S2048x128) hz,
    View.ld_unit_zero (S := S2048x1) hz, View.ld_unit_zero (S := S128x256) hz, View.ld_unit_zero (S := S1x256) hz]
  exact congrArg (fun a => k0_pay3 (k0_pay2 (iblk V c 0 t) (iblk V c 1 t) a) (iblk V c 2 t) (iblk V c 3 t) (iblk V c 4 t))
    ((Memref.isWhole_whole (cc0_scratch0 : Ref sig .tc)).read_unread xs)

/-- After step 0 the accumulator is one accumulation step over the zero block just stored. -/
theorem accFirst_eq (c : Dev nD) (t : Fin cfg0.N) (h0 : t.val % 4 = 0) (h1 : ¬t.val % 4 = 3) :
    accFirst V c t h0 h1 = k0_pay2 (iblk V c 0 t) (iblk V c 1 t) k0_pay1 := by
  unfold accFirst
  rw [View.read_writes_eq_canon _ _ _ (coverAccFirst V c t h0 h1)]
  unfold firstAt runFirst
  dsimp only
  sl_unfold_words
  rw [View.canon_cons_unit_zero (S := S2048x128) hz, View.readCov_unit_zero (S := S2048x128) _ hz]
  simp only [View.readAt_eq_ld, Memref.IsWhole.read_unread, View.ld_unit_zero (S := S2048x2048) hz, View.ld_unit_zero (S := S2048x128) hz,
    View.ld_unit_zero (S := S2048x1) hz, View.ld_unit_zero (S := S128x256) hz, View.ld_unit_zero (S := S1x256) hz]

end Cert.KernelIdeal.R0

end
-- ==== Proof.KSpec.lean ====
/-
  The two graph-convolution layers as the kernel computes them, stated over whole arrays.

  A layer takes the adjacency array `A` (8192 × 8192), an operand `X` (8192 × n) whose rows are already scaled by the
  degree vector, that vector as a column `D`, a weight matrix `W` and a bias row `B`. The rows are cut into four tiles
  of 2048 rows and the contraction over the 8192 columns of `A` into four steps of 2048 columns. For row-tile `i` an
  accumulator starts at zero and step `k` adds the product of tile `(i, k)` of `A` with rows `2048·k …` of `X`; after
  the fourth step the accumulator's rows are scaled by the tile's entries of `D`, multiplied by `W`, the bias row is
  added (and, in the first layer, the result is clamped below at zero). The three arithmetic steps are the printed
  body's own terms (`k0_pay1` the zero accumulator, `k0_pay2` one accumulation step, `k0_pay3` the last step's output;
  `k1_…` for the second layer), so nothing of the body's arithmetic is restated here: this file only says which part
  of which array each step is applied to.
-/
import proofs.«137329_j58411555225976_2_alg».proof.Proof.Gen.KernelIdeal.Skeleton
import Idealize.ShloMosaic.Lib.ValueIdx

noncomputable section

namespace Cert.KSpec

open Idealize.ShloMosaic Idealize.ShloMosaic.ValueIdx Cert.KernelIdeal Cert.KernelIdeal.Gen

variable {F : FTy → Type} [FloatOps F]

/-- Row (or column) `r` of tile `k`, as a row (or column) of the whole array: `2048·k + r`. Total: reduced modulo
    8192, which changes nothing when `k < 4` and `r < 2048`. -/
def glob (k r : ℕ) : Fin 8192 := ⟨(2048 * k + r) % 8192, Nat.mod_lt _ (by norm_num)⟩

theorem glob_val {k r : ℕ} (hk : k < 4) (hr : r < 2048) : (glob k r).val = 2048 * k + r := by
  unfold glob; exact Nat.mod_eq_of_lt (by omega)

/-- Tile `(i, k)` of the adjacency array: rows `2048·i …`, columns `2048·k …`. -/
def tileA (A : FVec F S8192x8192 .f32) (i k : ℕ) : Vec F S2048x2048 .f32 :=
  fun y => A (ix2 (glob i (y 0).val) (glob k (y 1).val))

/-- Rows `2048·k …` of a 128-column operand. -/
def slab128 (X : FVec F S8192x128 .f32) (k : ℕ) : Vec F S2048x128 .f32 :=
  fun y => X (ix2 (glob k (y 0).val) (⟨(y 1).val, idx2_lt1 y⟩ : Fin 128))

/-- Rows `2048·k …` of a 256-column operand. -/
def slab256 (X : FVec F S8192x256 .f32) (k : ℕ) : Vec F S2048x256 .f32 :=
  fun y => X (ix2 (glob k (y 0).val) (⟨(y 1).val, idx2_lt1 y⟩ : Fin 256))

/-- Entries `2048·i …` of the degree column. -/
def slabD (D : FVec F S8192x1 .f32) (i : ℕ) : Vec F S2048x1 .f32 :=
  fun y => D (ix2 (glob i (y 0).val) (⟨(y 1).val, idx2_lt1 y⟩ : Fin 1))

/-- First layer: the accumulator of row-tile `i` after `n` contraction steps. -/
def acc0 (A : FVec F S8192x8192 .f32) (X : FVec F S8192x128 .f32) (i : ℕ) : ℕ → Vec F S2048x128 .f32
  | 0 => k0_pay1
  | n + 1 => k0_pay2 (tileA A i n) (slab128 X n) (acc0 A X i n)

/-- First layer: the output rows of row-tile `i`. -/
def outTile0 (A : FVec F S8192x8192 .f32) (X : FVec F S8192x128 .f32) (D : FVec F S8192x1 .f32)
    (W : FVec F S128x256 .f32) (B : FVec F S1x256 .f32) (i : ℕ) : Vec F S2048x256 .f32 :=
  k0_pay3 (acc0 A X i 4) (slabD D i) W B

/-- First layer: the whole output array, row `r` read in tile `r / 2048` at row `r % 2048`. -/
def out0 (A : FVec F S8192x8192 .f32) (X : FVec F S8192x128 .f32) (D : FVec F S8192x1 .f32)
    (W : FVec F S128x256 .f32) (B : FVec F S1x256 .f32) : Vec F S8192x256 .f32 :=
  fun j => outTile0 A X D W B ((j 0).val / 2048)
    (ix2 (⟨(j 0).val % 2048, Nat.mod_lt _ (by norm_num)⟩ : Fin 2048) (⟨(j 1).val, idx2_lt1 j⟩ : Fin 256))

/-- Second layer: the accumulator of row-tile `i` after `n` contraction steps. -/
def acc1 (A : FVec F S8192x8192 .f32) (X : FVec F S8192x256 .f32) (i : ℕ) : ℕ → Vec F S2048x256 .f32
  | 0 => k1_pay1
  | n + 1 => k1_pay2 (tileA A i n) (slab256 X n) (acc1 A X i n)

/-- Second layer: the output rows of row-tile `i`. -/
def outTile1 (A : FVec F S8192x8192 .f32) (X : FVec F S8192x256 .f32) (D : FVec F S8192x1 .f32)
    (W : FVec F S256x10 .f32) (B : FVec F S1x10 .f32) (i : ℕ) : Vec F S2048x10 .f32 :=
  k1_pay3 (acc1 A X i 4) (slabD D i) W B

/-- Second layer: the whole output array. -/
def out1 (A : FVec F S8192x8192 .f32) (X : FVec F S8192x256 .f32) (D : FVec F S8192x1 .f32)
    (W : FVec F S256x10 .f32) (B : FVec F S1x10 .f32) : Vec F S8192x10 .f32 :=
  fun j => outTile1 A X D W B ((j 0).val / 2048)
    (ix2 (⟨(j 0).val % 2048, Nat.mod_lt _ (by norm_num)⟩ : Fin 2048) (⟨(j 1).val, idx2_lt1 j⟩ : Fin 10))

end Cert.KSpec

end
-- ==== Proof.Region0Final.lean ====
/-
  The first layer's kernel region: the array it leaves.

  Point `t` is row tile `t / 4` at contraction step `t % 4`. The printed index maps say so window by window: the
  adjacency window's block at `t` is tile `(t / 4, t % 4)`, the operand window's is rows `2048·(t % 4) …`, the degree
  column's and the output's are rows `2048·(t / 4) …`, the weights' and the bias row's are the whole arrays. So the
  blocks the body loads are the parts of the arrays the whole-array description (`Cert.KSpec`) applies its steps to;
  by induction on the point the accumulator after point `t` is the description's accumulator of row tile `t / 4`
  after `t % 4 + 1` steps; at a point of step 3 the output tile is the description's tile, and that is what the
  point writes back. The four write-back points' blocks are the four row tiles, which cover the array.
-/
import proofs.«137329_j58411555225976_2_alg».proof.Proof.Region0Values
import proofs.«137329_j58411555225976_2_alg».proof.Proof.KSpec

set_option maxRecDepth 16384

noncomputable section
namespace Cert.KernelIdeal.R0
open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.KSpec
variable {F : FTy → Type} [FloatOps F]
variable (V : (c : Dev nD) → (b : Ref sig .tc) → Buf (Elt F) ((c : Thread nD τ).loc b))

/-! ## The index maps over the grid -/

theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

/-! ## The arrays the region reads -/

abbrev arrA (c : Dev nD) : FVec F S8192x8192 .f32 := V c (Pipeline.arrRef spec0 0)
abbrev arrX (c : Dev nD) : FVec F S8192x128 .f32 := V c (Pipeline.arrRef spec0 1)
abbrev arrD (c : Dev nD) : FVec F S8192x1 .f32 := V c (Pipeline.arrRef spec0 2)
abbrev arrW (c : Dev nD) : FVec F S128x256 .f32 := V c (Pipeline.arrRef spec0 3)
abbrev arrB (c : Dev nD) : FVec F S1x256 .f32 := V c (Pipeline.arrRef spec0 4)

/-! ## A window's block is the part of its array the description names -/

theorem iblk0_eq (c : Dev nD) (t : Fin cfg0.N) : (iblk V c 0 t : Vec F S2048x2048 .f32) = tileA (arrA V c) (t.val / 4) (t.val % 4) := by
  obtain ⟨e0, e1, -⟩ := idx_facts t
  have hN : t.val < 16 := lt_of_lt_of_eq t.isLt (show cfg0.N = 16 from N_0)
  funext y
  unfold iblk tileA
  rw [View.read_apply]
  show V c (Pipeline.arrRef spec0 0) _ = V c (Pipeline.arrRef spec0 0) _
  refine congrArg _ ?_
  funext a; apply Fin.ext
  have hy0 : (y 0).val < 2048 := (y 0).isLt
  have hy1 : (y 1).val < 2048 := (y 1).isLt
  match a with
  | ⟨0, _⟩ => show win0_0.index t (0 : Fin 2) * 2048 + 1 * (y 0).val = (2048 * (t.val / 4) + (y 0).val) % 8192; rw [e0]; omega
  | ⟨1, _⟩ => show win0_0.index t (1 : Fin 2) * 2048 + 1 * (y 1).val = (2048 * (t.val % 4) + (y 1).val) % 8192; rw [e1]; omega

theorem iblk1_eq (c : Dev nD) (t : Fin cfg0.N) : (iblk V c 1 t : Vec F S2048x128 .f32) = slab128 (arrX V c) (t.val % 4) := by
  obtain ⟨-, -, e0, e1, -⟩ := idx_facts t
  funext y
  unfold iblk slab128
  rw [View.read_apply]
  show V c (Pipeline.arrRef spec0 1) _ = V c (Pipeline.arrRef spec0 1) _
  refine congrArg _ ?_
  funext a; apply Fin.ext
  have hy0 : (y 0).val < 2048 := (y 0).isLt
  have hy1 : (y 1).val < 128 := (y 1).isLt
  match a with
  | ⟨0, _⟩ => show win0_1.index t (0 : Fin 2) * 2048 + 1 * (y 0).val = (2048 * (t.val % 4) + (y 0).val) % 8192; rw [e0]; omega
  | ⟨1, _⟩ => show win0_1.index t (1 : Fin 2) * 128 + 1 * (y 1).val = (y 1).val; rw [e1]; omega

theorem iblk2_eq (c : Dev nD) (t : Fin cfg0.N) : (iblk V c 2 t : Vec F S2048x1 .f32) = slabD (arrD V c) (t.val / 4) := by
  obtain ⟨-, -, -, -, e0, e1, -⟩ := idx_facts t
  have hN : t.val < 16 := lt_of_lt_of_eq t.isLt (show cfg0.N = 16 from N_0)
  funext y
  unfold iblk slabD
  rw [View.read_apply]
  show V c (Pipeline.arrRef spec0 2) _ = V c (Pipeline.arrRef spec0 2) _
  refine congrArg _ ?_
  funext a; apply Fin.ext
  have hy0 : (y 0).val < 2048 := (y 0).isLt
  have hy1 : (y 1).val < 1 := (y 1).isLt
  match a with
  | ⟨0, _⟩ => show win0_2.index t (0 : Fin 2) * 2048 + 1 * (y 0).val = (2048 * (t.val / 4) + (y 0).val) % 8192; rw [e0]; omega
  | ⟨1, _⟩ => show win0_2.index t (1 : Fin 2) * 1 + 1 * (y 1).val = (y 1).val; rw [e1]; omega

theorem iblk3_eq (c : Dev nD) (t : Fin cfg0.N) : (iblk V c 3 t : Vec F S128x256 .f32) = arrW V c := by
  obtain ⟨-, -, -, -, -, -, e0, e1, -⟩ := idx_facts t
  funext y
  unfold iblk
  rw [View.read_apply]
  show V c (Pipeline.arrRef spec0 3) _ = V c (Pipeline.arrRef spec0 3) y
  refine congrArg _ ?_
  funext a; apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

theorem iblk4_eq (c : Dev nD) (t : Fin cfg0.N) : (iblk V c 4 t : Vec F S1x256 .f32) = arrB V c := by
  obtain ⟨-, -, -, -, -, -, -, -, e0, e1, -⟩ := idx_facts t
  funext y
  unfold iblk
  rw [View.read_apply]
  show V c (Pipeline.arrRef spec0 4) _ = V c (Pipeline.arrRef spec0 4) y
  refine congrArg _ ?_
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## The accumulator and the output tile, point by point -/

/-- After point `n` the accumulator is the description's accumulator of row tile `n / 4` after `n % 4 + 1` steps. -/
theorem acc_at (c : Dev nD) : ∀ (n : ℕ) (hn : n < cfg0.N),
    (outsAt V c n hn).2 = acc0 (arrA V c) (arrX V c) (n / 4) (n % 4 + 1) := by
  intro n
  induction n with
  | zero =>
    intro hn
    have h0 : (⟨0, hn⟩ : Fin cfg0.N).val % 4 = 0 := rfl
    have h1 : ¬(⟨0, hn⟩ : Fin cfg0.N).val % 4 = 3 := fun h => absurd h (by decide : ¬(0 % 4 = 3))
    rw [show outsAt V c 0 hn = outsAt V c (⟨0, hn⟩ : Fin cfg0.N).val (⟨0, hn⟩ : Fin cfg0.N).isLt from rfl,
      outsAt_first V c ⟨0, hn⟩ h0 h1, accFirst_eq, iblk0_eq, iblk1_eq]
    rfl
  | succ n ih =>
    intro hn
    have hN : n + 1 < 16 := lt_of_lt_of_eq hn (show cfg0.N = 16 from N_0)
    by_cases h0 : (n + 1) % 4 = 0
    · have h1 : ¬(n + 1) % 4 = 3 := by omega
      rw [show outsAt V c (n + 1) hn = outsAt V c (⟨n + 1, hn⟩ : Fin cfg0.N).val (⟨n + 1, hn⟩ : Fin cfg0.N).isLt from rfl,
        outsAt_first V c ⟨n + 1, hn⟩ h0 h1, accFirst_eq, iblk0_eq, iblk1_eq]
      show k0_pay2 (tileA (arrA V c) ((n + 1) / 4) ((n + 1) % 4)) (slab128 (arrX V c) ((n + 1) % 4)) k0_pay1 = _
      rw [h0]; rfl
    · have hprev := ih (Nat.lt_of_succ_lt hn)
      have hq : n / 4 = (n + 1) / 4 := by omega
      have hr : n % 4 + 1 = (n + 1) % 4 := by omega
      by_cases h1 : (n + 1) % 4 = 3
      · rw [show outsAt V c (n + 1) hn = outsAt V c (⟨n + 1, hn⟩ : Fin cfg0.N).val (⟨n + 1, hn⟩ : Fin cfg0.N).isLt from rfl,
          outsAt_last V c ⟨n + 1, hn⟩ h0 h1, accLast_eq, iblk0_eq, iblk1_eq]
        show k0_pay2 (tileA (arrA V c) ((n + 1) / 4) ((n + 1) % 4)) (slab128 (arrX V c) ((n + 1) % 4)) (outsAt V c n _).2 = _
        rw [hprev, hq, hr]; rfl
      · rw [show outsAt V c (n + 1) hn = outsAt V c (⟨n + 1, hn⟩ : Fin cfg0.N).val (⟨n + 1, hn⟩ : Fin cfg0.N).isLt from rfl,
          outsAt_mid V c ⟨n + 1, hn⟩ h0 h1, accMid_eq, iblk0_eq, iblk1_eq]
        show k0_pay2 (tileA (arrA V c) ((n + 1) / 4) ((n + 1) % 4)) (slab128 (arrX V c) ((n + 1) % 4)) (outsAt V c n _).2 = _
        rw [hprev, hq, hr]; rfl

/-- At a point of step 3 the output tile's buffer holds the description's tile of that row tile. -/
theorem out_at (c : Dev nD) (t : Fin cfg0.N) (h1 : t.val % 4 = 3) :
    (outsAt V c t.val t.isLt).1 = outTile0 (arrA V c) (arrX V c) (arrD V c) (arrW V c) (arrB V c) (t.val / 4) := by
  have hN : t.val < 16 := lt_of_lt_of_eq t.isLt (show cfg0.N = 16 from N_0)
  have h0 : ¬t.val % 4 = 0 := by omega
  rw [outsAt_last V c t h0 h1, outLast_eq, iblk0_eq, iblk1_eq, iblk2_eq, iblk3_eq, iblk4_eq]
  show k0_pay3 (k0_pay2 _ _ (outsAt V c (t.val - 1) _).2) _ _ _ = _
  rw [acc_at V c (t.val - 1)]
  have hq : (t.val - 1) / 4 = t.val / 4 := by omega
  have hr : (t.val - 1) % 4 + 1 = 3 := by omega
  rw [hq, hr, h1]
  rfl

/-! ## From the tiles to the array -/

/-- The description's array at an index of row tile `q`, row `y 0`, column `y 1`. -/
theorem out0_at (A : FVec F S8192x8192 .f32) (X : FVec F S8192x128 .f32) (D : FVec F S8192x1 .f32) (W : FVec F S128x256 .f32)
    (B : FVec F S1x256 .f32) (i : S8192x256.Idx) (q : ℕ) (y : S2048x256.Idx)
    (hq : (i 0).val / 2048 = q) (h0 : (i 0).val % 2048 = (y 0).val) (h1 : (i 1).val = (y 1).val) :
    out0 A X D W B i = outTile0 A X D W B q y := by
  unfold out0
  subst hq
  refine congrArg _ ?_
  funext a
  match a with
  | ⟨0, _⟩ => exact Fin.ext h0
  | ⟨1, _⟩ => exact Fin.ext h1

/-- What a write-back point flushes is its block of the description's array. -/
theorem flushed_eq (c : Dev nD) (t : Fin cfg0.N) (hf : (cfg0.win 5).flush t = true) :
    (dat V c).flushed 5 t = ((cfg0.win 5).blk t).view.read (Elt F) (out0 (arrA V c) (arrX V c) (arrD V c) (arrW V c) (arrB V c)) := by
  have h1 : t.val % 4 = 3 := (flush0_5 t).mp hf
  have hN : t.val < 16 := lt_of_lt_of_eq t.isLt (show cfg0.N = 16 from N_0)
  obtain ⟨-, -, -, -, -, -, -, -, -, -, e0, e1⟩ := idx_facts t
  show (cfg0.win 5).cut (grid0.coords t) ((dat V c).after 5 t) = _
  rw [after_out, out_at V c t h1]
  funext y
  rw [View.read_apply]
  have hy0 : (y 0).val < 2048 := (y 0).isLt
  have hy1 : (y 1).val < 256 := (y 1).isLt
  refine (out0_at _ _ _ _ _ _ (t.val / 4) y ?_ ?_ ?_).symm
  · show (win0_5.index t (0 : Fin 2) * 2048 + 1 * (y 0).val) / 2048 = t.val / 4; rw [e0]; omega
  · show (win0_5.index t (0 : Fin 2) * 2048 + 1 * (y 0).val) % 2048 = (y 0).val; rw [e0]; omega
  · show win0_5.index t (1 : Fin 2) * 256 + 1 * (y 1).val = (y 1).val; rw [e1]; omega

/-- An index of the array is in point `t`'s block iff each coordinate is in the block's range on its axis. -/
theorem mem_blk (t : Fin cfg0.N) (i : S8192x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v7).slice (win0_5.rect t)).set ↔ _
  rw [View.set_slice_whole, Rect.mem_set_unit]
  exact Iff.rfl

/-- THE ARRAY the region leaves: the description's first layer of the arrays the region was entered with. -/
theorem final (c : Dev nD) :
    (dat V c).arrAt 5 cfg0.N = out0 (arrA V c) (arrX V c) (arrD V c) (arrW V c) (arrB V c) :=
  (dat V c).arrAt_eq_of_cover 5 _ (flushed_eq V c) fun i => by
    have hi0 : (i 0).val < 8192 := (i 0).isLt
    have hi1 : (i 1).val < 256 := (i 1).isLt
    have hN : cfg0.N = 16 := N_0
    let t : Fin cfg0.N := ⟨4 * ((i 0).val / 2048) + 3, by omega⟩
    have ht : t.val = 4 * ((i 0).val / 2048) + 3 := rfl
    obtain ⟨-, -, -, -, -, -, -, -, -, -, e0, e1⟩ := idx_facts t
    refine ⟨t, (flush0_5 t).mpr (by omega), ?_⟩
    rw [mem_blk]
    intro a
    match a with
    | ⟨0, _⟩ => show win0_5.index t (0 : Fin 2) * 2048 ≤ (i 0).val ∧ (i 0).val < win0_5.index t (0 : Fin 2) * 2048 + 2048; rw [e0]; omega
    | ⟨1, _⟩ => show win0_5.index t (1 : Fin 2) * 256 ≤ (i 1).val ∧ (i 1).val < win0_5.index t (1 : Fin 2) * 256 + 256; rw [e1]; omega

end Cert.KernelIdeal.R0

end
-- ==== Proof.Region1Values.lean ====
/-
  The second layer's kernel region: what its buffers hold, in terms of the body's arithmetic.

  Each case of the body stores whole buffers, and every load reads a whole buffer, so a stored value is the body's
  arithmetic term applied to the blocks the buffers held. At step 0 the accumulator ends as `tile · slab` added to the
  zero block; at a later step as `tile · slab` added to what the step before left; at step 3 the output tile is the
  epilogue (row scaling, the product with the weights, the bias) of the accumulator as that same step leaves it.
-/
import proofs.«137329_j58411555225976_2_alg».proof.Proof.Region1
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every load and store of the body: both are zero. -/
theorem hz : (![0, 0] : Fin 2 → Nat) = fun _ => 0 := funext fun a => by fin_cases a <;> rfl

/-! ## Case by case, on any memrefs -/

/-- Step 0: the accumulator is cleared, read back, and left at `tile · slab` added to the zero block. -/
theorem accFirst_eq (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : isFirst i) (hc1 : ¬isLast i)
    (x0 : Vec F S2048x2048 .f32) (x1 : Vec F S2048x256 .f32) (x2 : Vec F S2048x1 .f32) (x3 : Vec F S256x10 .f32) (x4 : Vec F S1x10 .f32) :
    accFirst c i arg2 harg2 arg3 harg3 arg4 harg4 arg5 harg5 arg6 harg6 arg7 harg7 arg8 harg8 hc0 hc1 x0 x1 x2 x3 x4 = k1_pay2 x0 x1 k1_pay1 := by
  unfold accFirst
  rw [View.read_writes_eq_canon _ _ _ (coverAccFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S2048x256) hz, View.readCov_unit_zero (S := S2048x256) _ hz]
  simp only [View.readAt_eq_ld, harg2.read_unread, harg3.read_unread, View.ld_unit_zero (S := S2048x2048) hz, View.ld_unit_zero (S := S2048x256) hz]

/-- Steps 1 and 2: the accumulator is left at `tile · slab` added to what it held. -/
theorem accMid_eq (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : ¬isLast i)
    (x0 : Vec F S2048x2048 .f32) (x1 : Vec F S2048x256 .f32) (x2 : Vec F S2048x1 .f32) (x3 : Vec F S256x10 .f32) (x4 : Vec F S1x10 .f32) (xs : Vec F S2048x256 .f32) :
    accMid c i arg2 harg2 arg3 harg3 arg4 harg4 arg5 harg5 arg6 harg6 arg7 harg7 arg8 harg8 hc0 hc1 x0 x1 x2 x3 x4 xs = k1_pay2 x0 x1 xs := by
  unfold accMid
  rw [View.read_writes_eq_canon _ _ _ (coverAccMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero (S := S2048x256) hz]
  simp only [View.readAt_eq_ld, harg2.read_unread, harg3.read_unread, harg8.read_unread, View.ld_unit_zero (S := S2048x2048) hz, View.ld_unit_zero (S := S2048x256) hz]

/-- Step 3: the accumulator is left at `tile · slab` added to what it held, -/
theorem accLast_eq (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) :
    accLast c i arg2 harg2 arg3 harg3 arg4 harg4 arg5 harg5 arg6 harg6 arg7 harg7 arg8 harg8 hc0 hc1 x0 x1 x2 x3 x4 xs = k1_pay2 x0 x1 xs := by
  unfold accLast
  rw [View.read_writes_eq_canon _ _ _ (coverAccLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero (S := S2048x256) hz]
  simp only [View.readAt_eq_ld, harg2.read_unread, harg3.read_unread, harg8.read_unread, View.ld_unit_zero (S := S2048x2048) hz, View.ld_unit_zero (S := S2048x256) hz]

/-- and the output tile is the epilogue of that accumulator, the degree column, the weights and the bias row. -/
theorem outLast_eq (c : Dev nD) (i : grid1.Coords) (arg2 : Memref sig .tc .vmem S2048x2048 .f32) (harg2 : arg2.IsWhole) (arg3 : Memref sig .tc .vmem S2048x256 .f32) (harg3 : arg3.IsWhole) (arg4 : Memref sig .tc .vmem S2048x1 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x256 .f32) (harg8 : arg8.IsWhole) (hc0 : ¬isFirst i) (hc1 : isLast i)
    (x0 : Vec F S2048x2048 .f32) (x1 : Vec F S2048x256 .f32) (x2 : Vec F S2048x1 .f32) (x3 : Vec F S256x10 .f32) (x4 : Vec F S1x10 .f32) (xs : Vec F S2048x256 .f32) :
    outLast c i arg2 harg2 arg3 harg3 arg4 harg4 arg5 harg5 arg6 harg6 arg7 harg7 arg8 harg8 hc0 hc1 x0 x1 x2 x3 x4 xs = k1_pay3 (k1_pay2 x0 x1 xs) x2 x3 x4 := by
  unfold outLast
  rw [View.read_writes_eq_canon _ _ _ (coverOutLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero (S := S2048x10) hz, View.readCov_unit_zero (S := S2048x256) _ hz]
  simp only [View.readAt_eq_ld, harg2.read_unread, harg3.read_unread, harg4.read_unread, harg5.read_unread, harg6.read_unread, harg8.read_unread, View.ld_unit_zero (S := S2048x2048) hz, View.ld_unit_zero (S := S2048x256) hz, View.ld_unit_zero (S := S2048x1) hz, View.ld_unit_zero (S := S256x10) hz, View.ld_unit_zero (S := S1x10) hz]

/-! ## Point by point -/

variable (V : (c : Dev nD) → (b : Ref sig .tc) → Buf (Elt F) ((c : Thread nD τ).loc b))

/-- At a point of step 0 the accumulator ends as `tile · slab` added to the zero block. -/
theorem scratch_at_first (c : Dev nD) (t : Fin cfg1.N) (h : t.val % 4 = 0) :
    (outsAt V c t.val t.isLt).2 = k1_pay2 (iblk V c 0 t) (iblk V c 1 t) k1_pay1 := by
  have h1 : ¬t.val % 4 = 3 := by omega
  rw [outsAt_first V c t h h1]
  dsimp only
  exact accFirst_eq (F := F) c (grid1.coords t) (ms0 t) (hs0 t) (ms1 t) (hs1 t) (ms2 t) (hs2 t) (ms3 t) (hs3 t) (ms4 t) (hs4 t) (ms5 t) (hs5 t) accM (Memref.isWhole_whole cc1_scratch0) ((isFirst_iff t).mpr h) (fun h' => h1 ((isLast_iff t).mp h')) (iblk V c 0 t) (iblk V c 1 t) (iblk V c 2 t) (iblk V c 3 t) (iblk V c 4 t)

/-- At a point of a later step it ends as `tile · slab` added to what the point before left. -/
theorem scratch_at_next (c : Dev nD) (t : Fin cfg1.N) (h : t.val % 4 ≠ 0) :
    (outsAt V c t.val t.isLt).2 = k1_pay2 (iblk V c 0 t) (iblk V c 1 t) (outsAt V c (t.val - 1) (Nat.lt_of_le_of_lt (Nat.sub_le _ _) t.isLt)).2 := by
  by_cases h1 : t.val % 4 = 3
  · rw [outsAt_last V c t h h1]
    dsimp only
    exact accLast_eq (F := F) c (grid1.coords t) (ms0 t) (hs0 t) (ms1 t) (hs1 t) (ms2 t) (hs2 t) (ms3 t) (hs3 t) (ms4 t) (hs4 t) (ms5 t) (hs5 t) accM (Memref.isWhole_whole cc1_scratch0) (fun h' => h ((isFirst_iff t).mp h')) ((isLast_iff t).mpr h1) (iblk V c 0 t) (iblk V c 1 t) (iblk V c 2 t) (iblk V c 3 t) (iblk V c 4 t) (outsAt V c (t.val - 1) (Nat.lt_of_le_of_lt (Nat.sub_le _ _) t.isLt)).2
  · rw [outsAt_mid V c t h h1]
    dsimp only
    exact accMid_eq (F := F) c (grid1.coords t) (ms0 t) (hs0 t) (ms1 t) (hs1 t) (ms2 t) (hs2 t) (ms3 t) (hs3 t) (ms4 t) (hs4 t) (ms5 t) (hs5 t) accM (Memref.isWhole_whole cc1_scratch0) (fun h' => h ((isFirst_iff t).mp h')) (fun h' => h1 ((isLast_iff t).mp h')) (iblk V c 0 t) (iblk V c 1 t) (iblk V c 2 t) (iblk V c 3 t) (iblk V c 4 t) (outsAt V c (t.val - 1) (Nat.lt_of_le_of_lt (Nat.sub_le _ _) t.isLt)).2

/-- At a point of step 3 the output tile is the epilogue of the accumulator as this point leaves it: `tile · slab` added
    to what the point before left. -/
theorem out_at_last (c : Dev nD) (t : Fin cfg1.N) (h : t.val % 4 = 3) :
    (outsAt V c t.val t.isLt).1 = k1_pay3 (k1_pay2 (iblk V c 0 t) (iblk V c 1 t) (outsAt V c (t.val - 1) (Nat.lt_of_le_of_lt (Nat.sub_le _ _) t.isLt)).2) (iblk V c 2 t) (iblk V c 3 t) (iblk V c 4 t) := by
  have h0 : ¬t.val % 4 = 0 := by omega
  rw [outsAt_last V c t h0 h]
  dsimp only
  exact outLast_eq (F := F) c (grid1.coords t) (ms0 t) (hs0 t) (ms1 t) (hs1 t) (ms2 t) (hs2 t) (ms3 t) (hs3 t) (ms4 t) (hs4 t) (ms5 t) (hs5 t) accM (Memref.isWhole_whole cc1_scratch0) (fun h' => h0 ((isFirst_iff t).mp h')) ((isLast_iff t).mpr h) (iblk V c 0 t) (iblk V c 1 t) (iblk V c 2 t) (iblk V c 3 t) (iblk V c 4 t) (outsAt V c (t.val - 1) (Nat.lt_of_le_of_lt (Nat.sub_le _ _) t.isLt)).2

/-- The same, over the accumulator's own component at that point. -/
theorem out_at_last_acc (c : Dev nD) (t : Fin cfg1.N) (h : t.val % 4 = 3) :
    (outsAt V c t.val t.isLt).1 = k1_pay3 (outsAt V c t.val t.isLt).2 (iblk V c 2 t) (iblk V c 3 t) (iblk V c 4 t) := by
  rw [out_at_last V c t h, scratch_at_next V c t (by omega)]

end Cert.KernelIdeal.R1

end
-- ==== Proof.Region1Final.lean ====
/-
  The second layer's kernel region: the 8192 × 10 array it writes.

  The printed index maps, evaluated over the sixteen points, place each window's block: at point `t` the adjacency
  window reads tile `(t / 4, t % 4)`, the operand window rows `2048·(t % 4) …` of the 256-column operand, the degree
  window and the output window rows `2048·(t / 4) …`, and the weights' and bias windows their whole arrays. These are
  the parts of the arrays to which the whole-array description of the layer (`Cert.KSpec`) applies its steps. An
  induction over the points then identifies the accumulator after point `t` with the description's accumulator for
  row tile `t / 4` after `t % 4 + 1` steps; at step 3 the stored output tile is the description's tile, and it is the
  block written back there. The four write-back points carry the four row tiles, and every index of the array lies
  in one of them.
-/
import proofs.«137329_j58411555225976_2_alg».proof.Proof.Region1Values
import proofs.«137329_j58411555225976_2_alg».proof.Proof.KSpec

set_option maxRecDepth 16384

noncomputable section
namespace Cert.KernelIdeal.R1
open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.KSpec
variable {F : FTy → Type} [FloatOps F]
variable (V : (c : Dev nD) → (b : Ref sig .tc) → Buf (Elt F) ((c : Thread nD τ).loc b))

/-! ## The index maps over the grid -/

theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-! ## The arrays the region reads -/

abbrev arrA (c : Dev nD) : FVec F S8192x8192 .f32 := V c (Pipeline.arrRef spec1 0)
abbrev arrX (c : Dev nD) : FVec F S8192x256 .f32 := V c (Pipeline.arrRef spec1 1)
abbrev arrD (c : Dev nD) : FVec F S8192x1 .f32 := V c (Pipeline.arrRef spec1 2)
abbrev arrW (c : Dev nD) : FVec F S256x10 .f32 := V c (Pipeline.arrRef spec1 3)
abbrev arrB (c : Dev nD) : FVec F S1x10 .f32 := V c (Pipeline.arrRef spec1 4)

/-! ## A window's block is the part of its array the description names -/

theorem iblk0_eq (c : Dev nD) (t : Fin cfg1.N) : (iblk V c 0 t : Vec F S2048x2048 .f32) = tileA (arrA V c) (t.val / 4) (t.val % 4) := by
  obtain ⟨e0, e1, -⟩ := idx_facts t
  have hN : t.val < 16 := lt_of_lt_of_eq t.isLt (show cfg1.N = 16 from N_1)
  funext y
  unfold iblk tileA
  rw [View.read_apply]
  show V c (Pipeline.arrRef spec1 0) _ = V c (Pipeline.arrRef spec1 0) _
  refine congrArg _ ?_
  funext a; apply Fin.ext
  have hy0 : (y 0).val < 2048 := (y 0).isLt
  have hy1 : (y 1).val < 2048 := (y 1).isLt
  match a with
  | ⟨0, _⟩ => show win1_0.index t (0 : Fin 2) * 2048 + 1 * (y 0).val = (2048 * (t.val / 4) + (y 0).val) % 8192; rw [e0]; omega
  | ⟨1, _⟩ => show win1_0.index t (1 : Fin 2) * 2048 + 1 * (y 1).val = (2048 * (t.val % 4) + (y 1).val) % 8192; rw [e1]; omega

theorem iblk1_eq (c : Dev nD) (t : Fin cfg1.N) : (iblk V c 1 t : Vec F S2048x256 .f32) = slab256 (arrX V c) (t.val % 4) := by
  obtain ⟨-, -, e0, e1, -⟩ := idx_facts t
  funext y
  unfold iblk slab256
  rw [View.read_apply]
  show V c (Pipeline.arrRef spec1 1) _ = V c (Pipeline.arrRef spec1 1) _
  refine congrArg _ ?_
  funext a; apply Fin.ext
  have hy0 : (y 0).val < 2048 := (y 0).isLt
  have hy1 : (y 1).val < 256 := (y 1).isLt
  match a with
  | ⟨0, _⟩ => show win1_1.index t (0 : Fin 2) * 2048 + 1 * (y 0).val = (2048 * (t.val % 4) + (y 0).val) % 8192; rw [e0]; omega
  | ⟨1, _⟩ => show win1_1.index t (1 : Fin 2) * 256 + 1 * (y 1).val = (y 1).val; rw [e1]; omega

theorem iblk2_eq (c : Dev nD) (t : Fin cfg1.N) : (iblk V c 2 t : Vec F S2048x1 .f32) = slabD (arrD V c) (t.val / 4) := by
  obtain ⟨-, -, -, -, e0, e1, -⟩ := idx_facts t
  have hN : t.val < 16 := lt_of_lt_of_eq t.isLt (show cfg1.N = 16 from N_1)
  funext y
  unfold iblk slabD
  rw [View.read_apply]
  show V c (Pipeline.arrRef spec1 2) _ = V c (Pipeline.arrRef spec1 2) _
  refine congrArg _ ?_
  funext a; apply Fin.ext
  have hy0 : (y 0).val < 2048 := (y 0).isLt
  have hy1 : (y 1).val < 1 := (y 1).isLt
  match a with
  | ⟨0, _⟩ => show win1_2.index t (0 : Fin 2) * 2048 + 1 * (y 0).val = (2048 * (t.val / 4) + (y 0).val) % 8192; rw [e0]; omega
  | ⟨1, _⟩ => show win1_2.index t (1 : Fin 2) * 1 + 1 * (y 1).val = (y 1).val; rw [e1]; omega

theorem iblk3_eq (c : Dev nD) (t : Fin cfg1.N) : (iblk V c 3 t : Vec F S256x10 .f32) = arrW V c := by
  obtain ⟨-, -, -, -, -, -, e0, e1, -⟩ := idx_facts t
  funext y
  unfold iblk
  rw [View.read_apply]
  show V c (Pipeline.arrRef spec1 3) _ = V c (Pipeline.arrRef spec1 3) y
  refine congrArg _ ?_
  funext a; apply Fin.ext
  match a with
  | ⟨0, _⟩ => show win1_3.index t (0 : Fin 2) * 256 + 1 * (y 0).val = (y 0).val; rw [e0]; omega
  | ⟨1, _⟩ => show win1_3.index t (1 : Fin 2) * 10 + 1 * (y 1).val = (y 1).val; rw [e1]; omega

theorem iblk4_eq (c : Dev nD) (t : Fin cfg1.N) : (iblk V c 4 t : Vec F S1x10 .f32) = arrB V c := by
  obtain ⟨-, -, -, -, -, -, -, -, e0, e1, -⟩ := idx_facts t
  funext y
  unfold iblk
  rw [View.read_apply]
  show V c (Pipeline.arrRef spec1 4) _ = V c (Pipeline.arrRef spec1 4) y
  refine congrArg _ ?_
  funext a; apply Fin.ext
  match a with
  | ⟨0, _⟩ => show win1_4.index t (0 : Fin 2) * 1 + 1 * (y 0).val = (y 0).val; rw [e0]; omega
  | ⟨1, _⟩ => show win1_4.index t (1 : Fin 2) * 10 + 1 * (y 1).val = (y 1).val; rw [e1]; omega

/-! ## The accumulator and the output tile, point by point -/

/-- The accumulator after point `n`: row tile `n / 4`'s accumulator in the description, `n % 4 + 1` steps in. -/
theorem acc_at (c : Dev nD) : ∀ (n : ℕ) (hn : n < cfg1.N),
    (outsAt V c n hn).2 = acc1 (arrA V c) (arrX V c) (n / 4) (n % 4 + 1) := by
  intro n
  induction n with
  | zero =>
    intro hn
    have h0 : (⟨0, hn⟩ : Fin cfg1.N).val % 4 = 0 := rfl
    have h1 : ¬(⟨0, hn⟩ : Fin cfg1.N).val % 4 = 3 := fun h => absurd h (by decide : ¬(0 % 4 = 3))
    rw [show outsAt V c 0 hn = outsAt V c (⟨0, hn⟩ : Fin cfg1.N).val (⟨0, hn⟩ : Fin cfg1.N).isLt from rfl,
      outsAt_first V c ⟨0, hn⟩ h0 h1, accFirst_eq, iblk0_eq, iblk1_eq]
    rfl
  | succ n ih =>
    intro hn
    have hN : n + 1 < 16 := lt_of_lt_of_eq hn (show cfg1.N = 16 from N_1)
    by_cases h0 : (n + 1) % 4 = 0
    · have h1 : ¬(n + 1) % 4 = 3 := by omega
      rw [show outsAt V c (n + 1) hn = outsAt V c (⟨n + 1, hn⟩ : Fin cfg1.N).val (⟨n + 1, hn⟩ : Fin cfg1.N).isLt from rfl,
        outsAt_first V c ⟨n + 1, hn⟩ h0 h1, accFirst_eq, iblk0_eq, iblk1_eq]
      show k1_pay2 (tileA (arrA V c) ((n + 1) / 4) ((n + 1) % 4)) (slab256 (arrX V c) ((n + 1) % 4)) k1_pay1 = _
      rw [h0]; rfl
    · have hprev := ih (Nat.lt_of_succ_lt hn)
      have hq : n / 4 = (n + 1) / 4 := by omega
      have hr : n % 4 + 1 = (n + 1) % 4 := by omega
      by_cases h1 : (n + 1) % 4 = 3
      · rw [show outsAt V c (n + 1) hn = outsAt V c (⟨n + 1, hn⟩ : Fin cfg1.N).val (⟨n + 1, hn⟩ : Fin cfg1.N).isLt from rfl,
          outsAt_last V c ⟨n + 1, hn⟩ h0 h1, accLast_eq, iblk0_eq, iblk1_eq]
        show k1_pay2 (tileA (arrA V c) ((n + 1) / 4) ((n + 1) % 4)) (slab256 (arrX V c) ((n + 1) % 4)) (outsAt V c n _).2 = _
        rw [hprev, hq, hr]; rfl
      · rw [show outsAt V c (n + 1) hn = outsAt V c (⟨n + 1, hn⟩ : Fin cfg1.N).val (⟨n + 1, hn⟩ : Fin cfg1.N).isLt from rfl,
          outsAt_mid V c ⟨n + 1, hn⟩ h0 h1, accMid_eq, iblk0_eq, iblk1_eq]
        show k1_pay2 (tileA (arrA V c) ((n + 1) / 4) ((n + 1) % 4)) (slab256 (arrX V c) ((n + 1) % 4)) (outsAt V c n _).2 = _
        rw [hprev, hq, hr]; rfl

/-- Where the step is 3, the output tile's buffer holds the tile the description assigns to that row tile. -/
theorem out_at (c : Dev nD) (t : Fin cfg1.N) (h1 : t.val % 4 = 3) :
    (outsAt V c t.val t.isLt).1 = outTile1 (arrA V c) (arrX V c) (arrD V c) (arrW V c) (arrB V c) (t.val / 4) := by
  have hN : t.val < 16 := lt_of_lt_of_eq t.isLt (show cfg1.N = 16 from N_1)
  have h0 : ¬t.val % 4 = 0 := by omega
  rw [outsAt_last V c t h0 h1, outLast_eq, iblk0_eq, iblk1_eq, iblk2_eq, iblk3_eq, iblk4_eq]
  show k1_pay3 (k1_pay2 _ _ (outsAt V c (t.val - 1) _).2) _ _ _ = _
  rw [acc_at V c (t.val - 1)]
  have hq : (t.val - 1) / 4 = t.val / 4 := by omega
  have hr : (t.val - 1) % 4 + 1 = 3 := by omega
  rw [hq, hr, h1]
  rfl

/-! ## From the tiles to the array -/

/-- An index in row tile `q`, at row `y 0` of the tile and column `y 1`: the described array there is the tile's entry. -/
theorem out1_at (A : FVec F S8192x8192 .f32) (X : FVec F S8192x256 .f32) (D : FVec F S8192x1 .f32) (W : FVec F S256x10 .f32)
    (B : FVec F S1x10 .f32) (i : S8192x10.Idx) (q : ℕ) (y : S2048x10.Idx)
    (hq : (i 0).val / 2048 = q) (h0 : (i 0).val % 2048 = (y 0).val) (h1 : (i 1).val = (y 1).val) :
    out1 A X D W B i = outTile1 A X D W B q y := by
  unfold out1
  subst hq
  refine congrArg _ ?_
  funext a
  match a with
  | ⟨0, _⟩ => exact Fin.ext h0
  | ⟨1, _⟩ => exact Fin.ext h1

/-- The block a write-back point sends to the array is that block of the described array. -/
theorem flushed_eq (c : Dev nD) (t : Fin cfg1.N) (hf : (cfg1.win 5).flush t = true) :
    (dat V c).flushed 5 t = ((cfg1.win 5).blk t).view.read (Elt F) (out1 (arrA V c) (arrX V c) (arrD V c) (arrW V c) (arrB V c)) := by
  have h1 : t.val % 4 = 3 := (flush1_5 t).mp hf
  have hN : t.val < 16 := lt_of_lt_of_eq t.isLt (show cfg1.N = 16 from N_1)
  obtain ⟨-, -, -, -, -, -, -, -, -, -, e0, e1⟩ := idx_facts t
  show (cfg1.win 5).cut (grid1.coords t) ((dat V c).after 5 t) = _
  rw [after_out, out_at V c t h1]
  funext y
  rw [View.read_apply]
  have hy0 : (y 0).val < 2048 := (y 0).isLt
  have hy1 : (y 1).val < 10 := (y 1).isLt
  refine (out1_at _ _ _ _ _ _ (t.val / 4) y ?_ ?_ ?_).symm
  · show (win1_5.index t (0 : Fin 2) * 2048 + 1 * (y 0).val) / 2048 = t.val / 4; rw [e0]; omega
  · show (win1_5.index t (0 : Fin 2) * 2048 + 1 * (y 0).val) % 2048 = (y 0).val; rw [e0]; omega
  · show win1_5.index t (1 : Fin 2) * 10 + 1 * (y 1).val = (y 1).val; rw [e1]; omega

/-- Membership in point `t`'s block of the output array, axis by axis: each coordinate within the block's range. -/
theorem mem_blk (t : Fin cfg1.N) (i : S8192x10.Idx) :
    i ∈ ((cfg1.win 5).blk t).view.set ↔ ∀ a : Fin 2, win1_5.index t a * S2048x10.size a ≤ (i a).val ∧ (i a).val < win1_5.index t a * S2048x10.size a + S2048x10.size a := by
  show i ∈ ((View.whole main_v10).slice (win1_5.rect t)).set ↔ _
  rw [View.set_slice_whole, Rect.mem_set_unit]
  exact Iff.rfl

/-- The array the region leaves behind is the described second layer of the arrays it found on entry. -/
theorem final (c : Dev nD) :
    (dat V c).arrAt 5 cfg1.N = out1 (arrA V c) (arrX V c) (arrD V c) (arrW V c) (arrB V c) :=
  (dat V c).arrAt_eq_of_cover 5 _ (flushed_eq V c) fun i => by
    have hi0 : (i 0).val < 8192 := (i 0).isLt
    have hi1 : (i 1).val < 10 := (i 1).isLt
    have hN : cfg1.N = 16 := N_1
    let t : Fin cfg1.N := ⟨4 * ((i 0).val / 2048) + 3, by omega⟩
    have ht : t.val = 4 * ((i 0).val / 2048) + 3 := rfl
    obtain ⟨-, -, -, -, -, -, -, -, -, -, e0, e1⟩ := idx_facts t
    refine ⟨t, (flush1_5 t).mpr (by omega), ?_⟩
    rw [mem_blk]
    intro a
    match a with
    | ⟨0, _⟩ => show win1_5.index t (0 : Fin 2) * 2048 ≤ (i 0).val ∧ (i 0).val < win1_5.index t (0 : Fin 2) * 2048 + 2048; rw [e0]; omega
    | ⟨1, _⟩ => show win1_5.index t (1 : Fin 2) * 10 ≤ (i 1).val ∧ (i 1).val < win1_5.index t (1 : Fin 2) * 10 + 10; rw [e1]; omega

end Cert.KernelIdeal.R1

end
-- ==== Proof.KLayersLayout.lean ====
/-
  A column read across a row: an `a × 1` array spread over `b` columns reads, at row `p` and any column, its one entry
  of row `p`.
-/
import Idealize.ShloMosaic.Lib.ValueLayout

namespace Cert.KLayers

open Idealize.ShloMosaic Idealize.ShloMosaic.ValueIdx

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KLayers
-- ==== Proof.KLayersPay0.lean ====
/-
  The first layer's three arithmetic steps read at one entry, on the extended reals.

  A change of float format is the identity there and a cast between equal shapes is the identity everywhere, so
  the zero step is the constant 0; an accumulation step adds to the old accumulator entry the sum, over the 2048
  columns of the adjacency tile, of tile entry times operand entry; and the output step scales the accumulator's
  row by that row's degree entry, sums its products with the weights over the accumulator's columns and adds the
  bias entry, then takes the larger of the result and 0. A matrix product into a zero accumulator is read as a plain sum by re-indexing the
  one-axis contraction through its single coordinate.
-/
import proofs.«137329_j58411555225976_2_alg».proof.Proof.KSpec
import proofs.«137329_j58411555225976_2_alg».proof.Proof.KLayersLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KLayers

open Idealize.ShloMosaic Idealize.ShloMosaic.ValueIdx Cert.KernelIdeal Cert.KernelIdeal.Gen

theorem mmA0_lhs0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem mmA0_rhs1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- An adjacency tile times an operand slab into a zero accumulator, read at an entry: the sum over the tile's 2048 columns. -/
theorem mmA0_apply (l : FVec Ideal S2048x2048 .bf16) (r : FVec Ideal S2048x128 .bf16) (p : Fin 2048) (c : Fin 128) :
    matmul dot_S2048x2048_S2048x128_S2048x128_1_0_0_1_n_n none l r (constant S2048x128 .f32 0x00000000#32) (ix2 p c) = ∑ q : Fin 2048, l (ix2 p q) * r (ix2 q c) := by
  simp only [matmul]
  rw [Ideal.matmul_constant_zero_apply, ← Equiv.sum_comp (contrEquiv1 dot_S2048x2048_S2048x128_S2048x128_1_0_0_1_n_n 2048 rfl rfl).symm]
  refine Finset.sum_congr rfl fun q _ => ?_
  have hq := contrEquiv1_symm_val dot_S2048x2048_S2048x128_S2048x128_1_0_0_1_n_n 2048 rfl rfl q
  have el : dot_S2048x2048_S2048x128_S2048x128_1_0_0_1_n_n.lhsIdx (ix2 p c) ((contrEquiv1 dot_S2048x2048_S2048x128_S2048x128_1_0_0_1_n_n 2048 rfl rfl).symm q) = ix2 p q := funext fun a => Fin.ext (by
    match a with
    | ⟨0, _⟩ => exact mmA0_lhs0 _ _
    | ⟨1, _⟩ => exact (dot_S2048x2048_S2048x128_S2048x128_1_0_0_1_n_n.lhsIdx_val_of_single rfl _ _).trans hq)
  have er : dot_S2048x2048_S2048x128_S2048x128_1_0_0_1_n_n.rhsIdx (ix2 p c) ((contrEquiv1 dot_S2048x2048_S2048x128_S2048x128_1_0_0_1_n_n 2048 rfl rfl).symm q) = ix2 q c := funext fun a => Fin.ext (by
    match a with
    | ⟨0, _⟩ => exact (dot_S2048x2048_S2048x128_S2048x128_1_0_0_1_n_n.rhsIdx_val_of_single rfl _ _).trans hq
    | ⟨1, _⟩ => exact mmA0_rhs1 _ _)
  rw [el, er]

theorem mmW0_lhs0 (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem mmW0_rhs1 (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The scaled accumulator times the weights into a zero accumulator, read at an entry: the sum over the accumulator's columns. -/
theorem mmW0_apply (l : FVec Ideal S2048x128 .f32) (r : FVec Ideal S128x256 .f32) (p : Fin 2048) (c : Fin 256) :
    matmul dot_S2048x128_S128x256_S2048x256_1_0_0_1_n_n none l r (constant S2048x256 .f32 0x00000000#32) (ix2 p c) = ∑ q : Fin 128, l (ix2 p q) * r (ix2 q c) := by
  simp only [matmul]
  rw [Ideal.matmul_constant_zero_apply, ← Equiv.sum_comp (contrEquiv1 dot_S2048x128_S128x256_S2048x256_1_0_0_1_n_n 128 rfl rfl).symm]
  refine Finset.sum_congr rfl fun q _ => ?_
  have hq := contrEquiv1_symm_val dot_S2048x128_S128x256_S2048x256_1_0_0_1_n_n 128 rfl rfl q
  have el : dot_S2048x128_S128x256_S2048x256_1_0_0_1_n_n.lhsIdx (ix2 p c) ((contrEquiv1 dot_S2048x128_S128x256_S2048x256_1_0_0_1_n_n 128 rfl rfl).symm q) = ix2 p q := funext fun a => Fin.ext (by
    match a with
    | ⟨0, _⟩ => exact mmW0_lhs0 _ _
    | ⟨1, _⟩ => exact (dot_S2048x128_S128x256_S2048x256_1_0_0_1_n_n.lhsIdx_val_of_single rfl _ _).trans hq)
  have er : dot_S2048x128_S128x256_S2048x256_1_0_0_1_n_n.rhsIdx (ix2 p c) ((contrEquiv1 dot_S2048x128_S128x256_S2048x256_1_0_0_1_n_n 128 rfl rfl).symm q) = ix2 q c := funext fun a => Fin.ext (by
    match a with
    | ⟨0, _⟩ => exact (dot_S2048x128_S128x256_S2048x256_1_0_0_1_n_n.rhsIdx_val_of_single rfl _ _).trans hq
    | ⟨1, _⟩ => exact mmW0_rhs1 _ _)
  rw [el, er]

/-- The zero step: every entry of the fresh accumulator is 0. -/
theorem k0_pay1_apply (p : Fin 2048) (c : Fin 128) : k0_pay1 (F := Ideal) (ix2 p c) = 0 := by
  unfold k0_pay1
  simp only [shapeCast_self]
  exact Ideal.ofBits_zero_f32

/-- An accumulation step: the old entry plus the sum over the tile's columns. -/
theorem k0_pay2_apply (v3 : Vec Ideal S2048x2048 .f32) (v5 : Vec Ideal S2048x128 .f32) (v8 : Vec Ideal S2048x128 .f32)
    (p : Fin 2048) (c : Fin 128) :
    k0_pay2 (F := Ideal) v3 v5 v8 (ix2 p c) = v8 (ix2 p c) + ∑ q : Fin 2048, v3 (ix2 p q) * v5 (ix2 q c) := by
  unfold k0_pay2
  simp only [shapeCast_self]
  refine (addf_apply _ _ _).trans (congrArg (v8 (ix2 p c) + ·) ?_)
  refine (mmA0_apply _ _ p c).trans ?_
  rfl

/-- The output step: row `p` of the accumulator scaled by the row's degree entry, times the weights, plus the bias,
    clamped below at 0. -/
theorem k0_pay3_apply (v17 : Vec Ideal S2048x128 .f32) (v18 : Vec Ideal S2048x1 .f32) (v22 : Vec Ideal S128x256 .f32)
    (v24 : Vec Ideal S1x256 .f32) (p : Fin 2048) (o : Fin 256) :
    k0_pay3 (F := Ideal) v17 v18 v22 v24 (ix2 p o)
      = max ((∑ c : Fin 128, (v17 (ix2 p c) * v18 (ix2 p (0 : Fin 1))) * v22 (ix2 c o)) + v24 (ix2 (0 : Fin 1) o)) 0 := by
  unfold k0_pay3
  simp only [shapeCast_self]
  have h1 : ∀ c : Fin 128, mulf (F := Ideal) (φ := .f32) v17 (broadcastTo S2048x128 v18 broadcasts_S2048x1_S2048x128) (ix2 p c)
      = v17 (ix2 p c) * v18 (ix2 p (0 : Fin 1)) := fun c =>
    (mulf_apply _ _ _).trans (congrArg (v17 (ix2 p c) * ·) (broadcastTo_a1_ab_apply v18 _ p c))
  refine (maximumf_apply _ _ _).trans (congrArg₂ max ?_ Ideal.ofBits_zero_f32)
  exact (addf_apply _ _ _).trans (congrArg₂ (· + ·)
      ((mmW0_apply _ _ p o).trans (Finset.sum_congr rfl fun c _ => congrArg (· * v22 (ix2 c o)) (h1 c)))
      (broadcastTo_1b_ab_apply v24 _ p o))

end Cert.KLayers

end
-- ==== Proof.KLayersSum.lean ====
/-
  The 8192 row (or column) indices as four tiles of 2048: index `r` is entry `r % 2048` of tile `r / 2048`, and a sum
  over all 8192 indices is the sum, over the four tiles, of the sums over each tile's 2048 entries.
-/
import proofs.«137329_j58411555225976_2_alg».proof.Proof.KSpec

noncomputable section

open scoped BigOperators

namespace Cert.KLayers

open Cert.KSpec

/-- Index `r` is entry `r % 2048` of tile `r / 2048`. -/
theorem glob_div_mod (r : Fin 8192) : glob (r.val / 2048) (r.val % 2048) = r := by
  apply Fin.ext
  show (2048 * (r.val / 2048) + r.val % 2048) % 8192 = r.val
  have := r.isLt
  omega

/-- Four tiles of 2048 entries exhaust the 8192 indices: the pair (tile, entry) ↦ 2048 · tile + entry is a bijection. -/
theorem sum_tiles {M : Type} [AddCommMonoid M] (g : Fin 8192 → M) :
    ∑ m ∈ Finset.range 4, ∑ q : Fin 2048, g (glob m q.val) = ∑ k : Fin 8192, g k := by
  rw [Finset.sum_range (fun m => ∑ q : Fin 2048, g (glob m q.val)),
    ← Equiv.sum_comp (finProdFinEquiv : Fin 4 × Fin 2048 ≃ Fin 8192) g, Fintype.sum_prod_type]
  refine Finset.sum_congr rfl fun m _ => Finset.sum_congr rfl fun q _ => congrArg g (Fin.ext ?_)
  rw [glob_val m.isLt q.isLt, finProdFinEquiv_apply_val]
  exact Nat.add_comm _ _

end Cert.KLayers

end
-- ==== Proof.KLayersAcc0.lean ====
/-
  The first layer's accumulator as a plain sum. After `n` contraction steps entry `(p, c)` of row-tile `i`'s
  accumulator is the sum, over the first `n` column tiles and the 2048 columns of each, of adjacency entry times
  operand entry; after all four steps that is the sum over all 8192 columns.
-/
import proofs.«137329_j58411555225976_2_alg».proof.Proof.KLayersPay0
import proofs.«137329_j58411555225976_2_alg».proof.Proof.KLayersSum

noncomputable section

open scoped BigOperators

namespace Cert.KLayers

open Idealize.ShloMosaic Idealize.ShloMosaic.ValueIdx Cert.KernelIdeal Cert.KSpec

/-- By induction on the number of steps: a step adds one column tile's sum to the accumulator. -/
theorem acc0_apply (A : FVec Ideal S8192x8192 .f32) (X : FVec Ideal S8192x128 .f32) (i n : ℕ) (p : Fin 2048) (c : Fin 128) :
    acc0 A X i n (ix2 p c)
      = ∑ m ∈ Finset.range n, ∑ q : Fin 2048, A (ix2 (glob i p.val) (glob m q.val)) * X (ix2 (glob m q.val) c) := by
  induction n with
  | zero => rw [Finset.range_zero, Finset.sum_empty]; exact k0_pay1_apply p c
  | succ n ih =>
    rw [Finset.sum_range_succ, ← ih]
    exact k0_pay2_apply (tileA A i n) (slab128 X n) (acc0 A X i n) p c

/-- After the fourth step: the sum over all 8192 columns. -/
theorem acc0_four (A : FVec Ideal S8192x8192 .f32) (X : FVec Ideal S8192x128 .f32) (i : ℕ) (p : Fin 2048) (c : Fin 128) :
    acc0 A X i 4 (ix2 p c) = ∑ k : Fin 8192, A (ix2 (glob i p.val) k) * X (ix2 k c) := by
  rw [acc0_apply]
  exact sum_tiles (fun k => A (ix2 (glob i p.val) k) * X (ix2 k c))

end Cert.KLayers

end
-- ==== Proof.GcnMath.lean ====
/-
  The two-layer graph convolution as plain sums over the extended reals, in the arrangement of the reference:
  the adjacency entry `A r k` is scaled by the degree entries of its row and of its column, a layer multiplies that
  normalised matrix by the layer's input, the result by the layer's weights, and adds the bias; the first layer is then
  clamped below at zero. Everything here is a function of array entries; no program is mentioned.
-/
import Idealize.ShloMosaic.Lib.ValueIdx

noncomputable section

open scoped BigOperators

namespace Cert.GcnMath

open Idealize.ShloMosaic Idealize.ShloMosaic.ValueIdx

/-- An `a × b` array of extended reals. -/
abbrev Mat (a b : ℕ) : Type := (⟨2, ![a, b]⟩ : Shape).Idx → EReal
/-- A length-`a` array of extended reals. -/
abbrev Arr (a : ℕ) : Type := (⟨1, ![a]⟩ : Shape).Idx → EReal

/-- The normalised adjacency entry: `A r k` times the degree entry of row `r`, times the degree entry of column `k`. -/
def adjN (A : Mat 8192 8192) (d : Arr 8192) (r k : Fin 8192) : EReal :=
  A (ix2 r k) * d (ix1 r) * d (ix1 k)

/-- The hidden layer at node `r`, feature `o`: the normalised adjacency times the features, times the first weights,
    plus the first bias, clamped below at zero. -/
def hidden (A : Mat 8192 8192) (Fe : Mat 8192 128) (d : Arr 8192) (W1 : Mat 128 256) (b1 : Arr 256)
    (r : Fin 8192) (o : Fin 256) : EReal :=
  max ((∑ c : Fin 128, (∑ k : Fin 8192, adjN A d r k * Fe (ix2 k c)) * W1 (ix2 c o)) + b1 (ix1 o)) 0

/-- The output layer at node `r`, class `o`: the normalised adjacency times the hidden layer, times the second weights,
    plus the second bias. -/
def logits (A : Mat 8192 8192) (Fe : Mat 8192 128) (d : Arr 8192) (W1 : Mat 128 256) (b1 : Arr 256)
    (W2 : Mat 256 10) (b2 : Arr 10) (r : Fin 8192) (o : Fin 10) : EReal :=
  (∑ c : Fin 256, (∑ k : Fin 8192, adjN A d r k * hidden A Fe d W1 b1 k c) * W2 (ix2 c o)) + b2 (ix1 o)

/-- Every entry is a real number. -/
def Finite {ι : Type} (f : ι → EReal) : Prop := ∀ i, f i ≠ ⊤ ∧ f i ≠ ⊥

end Cert.GcnMath

end
-- ==== Proof.KLayersAlg.lean ====
/-
  Extended-real algebra for the two layers.

  An extended real that is neither infinity is the image of a real number. On such entries sums and products are
  the real ones, so a common factor may be moved across a finite sum; at an infinity this fails (a sum containing
  both infinities is not scaled entrywise), which is why every statement here asks for real entries. The one law
  proved is the passage between the two arrangements of a layer: scaling the rows of the input by the degree entry
  of the summation index and the finished sum by the degree entry of the output row, against scaling each adjacency
  entry by both degree entries.
-/
import proofs.«137329_j58411555225976_2_alg».proof.Proof.GcnMath

noncomputable section

open scoped BigOperators

namespace Cert.KLayers

open Cert.GcnMath

/-- The entry is the image of a real number. -/
def IsReal (x : EReal) : Prop := ∃ y : ℝ, x = (y : EReal)

theorem isReal_of_ne {x : EReal} (h : x ≠ ⊤ ∧ x ≠ ⊥) : IsReal x :=
  ⟨x.toReal, (EReal.coe_toReal h.1 h.2).symm⟩

theorem IsReal.ne {x : EReal} (h : IsReal x) : x ≠ ⊤ ∧ x ≠ ⊥ := by
  obtain ⟨y, rfl⟩ := h
  exact ⟨EReal.coe_ne_top y, EReal.coe_ne_bot y⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem isReal_zero : IsReal 0 := ⟨0, EReal.coe_zero.symm⟩

/-- The larger of a real entry and zero is a real entry. -/
theorem IsReal.max_zero {x : EReal} (hx : IsReal x) : IsReal (max x 0) := by
  rcases le_total x 0 with h | h
  · rw [max_eq_right h]; exact isReal_zero
  · rw [max_eq_left h]; exact hx

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem isReal_sum {ι : Type} (s : Finset ι) (f : ι → EReal) (hf : ∀ i, IsReal (f i)) :
    IsReal (∑ i ∈ s, f i) := by
  choose g hg using hf
  exact ⟨∑ i ∈ s, g i, by rw [coe_sum]; exact Finset.sum_congr rfl fun i _ => hg i⟩

/-- The law joining the two arrangements. With real entries throughout,
    `(∑ k, a k · (x k · e k)) · t = ∑ k, (a k · t · e k) · x k`:
    the factor `t` enters the sum and the factors of each term are reordered. -/
theorem scale_law {ι : Type} [Fintype ι] (a x e : ι → EReal) (t : EReal)
    (ha : ∀ k, IsReal (a k)) (hx : ∀ k, IsReal (x k)) (he : ∀ k, IsReal (e k)) (ht : IsReal t) :
    (∑ k, a k * (x k * e k)) * t = ∑ k, (a k * t * e k) * x k := by
  choose a' ha' using ha
  choose x' hx' using hx
  choose e' he' using he
  obtain ⟨t', rfl⟩ := ht
  simp only [ha', hx', he', ← EReal.coe_mul, ← coe_sum]
  rw [EReal.coe_eq_coe_iff, Finset.sum_mul]
  exact Finset.sum_congr rfl fun k _ => by ring

end Cert.KLayers

end
-- ==== Proof.KLayersOut0.lean ====
/-
  The first layer: the tiled computation is the hidden layer of the reference's arrangement.

  Row `r` of the output is row `r % 2048` of row-tile `r / 2048`. Its accumulator row is the sum over all columns
  `k` of `A r k · (Fe k c · d k)`; the output step multiplies it by `d r`. With every entry a real number the factor
  `d r` enters the sum, which gives `∑ k, (A r k · d r · d k) · Fe k c`, the normalised adjacency times the features.
  The products with the weights, the bias and the clamp at zero are then the same on both sides.
-/
import proofs.«137329_j58411555225976_2_alg».proof.Proof.KLayersAcc0
import proofs.«137329_j58411555225976_2_alg».proof.Proof.KLayersAlg

noncomputable section

open scoped BigOperators

namespace Cert.KLayers

open Idealize.ShloMosaic Idealize.ShloMosaic.ValueIdx Cert.KernelIdeal Cert.KernelIdeal.Gen Cert.KSpec Cert.GcnMath

theorem out0_eq
    (A : FVec Ideal S8192x8192 .f32) (Fe : FVec Ideal S8192x128 .f32) (d : FVec Ideal S8192 .f32)
    (W1 : FVec Ideal S128x256 .f32) (b1 : FVec Ideal S256 .f32)
    (hA : Finite A) (hFe : Finite Fe) (hd : Finite d) (hW1 : Finite W1) (hb1 : Finite b1)
    (X0 : FVec Ideal S8192x128 .f32) (hX0 : ∀ (r : Fin 8192) (c : Fin 128), X0 (ix2 r c) = Fe (ix2 r c) * d (ix1 r))
    (D : FVec Ideal S8192x1 .f32) (hD : ∀ (r : Fin 8192) (z : Fin 1), D (ix2 r z) = d (ix1 r))
    (B0 : FVec Ideal S1x256 .f32) (hB0 : ∀ (z : Fin 1) (c : Fin 256), B0 (ix2 z c) = b1 (ix1 c))
    (r : Fin 8192) (o : Fin 256) :
    out0 A X0 D W1 B0 (ix2 r o) = hidden A Fe d W1 b1 r o := by
  have hr : glob (r.val / 2048) (r.val % 2048) = r := glob_div_mod r
  -- the output row inside its tile
  let p : Fin 2048 := ⟨r.val % 2048, Nat.mod_lt _ (by norm_num)⟩
  have hrow : ∀ c : Fin 128,
      acc0 A X0 (r.val / 2048) 4 (ix2 p c) * slabD D (r.val / 2048) (ix2 p (0 : Fin 1))
        = ∑ k : Fin 8192, adjN A d r k * Fe (ix2 k c) := by
    intro c
    have e1 : slabD D (r.val / 2048) (ix2 p (0 : Fin 1)) = d (ix1 r) := by
      show D (ix2 (glob (r.val / 2048) (r.val % 2048)) (0 : Fin 1)) = _
      rw [hr]; exact hD r 0
    have e2 : acc0 A X0 (r.val / 2048) 4 (ix2 p c) = ∑ k : Fin 8192, A (ix2 r k) * (Fe (ix2 k c) * d (ix1 k)) := by
      rw [acc0_four]
      show ∑ k : Fin 8192, A (ix2 (glob (r.val / 2048) (r.val % 2048)) k) * X0 (ix2 k c) = _
      rw [hr]
      exact Finset.sum_congr rfl fun k _ => by rw [hX0 k c]
    rw [e1, e2]
    exact scale_law (fun k => A (ix2 r k)) (fun k => Fe (ix2 k c)) (fun k => d (ix1 k)) (d (ix1 r))
      (fun k => isReal_of_ne (hA (ix2 r k))) (fun k => isReal_of_ne (hFe (ix2 k c)))
      (fun k => isReal_of_ne (hd (ix1 k))) (isReal_of_ne (hd (ix1 r)))
  show k0_pay3 (acc0 A X0 (r.val / 2048) 4) (slabD D (r.val / 2048)) W1 B0 (ix2 p o) = _
  rw [k0_pay3_apply, hB0 0 o]
  unfold Cert.GcnMath.hidden
  exact congrArg (fun s => max (s + b1 (ix1 o)) 0)
    (Finset.sum_congr rfl fun c _ => congrArg (· * W1 (ix2 c o)) (hrow c))

end Cert.KLayers

end
-- ==== Proof.KLayersPay1.lean ====
/-
  The second layer's three arithmetic steps read at one entry, on the extended reals.

  A change of float format is the identity there and a cast between equal shapes is the identity everywhere, so
  the zero step is the constant 0; an accumulation step adds to the old accumulator entry the sum, over the 2048
  columns of the adjacency tile, of tile entry times operand entry; and the output step scales the accumulator's
  row by that row's degree entry, sums its products with the weights over the accumulator's columns and adds the
  bias entry. A matrix product into a zero accumulator is read as a plain sum by re-indexing the
  one-axis contraction through its single coordinate.
-/
import proofs.«137329_j58411555225976_2_alg».proof.Proof.KSpec
import proofs.«137329_j58411555225976_2_alg».proof.Proof.KLayersLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KLayers

open Idealize.ShloMosaic Idealize.ShloMosaic.ValueIdx Cert.KernelIdeal Cert.KernelIdeal.Gen

theorem mmA1_lhs0 (i : S2048x256.Idx) (q : dot_S2048x2048_S2048x256_S2048x256_1_0_0_1_n_n.contr.Idx) : (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem mmA1_rhs1 (i : S2048x256.Idx) (q : dot_S2048x2048_S2048x256_S2048x256_1_0_0_1_n_n.contr.Idx) : (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- An adjacency tile times an operand slab into a zero accumulator, read at an entry: the sum over the tile's 2048 columns. -/
theorem mmA1_apply (l : FVec Ideal S2048x2048 .bf16) (r : FVec Ideal S2048x256 .bf16) (p : Fin 2048) (c : Fin 256) :
    matmul dot_S2048x2048_S2048x256_S2048x256_1_0_0_1_n_n none l r (constant S2048x256 .f32 0x00000000#32) (ix2 p c) = ∑ q : Fin 2048, l (ix2 p q) * r (ix2 q c) := by
  simp only [matmul]
  rw [Ideal.matmul_constant_zero_apply, ← Equiv.sum_comp (contrEquiv1 dot_S2048x2048_S2048x256_S2048x256_1_0_0_1_n_n 2048 rfl rfl).symm]
  refine Finset.sum_congr rfl fun q _ => ?_
  have hq := contrEquiv1_symm_val dot_S2048x2048_S2048x256_S2048x256_1_0_0_1_n_n 2048 rfl rfl q
  have el : dot_S2048x2048_S2048x256_S2048x256_1_0_0_1_n_n.lhsIdx (ix2 p c) ((contrEquiv1 dot_S2048x2048_S2048x256_S2048x256_1_0_0_1_n_n 2048 rfl rfl).symm q) = ix2 p q := funext fun a => Fin.ext (by
    match a with
    | ⟨0, _⟩ => exact mmA1_lhs0 _ _
    | ⟨1, _⟩ => exact (dot_S2048x2048_S2048x256_S2048x256_1_0_0_1_n_n.lhsIdx_val_of_single rfl _ _).trans hq)
  have er : dot_S2048x2048_S2048x256_S2048x256_1_0_0_1_n_n.rhsIdx (ix2 p c) ((contrEquiv1 dot_S2048x2048_S2048x256_S2048x256_1_0_0_1_n_n 2048 rfl rfl).symm q) = ix2 q c := funext fun a => Fin.ext (by
    match a with
    | ⟨0, _⟩ => exact (dot_S2048x2048_S2048x256_S2048x256_1_0_0_1_n_n.rhsIdx_val_of_single rfl _ _).trans hq
    | ⟨1, _⟩ => exact mmA1_rhs1 _ _)
  rw [el, er]

theorem mmW1_lhs0 (i : S2048x10.Idx) (q : dot_S2048x256_S256x10_S2048x10_1_0_0_1_n_n.contr.Idx) : (dot_S2048x256_S256x10_S2048x10_1_0_0_1_n_n.lhsIdx i q 0).val = (i 0).val := by
  unfold DotDims.lhsIdx
  rw [dif_neg (show ¬(0 : Fin S2048x256.rank) ∈ dot_S2048x256_S256x10_S2048x10_1_0_0_1_n_n.lhsBatch by decide), dif_pos (show (0 : Fin S2048x256.rank) ∈ dot_S2048x256_S256x10_S2048x10_1_0_0_1_n_n.lhsNonContracting by decide)]
  rfl
theorem mmW1_rhs1 (i : S2048x10.Idx) (q : dot_S2048x256_S256x10_S2048x10_1_0_0_1_n_n.contr.Idx) : (dot_S2048x256_S256x10_S2048x10_1_0_0_1_n_n.rhsIdx i q 1).val = (i 1).val := by
  unfold DotDims.rhsIdx
  rw [dif_neg (show ¬(1 : Fin S256x10.rank) ∈ dot_S2048x256_S256x10_S2048x10_1_0_0_1_n_n.rhsBatch by decide), dif_pos (show (1 : Fin S256x10.rank) ∈ dot_S2048x256_S256x10_S2048x10_1_0_0_1_n_n.rhsNonContracting by decide)]
  rfl

/-- The scaled accumulator times the weights into a zero accumulator, read at an entry: the sum over the accumulator's columns. -/
theorem mmW1_apply (l : FVec Ideal S2048x256 .f32) (r : FVec Ideal S256x10 .f32) (p : Fin 2048) (c : Fin 10) :
    matmul dot_S2048x256_S256x10_S2048x10_1_0_0_1_n_n none l r (constant S2048x10 .f32 0x00000000#32) (ix2 p c) = ∑ q : Fin 256, l (ix2 p q) * r (ix2 q c) := by
  simp only [matmul]
  rw [Ideal.matmul_constant_zero_apply, ← Equiv.sum_comp (contrEquiv1 dot_S2048x256_S256x10_S2048x10_1_0_0_1_n_n 256 rfl rfl).symm]
  refine Finset.sum_congr rfl fun q _ => ?_
  have hq := contrEquiv1_symm_val dot_S2048x256_S256x10_S2048x10_1_0_0_1_n_n 256 rfl rfl q
  have el : dot_S2048x256_S256x10_S2048x10_1_0_0_1_n_n.lhsIdx (ix2 p c) ((contrEquiv1 dot_S2048x256_S256x10_S2048x10_1_0_0_1_n_n 256 rfl rfl).symm q) = ix2 p q := funext fun a => Fin.ext (by
    match a with
    | ⟨0, _⟩ => exact mmW1_lhs0 _ _
    | ⟨1, _⟩ => exact (dot_S2048x256_S256x10_S2048x10_1_0_0_1_n_n.lhsIdx_val_of_single rfl _ _).trans hq)
  have er : dot_S2048x256_S256x10_S2048x10_1_0_0_1_n_n.rhsIdx (ix2 p c) ((contrEquiv1 dot_S2048x256_S256x10_S2048x10_1_0_0_1_n_n 256 rfl rfl).symm q) = ix2 q c := funext fun a => Fin.ext (by
    match a with
    | ⟨0, _⟩ => exact (dot_S2048x256_S256x10_S2048x10_1_0_0_1_n_n.rhsIdx_val_of_single rfl _ _).trans hq
    | ⟨1, _⟩ => exact mmW1_rhs1 _ _)
  rw [el, er]

/-- The zero step: every entry of the fresh accumulator is 0. -/
theorem k1_pay1_apply (p : Fin 2048) (c : Fin 256) : k1_pay1 (F := Ideal) (ix2 p c) = 0 := by
  unfold k1_pay1
  simp only [shapeCast_self]
  exact Ideal.ofBits_zero_f32

/-- An accumulation step: the old entry plus the sum over the tile's columns. -/
theorem k1_pay2_apply (v3 : Vec Ideal S2048x2048 .f32) (v5 : Vec Ideal S2048x256 .f32) (v8 : Vec Ideal S2048x256 .f32)
    (p : Fin 2048) (c : Fin 256) :
    k1_pay2 (F := Ideal) v3 v5 v8 (ix2 p c) = v8 (ix2 p c) + ∑ q : Fin 2048, v3 (ix2 p q) * v5 (ix2 q c) := by
  unfold k1_pay2
  simp only [shapeCast_self]
  refine (addf_apply _ _ _).trans (congrArg (v8 (ix2 p c) + ·) ?_)
  refine (mmA1_apply _ _ p c).trans ?_
  rfl

/-- The output step: row `p` of the accumulator scaled by the row's degree entry, times the weights, plus the bias. -/
theorem k1_pay3_apply (v17 : Vec Ideal S2048x256 .f32) (v18 : Vec Ideal S2048x1 .f32) (v22 : Vec Ideal S256x10 .f32)
    (v24 : Vec Ideal S1x10 .f32) (p : Fin 2048) (o : Fin 10) :
    k1_pay3 (F := Ideal) v17 v18 v22 v24 (ix2 p o)
      = (∑ c : Fin 256, (v17 (ix2 p c) * v18 (ix2 p (0 : Fin 1))) * v22 (ix2 c o)) + v24 (ix2 (0 : Fin 1) o) := by
  unfold k1_pay3
  simp only [shapeCast_self]
  have h1 : ∀ c : Fin 256, mulf (F := Ideal) (φ := .f32) v17 (broadcastTo S2048x256 v18 broadcasts_S2048x1_S2048x256) (ix2 p c)
      = v17 (ix2 p c) * v18 (ix2 p (0 : Fin 1)) := fun c =>
    (mulf_apply _ _ _).trans (congrArg (v17 (ix2 p c) * ·) (broadcastTo_a1_ab_apply v18 _ p c))
  exact (addf_apply _ _ _).trans (congrArg₂ (· + ·)
      ((mmW1_apply _ _ p o).trans (Finset.sum_congr rfl fun c _ => congrArg (· * v22 (ix2 c o)) (h1 c)))
      (broadcastTo_1b_ab_apply v24 _ p o))

end Cert.KLayers

end
-- ==== Proof.KLayersAcc1.lean ====
/-
  The second layer's accumulator as a plain sum. After `n` contraction steps entry `(p, c)` of row-tile `i`'s
  accumulator is the sum, over the first `n` column tiles and the 2048 columns of each, of adjacency entry times
  operand entry; after all four steps that is the sum over all 8192 columns.
-/
import proofs.«137329_j58411555225976_2_alg».proof.Proof.KLayersPay1
import proofs.«137329_j58411555225976_2_alg».proof.Proof.KLayersSum

noncomputable section

open scoped BigOperators

namespace Cert.KLayers

open Idealize.ShloMosaic Idealize.ShloMosaic.ValueIdx Cert.KernelIdeal Cert.KSpec

/-- By induction on the number of steps: a step adds one column tile's sum to the accumulator. -/
theorem acc1_apply (A : FVec Ideal S8192x8192 .f32) (X : FVec Ideal S8192x256 .f32) (i n : ℕ) (p : Fin 2048) (c : Fin 256) :
    acc1 A X i n (ix2 p c)
      = ∑ m ∈ Finset.range n, ∑ q : Fin 2048, A (ix2 (glob i p.val) (glob m q.val)) * X (ix2 (glob m q.val) c) := by
  induction n with
  | zero => rw [Finset.range_zero, Finset.sum_empty]; exact k1_pay1_apply p c
  | succ n ih =>
    rw [Finset.sum_range_succ, ← ih]
    exact k1_pay2_apply (tileA A i n) (slab256 X n) (acc1 A X i n) p c

/-- After the fourth step: the sum over all 8192 columns. -/
theorem acc1_four (A : FVec Ideal S8192x8192 .f32) (X : FVec Ideal S8192x256 .f32) (i : ℕ) (p : Fin 2048) (c : Fin 256) :
    acc1 A X i 4 (ix2 p c) = ∑ k : Fin 8192, A (ix2 (glob i p.val) k) * X (ix2 k c) := by
  rw [acc1_apply]
  exact sum_tiles (fun k => A (ix2 (glob i p.val) k) * X (ix2 k c))

end Cert.KLayers

end
-- ==== Proof.KLayersHidden.lean ====
/-
  The hidden layer has real entries when its inputs have: each entry is the larger of 0 and a finite sum of products
  of real entries plus a real entry.
-/
import proofs.«137329_j58411555225976_2_alg».proof.Proof.KLayersAlg

noncomputable section

open scoped BigOperators

namespace Cert.KLayers

open Idealize.ShloMosaic Idealize.ShloMosaic.ValueIdx Cert.GcnMath

theorem hidden_isReal (A : Mat 8192 8192) (Fe : Mat 8192 128) (d : Arr 8192) (W1 : Mat 128 256) (b1 : Arr 256)
    (hA : Finite A) (hFe : Finite Fe) (hd : Finite d) (hW1 : Finite W1) (hb1 : Finite b1)
    (r : Fin 8192) (o : Fin 256) : IsReal (hidden A Fe d W1 b1 r o) := by
  unfold Cert.GcnMath.hidden
  refine IsReal.max_zero (IsReal.add (isReal_sum _ _ fun c => IsReal.mul
    (isReal_sum _ _ fun k => IsReal.mul ?_ (isReal_of_ne (hFe _))) (isReal_of_ne (hW1 _))) (isReal_of_ne (hb1 _)))
  unfold adjN
  exact IsReal.mul (IsReal.mul (isReal_of_ne (hA _)) (isReal_of_ne (hd _))) (isReal_of_ne (hd _))

/-- The same in the form of the hypothesis on the arrays: no entry of the hidden layer is an infinity. -/
theorem hidden_ne (A : Mat 8192 8192) (Fe : Mat 8192 128) (d : Arr 8192) (W1 : Mat 128 256) (b1 : Arr 256)
    (hA : Finite A) (hFe : Finite Fe) (hd : Finite d) (hW1 : Finite W1) (hb1 : Finite b1)
    (r : Fin 8192) (o : Fin 256) : hidden A Fe d W1 b1 r o ≠ ⊤ ∧ hidden A Fe d W1 b1 r o ≠ ⊥ :=
  (hidden_isReal A Fe d W1 b1 hA hFe hd hW1 hb1 r o).ne

end Cert.KLayers

end
-- ==== Proof.KLayersOut1.lean ====
/-
  The second layer: the tiled computation is the output layer of the reference's arrangement.

  As in the first layer, row `r` is row `r % 2048` of row-tile `r / 2048`; its accumulator row is the sum over all
  columns `k` of `A r k · (h k c · d k)` with `h` the hidden layer, and the output step multiplies it by `d r`. The hidden
  layer's entries are real numbers when the inputs are, so the factor `d r` enters the sum and gives
  `∑ k, (A r k · d r · d k) · h k c`. The products with the second weights and the second bias are the same on both sides.
-/
import proofs.«137329_j58411555225976_2_alg».proof.Proof.KLayersAcc1
import proofs.«137329_j58411555225976_2_alg».proof.Proof.KLayersHidden

noncomputable section

open scoped BigOperators

namespace Cert.KLayers

open Idealize.ShloMosaic Idealize.ShloMosaic.ValueIdx Cert.KernelIdeal Cert.KernelIdeal.Gen Cert.KSpec Cert.GcnMath

theorem out1_eq
    (A : FVec Ideal S8192x8192 .f32) (Fe : FVec Ideal S8192x128 .f32) (d : FVec Ideal S8192 .f32)
    (W1 : FVec Ideal S128x256 .f32) (b1 : FVec Ideal S256 .f32) (W2 : FVec Ideal S256x10 .f32) (b2 : FVec Ideal S10 .f32)
    (hA : Finite A) (hFe : Finite Fe) (hd : Finite d) (hW1 : Finite W1) (hb1 : Finite b1) (hW2 : Finite W2) (hb2 : Finite b2)
    (X1 : FVec Ideal S8192x256 .f32) (hX1 : ∀ (r : Fin 8192) (c : Fin 256), X1 (ix2 r c) = hidden A Fe d W1 b1 r c * d (ix1 r))
    (D : FVec Ideal S8192x1 .f32) (hD : ∀ (r : Fin 8192) (z : Fin 1), D (ix2 r z) = d (ix1 r))
    (B1 : FVec Ideal S1x10 .f32) (hB1 : ∀ (z : Fin 1) (c : Fin 10), B1 (ix2 z c) = b2 (ix1 c))
    (r : Fin 8192) (o : Fin 10) :
    out1 A X1 D W2 B1 (ix2 r o) = logits A Fe d W1 b1 W2 b2 r o := by
  have hr : glob (r.val / 2048) (r.val % 2048) = r := glob_div_mod r
  -- the output row inside its tile
  let p : Fin 2048 := ⟨r.val % 2048, Nat.mod_lt _ (by norm_num)⟩
  have hrow : ∀ c : Fin 256,
      acc1 A X1 (r.val / 2048) 4 (ix2 p c) * slabD D (r.val / 2048) (ix2 p (0 : Fin 1))
        = ∑ k : Fin 8192, adjN A d r k * hidden A Fe d W1 b1 k c := by
    intro c
    have e1 : slabD D (r.val / 2048) (ix2 p (0 : Fin 1)) = d (ix1 r) := by
      show D (ix2 (glob (r.val / 2048) (r.val % 2048)) (0 : Fin 1)) = _
      rw [hr]; exact hD r 0
    have e2 : acc1 A X1 (r.val / 2048) 4 (ix2 p c)
        = ∑ k : Fin 8192, A (ix2 r k) * (hidden A Fe d W1 b1 k c * d (ix1 k)) := by
      rw [acc1_four]
      show ∑ k : Fin 8192, A (ix2 (glob (r.val / 2048) (r.val % 2048)) k) * X1 (ix2 k c) = _
      rw [hr]
      exact Finset.sum_congr rfl fun k _ => by rw [hX1 k c]
    rw [e1, e2]
    exact scale_law (fun k => A (ix2 r k)) (fun k => hidden A Fe d W1 b1 k c) (fun k => d (ix1 k)) (d (ix1 r))
      (fun k => isReal_of_ne (hA (ix2 r k))) (fun k => hidden_isReal A Fe d W1 b1 hA hFe hd hW1 hb1 k c)
      (fun k => isReal_of_ne (hd (ix1 k))) (isReal_of_ne (hd (ix1 r)))
  show k1_pay3 (acc1 A X1 (r.val / 2048) 4) (slabD D (r.val / 2048)) W2 B1 (ix2 p o) = _
  rw [k1_pay3_apply, hB1 0 o]
  unfold logits
  exact congrArg (fun s => s + b2 (ix1 o))
    (Finset.sum_congr rfl fun c _ => congrArg (· * W2 (ix2 c o)) (hrow c))

end Cert.KLayers

end
-- ==== Proof.KLayers.lean ====
/-
  The kernel's two tiled layers are the plain sums of the reference's arrangement: the first layer's output array is
  the hidden layer (`Cert.KLayers.out0_eq`) and the second layer's output array is the output layer
  (`Cert.KLayers.out1_eq`), entry by entry, when every input entry is a real number.
-/
import proofs.«137329_j58411555225976_2_alg».proof.Proof.KLayersOut0
import proofs.«137329_j58411555225976_2_alg».proof.Proof.KLayersOut1
-- ==== Proof.RefDefs.lean ====
/-
  Two pieces of the reference, named so that they can be carried unopened.

  The reference first clamps the degree vector: an entry whose absolute value is +∞ is replaced by zero, every other
  entry is kept.  Its last operations turn the 8192 × 10 array of logits into per-graph means: the rows are added into
  the 64 rows of their graphs, a vector of ones is added the same way to count each graph's nodes, the counts are
  raised to at least one, and each summed row is divided by its count.  Both are written here with exactly the
  operations the reference applies, in the reference's order.
-/
import proofs.«137329_j58411555225976_2_alg».proof.Proof.Gen.ReferenceIdeal
import Idealize.ShloMosaic.PureOps.Ideal

noncomputable section

namespace Cert.RefLayers

open Cert.ReferenceIdeal Cert.ReferenceIdeal.Gen Idealize.ShloMosaic Idealize.ShloMosaic.TcCoe Idealize.SL.Sem Idealize.ShloMosaic.StableHlo

/-- The clamped degree vector: zero where the entry's absolute value is +∞, the entry itself elsewhere. -/
def refD (a2 : FVec Ideal S8192 .f32) : FVec Ideal S8192 .f32 :=
  select (cmpf .oeq (Host.absf (F := Ideal) a2) (broadcastInDim S8192 ![] bcast_S_S8192 (constant (F := Ideal) S_ .f32 0x7F800000#32))) (broadcastInDim S8192 ![] bcast_S_S8192 (id (constant (F := Ideal) S_ .f32 0x00000000#32))) a2

/-- The per-graph mean of the rows of `x`: rows summed by graph id, divided by the graph's node count raised to at
    least one. -/
def refTail (x : FVec Ideal S8192x10 .f32) (ids : Vec Ideal S8192 .i32) : FVec Ideal S64x10 .f32 :=
  Host.divf (F := Ideal) (Host.scatterAdd (F := Ideal) scatter_S64x10_S8192x1_S8192x10_1_0_0_1 (broadcastInDim S64x10 ![] bcast_S_S64x10 (constant (F := Ideal) S_ .f32 0x00000000#32)) (broadcastInDim S8192x1 ![0] bcast_S8192_S8192x1_0 ids) x) (broadcastInDim S64x10 ![0, 1] bcast_S64x1_S64x10_0_1 (broadcastInDim S64x1 ![0] bcast_S64_S64x1_0 (maximumf (Host.scatterAdd (F := Ideal) scatter_S64_S8192x1_S8192_n_0_0_1 (broadcastInDim S64 ![] bcast_S_S64 (constant (F := Ideal) S_ .f32 0x00000000#32)) (broadcastInDim S8192x1 ![0] bcast_S8192_S8192x1_0 ids) (broadcastInDim S8192 ![] bcast_S_S8192 (constant (F := Ideal) S_ .f32 0x3F800000#32))) (broadcastInDim S64 ![] bcast_S_S64 (constant (F := Ideal) S_ .f32 0x3F800000#32)))))

end Cert.RefLayers

end
-- ==== Proof.KGlueClamp.lean ====
/-
  The kernel's program clamps the degree vector with the same operations as the reference: the absolute value, the
  comparison with +∞, the select against a broadcast zero.  After its first three stretches of host operations the
  clamped vector's buffer therefore holds the reference's clamp of the launch contents of the degree argument.
-/
import proofs.«137329_j58411555225976_2_alg».proof.Proof.Gen.KernelIdeal.Regions
import proofs.«137329_j58411555225976_2_alg».proof.Proof.RefDefs

noncomputable section

namespace Cert.KernelIdeal.Glue

open Cert.KernelIdeal Cert.KernelIdeal.Gen Cert.RefLayers Idealize.ShloMosaic Idealize.ShloMosaic.TcCoe Idealize.SL.Sem
  Idealize.ShloMosaic.StableHlo

variable (m : (ℓ : Loc nD τ sig) → Buf (Elt Ideal) ℓ) (c : Dev nD)

/-- After the third stretch the clamped vector's buffer is the clamp of the degree argument. -/
theorem v1_at3 : (V3 m c main_v1 : FVec Ideal S8192 .f32) = refD (m ((c.tc : Thread nD τ).loc main_arg2)) := by
  dsimp only [V3, V2, V1, V0, hostOps0, hostOps0_1, hostOps0_2]
  after_results
  rfl

/-- The fourth stretch does not write the clamped vector. -/
theorem v1_eq : (V4 m c main_v1 : FVec Ideal S8192 .f32) = refD (m ((c.tc : Thread nD τ).loc main_arg2)) :=
  (V4_of m c main_v1 (by decide)).trans (v1_at3 m c)

end Cert.KernelIdeal.Glue

end
-- ==== Proof.KGlueHead.lean ====
/-
  The last stretch of host operations before the first kernel region, read at an index.

  The clamped degree vector is laid out as a column (8192 × 1), the two biases as rows (1 × 256 and 1 × 10), and the
  features are multiplied by the column broadcast along the rows: row r of the features is scaled by the degree entry
  of r.  A reshape keeps the row-major position, so the column at (r, 0) is the vector at r and a row at (0, k) is the
  vector at k.
-/
import proofs.«137329_j58411555225976_2_alg».proof.Proof.KGlueClamp
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Cert.RefLayers Idealize.ShloMosaic Idealize.ShloMosaic.TcCoe Idealize.SL.Sem
  Idealize.ShloMosaic.StableHlo Idealize.ShloMosaic.ValueIdx

section AnyValuation

variable (W : Valuation τ sig (Elt Ideal))

/-- The column buffer after the stretch: the reshape of the clamped vector's buffer. -/
theorem head3_v2 : @Eq (FVec Ideal S8192x1 .f32) (after (hostOps0_3 (F := Ideal)) W main_v2)
    (shapeCast S8192x1 (W main_v1 : FVec Ideal S8192 .f32) shapeCasts_S8192_S8192x1) := by
  dsimp only [hostOps0_3]
  after_results
  rfl

/-- The first bias row after the stretch: the reshape of the first bias. -/
theorem head3_v3 : @Eq (FVec Ideal S1x256 .f32) (after (hostOps0_3 (F := Ideal)) W main_v3)
    (shapeCast S1x256 (W main_arg4 : FVec Ideal S256 .f32) shapeCasts_S256_S1x256) := by
  dsimp only [hostOps0_3]
  after_results
  rfl

/-- The second bias row after the stretch: the reshape of the second bias. -/
theorem head3_v4 : @Eq (FVec Ideal S1x10 .f32) (after (hostOps0_3 (F := Ideal)) W main_v4)
    (shapeCast S1x10 (W main_arg6 : FVec Ideal S10 .f32) shapeCasts_S10_S1x10) := by
  dsimp only [hostOps0_3]
  after_results
  rfl

/-- The scaled features after the stretch: the features times the column broadcast along the rows. -/
theorem head3_v6 : @Eq (FVec Ideal S8192x128 .f32) (after (hostOps0_3 (F := Ideal)) W main_v6)
    (mulf (F := Ideal) (φ := .f32) (W main_arg1 : FVec Ideal S8192x128 .f32)
        (broadcastInDim S8192x128 ![0, 1] bcast_S8192x1_S8192x128_0_1
          (shapeCast S8192x1 (W main_v1 : FVec Ideal S8192 .f32) shapeCasts_S8192_S8192x1))) := by
  dsimp only [hostOps0_3]
  after_results
  rfl

end AnyValuation

/-- A vector laid out as a column reads, at (r, 0), the vector at r. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

variable (m : (ℓ : Loc nD τ sig) → Buf (Elt Ideal) ℓ) (c : Dev nD)

/-- The column at (r, z) is the clamped degree entry of r. -/
theorem v2_at (r : Fin 8192) (z : Fin 1) :
    (V4 m c main_v2 : FVec Ideal S8192x1 .f32) (ix2 r z) = refD (m ((c.tc : Thread nD τ).loc main_arg2)) (ix1 r) :=
  (congrFun (head3_v2 (V3 m c)) (ix2 r z)).trans <|
    (shapeCast_a_a1_apply (V3 m c main_v1 : FVec Ideal S8192 .f32) shapeCasts_S8192_S8192x1 r z).trans
      (congrFun (v1_at3 m c) (ix1 r))

/-- The first bias row at (z, k) is the first bias at k. -/
theorem v3_at (z : Fin 1) (k : Fin 256) :
    (V4 m c main_v3 : FVec Ideal S1x256 .f32) (ix2 z k)
      = (m ((c.tc : Thread nD τ).loc main_arg4) : FVec Ideal S256 .f32) (ix1 k) :=
  (congrFun (head3_v3 (V3 m c)) (ix2 z k)).trans <|
    (shapeCast_a_1a_apply (V3 m c main_arg4 : FVec Ideal S256 .f32) shapeCasts_S256_S1x256 z k).trans
      (congrFun ((V3_of m c main_arg4 (by decide)).trans <| (V2_of m c main_arg4 (by decide)).trans <|
        (V1_of m c main_arg4 (by decide)).trans rfl) (ix1 k))

/-- The second bias row at (z, k) is the second bias at k. -/
theorem v4_at (z : Fin 1) (k : Fin 10) :
    (V4 m c main_v4 : FVec Ideal S1x10 .f32) (ix2 z k)
      = (m ((c.tc : Thread nD τ).loc main_arg6) : FVec Ideal S10 .f32) (ix1 k) :=
  (congrFun (head3_v4 (V3 m c)) (ix2 z k)).trans <|
    (shapeCast_a_1a_apply (V3 m c main_arg6 : FVec Ideal S10 .f32) shapeCasts_S10_S1x10 z k).trans
      (congrFun ((V3_of m c main_arg6 (by decide)).trans <| (V2_of m c main_arg6 (by decide)).trans <|
        (V1_of m c main_arg6 (by decide)).trans rfl) (ix1 k))

/-- The scaled features at (r, k): the feature entry times the clamped degree entry of r. -/
theorem v6_at (r : Fin 8192) (k : Fin 128) :
    (V4 m c main_v6 : FVec Ideal S8192x128 .f32) (ix2 r k)
      = @HMul.hMul EReal EReal EReal _ (m ((c.tc : Thread nD τ).loc main_arg1) (ix2 r k))
          (refD (m ((c.tc : Thread nD τ).loc main_arg2)) (ix1 r)) := by
  have e1 : (V3 m c main_arg1 : FVec Ideal S8192x128 .f32) = m ((c.tc : Thread nD τ).loc main_arg1) :=
    (V3_of m c main_arg1 (by decide)).trans <| (V2_of m c main_arg1 (by decide)).trans <|
      (V1_of m c main_arg1 (by decide)).trans rfl
  have e2 : broadcastInDim S8192x128 ![0, 1] bcast_S8192x1_S8192x128_0_1
        (shapeCast S8192x1 (V3 m c main_v1 : FVec Ideal S8192 .f32) shapeCasts_S8192_S8192x1) (ix2 r k)
      = shapeCast S8192x1 (V3 m c main_v1 : FVec Ideal S8192 .f32) shapeCasts_S8192_S8192x1 (ix2 r (0 : Fin 1)) :=
    broadcastInDim_apply _ bcast_S8192x1_S8192x128_0_1 _ (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl])
  have e3 := shapeCast_a_a1_apply (V3 m c main_v1 : FVec Ideal S8192 .f32) shapeCasts_S8192_S8192x1 r (0 : Fin 1)
  refine (congrFun (head3_v6 (V3 m c)) (ix2 r k)).trans ?_
  exact congrArg₂ (fun x y : EReal => x * y) (congrFun e1 (ix2 r k)) (e2.trans (e3.trans (congrFun (v1_at3 m c) (ix1 r))))

end Cert.KernelIdeal.Glue

end
-- ==== Proof.KGlueTail.lean ====
/-
  The host operations after each kernel region.

  Between the two regions the first region's result is multiplied by the column of clamped degree entries broadcast
  along the rows: row r of the result is scaled by the degree entry of r.  After the second region the kernel's
  program applies to the second region's result exactly the reference's last operations: the rows are summed by graph
  id, the node counts are raised to at least one, and each summed row is divided by its count.
-/
import proofs.«137329_j58411555225976_2_alg».proof.Proof.Gen.KernelIdeal.Regions
import proofs.«137329_j58411555225976_2_alg».proof.Proof.RefDefs
import Idealize.ShloMosaic.Lib.Pipeline.Value
import Idealize.ShloMosaic.Lib.ValueIdx

noncomputable section

namespace Cert.KernelIdeal.Glue

open Cert.KernelIdeal Cert.KernelIdeal.Gen Cert.RefLayers Idealize.ShloMosaic Idealize.ShloMosaic.TcCoe Idealize.SL.Sem
  Idealize.ShloMosaic.StableHlo Idealize.ShloMosaic.ValueIdx

variable (Wv : Valuation τ sig (Elt Ideal))

/-- The rescaled first-layer result: the region's result times the column broadcast along the rows. -/
theorem mid_v9 : @Eq (FVec Ideal S8192x256 .f32) (after (hostOps1 (F := Ideal)) Wv main_v9)
    (mulf (F := Ideal) (φ := .f32) (Wv main_v7 : FVec Ideal S8192x256 .f32)
        (broadcastInDim S8192x256 ![0, 1] bcast_S8192x1_S8192x256_0_1 (Wv main_v2 : FVec Ideal S8192x1 .f32))) := by
  dsimp only [hostOps1]
  after_results <;> rfl

/-- At (r, k): the region's result there times the column's entry of row r. -/
theorem v9_at (r : Fin 8192) (k : Fin 256) :
    (after (hostOps1 (F := Ideal)) Wv main_v9 : FVec Ideal S8192x256 .f32) (ix2 r k)
      = @HMul.hMul EReal EReal EReal _ (Wv main_v7 (ix2 r k)) (Wv main_v2 (ix2 r (0 : Fin 1))) := by
  have e2 : broadcastInDim S8192x256 ![0, 1] bcast_S8192x1_S8192x256_0_1 (Wv main_v2 : FVec Ideal S8192x1 .f32) (ix2 r k)
      = (Wv main_v2 : FVec Ideal S8192x1 .f32) (ix2 r (0 : Fin 1)) :=
    broadcastInDim_apply _ bcast_S8192x1_S8192x256_0_1 _ (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl])
  refine (congrFun (mid_v9 Wv) (ix2 r k)).trans ?_
  exact congrArg (fun y : EReal => @HMul.hMul EReal EReal EReal _ (Wv main_v7 (ix2 r k)) y) e2

/-- The program's result is the reference's last operations applied to the second region's result and the graph
    ids. -/
theorem v22_eq : @Eq (FVec Ideal S64x10 .f32) (after (hostOps2 (F := Ideal)) Wv main_v22)
    (refTail (Wv main_v10) (Wv main_arg7)) := by
  dsimp only [hostOps2]
  after_results
  rfl

end Cert.KernelIdeal.Glue

end
-- ==== Proof.KGlueArgs.lean ====
/-
  What the host operations of the kernel's program leave alone.

  The operations before the first kernel region write only their own intermediate buffers, so each of the eight
  argument arrays is still at its launch contents when the first region starts; and each later stretch of host
  operations keeps every buffer it does not write.
-/
import proofs.«137329_j58411555225976_2_alg».proof.Proof.Gen.KernelIdeal.Regions
import Idealize.ShloMosaic.PureOps.Ideal

noncomputable section

namespace Cert.KernelIdeal.Glue

open Cert.KernelIdeal Cert.KernelIdeal.Gen Idealize.ShloMosaic Idealize.ShloMosaic.TcCoe Idealize.SL.Sem

variable (m : (ℓ : Loc nD τ sig) → Buf (Elt Ideal) ℓ) (c : Dev nD)

theorem v4_arg0 : V4 m c main_arg0 = m ((c.tc : Thread nD τ).loc main_arg0) :=
  (V4_of m c main_arg0 (by decide)).trans <| (V3_of m c main_arg0 (by decide)).trans <|
    (V2_of m c main_arg0 (by decide)).trans <| (V1_of m c main_arg0 (by decide)).trans rfl
theorem v4_arg1 : V4 m c main_arg1 = m ((c.tc : Thread nD τ).loc main_arg1) :=
  (V4_of m c main_arg1 (by decide)).trans <| (V3_of m c main_arg1 (by decide)).trans <|
    (V2_of m c main_arg1 (by decide)).trans <| (V1_of m c main_arg1 (by decide)).trans rfl
theorem v4_arg2 : V4 m c main_arg2 = m ((c.tc : Thread nD τ).loc main_arg2) :=
  (V4_of m c main_arg2 (by decide)).trans <| (V3_of m c main_arg2 (by decide)).trans <|
    (V2_of m c main_arg2 (by decide)).trans <| (V1_of m c main_arg2 (by decide)).trans rfl
theorem v4_arg3 : V4 m c main_arg3 = m ((c.tc : Thread nD τ).loc main_arg3) :=
  (V4_of m c main_arg3 (by decide)).trans <| (V3_of m c main_arg3 (by decide)).trans <|
    (V2_of m c main_arg3 (by decide)).trans <| (V1_of m c main_arg3 (by decide)).trans rfl
theorem v4_arg4 : V4 m c main_arg4 = m ((c.tc : Thread nD τ).loc main_arg4) :=
  (V4_of m c main_arg4 (by decide)).trans <| (V3_of m c main_arg4 (by decide)).trans <|
    (V2_of m c main_arg4 (by decide)).trans <| (V1_of m c main_arg4 (by decide)).trans rfl
theorem v4_arg5 : V4 m c main_arg5 = m ((c.tc : Thread nD τ).loc main_arg5) :=
  (V4_of m c main_arg5 (by decide)).trans <| (V3_of m c main_arg5 (by decide)).trans <|
    (V2_of m c main_arg5 (by decide)).trans <| (V1_of m c main_arg5 (by decide)).trans rfl
theorem v4_arg6 : V4 m c main_arg6 = m ((c.tc : Thread nD τ).loc main_arg6) :=
  (V4_of m c main_arg6 (by decide)).trans <| (V3_of m c main_arg6 (by decide)).trans <|
    (V2_of m c main_arg6 (by decide)).trans <| (V1_of m c main_arg6 (by decide)).trans rfl
theorem v4_arg7 : V4 m c main_arg7 = m ((c.tc : Thread nD τ).loc main_arg7) :=
  (V4_of m c main_arg7 (by decide)).trans <| (V3_of m c main_arg7 (by decide)).trans <|
    (V2_of m c main_arg7 (by decide)).trans <| (V1_of m c main_arg7 (by decide)).trans rfl

variable (Wv : Valuation τ sig (Elt Ideal))

/-- The host operations between the two regions keep every buffer they do not write. -/
theorem after1_keep (b : Ref sig .tc) (h : b ∉ hostOps1_W) :
    StableHlo.after (hostOps1 (F := Ideal)) Wv b = Wv b :=
  StableHlo.after_of_writes_sub hostOps1 _ hostOps1_writes h

/-- The host operations after the second region keep every buffer they do not write. -/
theorem after2_keep (b : Ref sig .tc) (h : b ∉ hostOps2_W) :
    StableHlo.after (hostOps2 (F := Ideal)) Wv b = Wv b :=
  StableHlo.after_of_writes_sub hostOps2 _ hostOps2_writes h

end Cert.KernelIdeal.Glue

end
-- ==== Proof.RefClamp.lean ====
/-
  On a vector whose entries are all real numbers the reference's clamp of the degree vector changes nothing: the clamp
  replaces an entry only where its absolute value is +∞, and the absolute value max x (-x) of a real x is real.  In
  particular the clamped vector is again a vector of real numbers.
-/
import proofs.«137329_j58411555225976_2_alg».proof.Proof.RefDefs
import proofs.«137329_j58411555225976_2_alg».proof.Proof.GcnMath
import Idealize.ShloMosaic.PureOps.Ideal.Laws

noncomputable section

namespace Cert.RefLayers

open Cert.ReferenceIdeal Idealize.ShloMosaic Cert.GcnMath

/-- The word 0x7F800000 read as a single-precision float is +∞. -/
theorem ofBits_inf_f32 : Ideal.ofBits .f32 0x7F800000#32 = (⊤ : EReal) := by simp [Ideal.ofBits, Ideal.ieee]

/-- Where every entry is real the clamp keeps every entry. -/
theorem refD_eq_self (a2 : FVec Ideal S8192 .f32) (h : Finite a2) : refD a2 = a2 := by
  funext i
  obtain ⟨ht, hb⟩ := h i
  have hne : ¬ (max (a2 i) (-(a2 i)) = Ideal.ofBits .f32 0x7F800000#32) := by
    rw [ofBits_inf_f32, max_eq_top, EReal.neg_eq_top_iff]
    exact fun hm => hm.elim ht hb
  have hc : Ideal.cmp .oeq (max (a2 i) (-(a2 i))) (Ideal.ofBits .f32 0x7F800000#32) = 0#1 := by
    simp only [Ideal.cmp, hne, decide_false]
    rfl
  show Scalar.select (Ideal.cmp .oeq (max (a2 i) (-(a2 i))) (Ideal.ofBits .f32 0x7F800000#32))
      (Ideal.ofBits .f32 0x00000000#32) (a2 i) = a2 i
  rw [hc]
  exact ValueIdx.select_zero _ _

/-- The clamped degree vector of a vector of reals is a vector of reals. -/
theorem refD_finite (a2 : FVec Ideal S8192 .f32) (h : Finite a2) : Finite (refD a2) := by
  rw [refD_eq_self a2 h]
  exact h

end Cert.RefLayers

end
-- ==== Proof.KValue.lean ====
/-
  The kernel program's result, as a function of its arguments.

  The result buffer at the end is the last stretch of host operations — the segment mean, the same operations the
  reference ends with — applied to the array the second region leaves and to the segment ids. The second region
  leaves the whole-array description's second layer of the arrays it was entered with; those are the adjacency
  array and the second weights as launched, the degree column, the second bias as a row, and the first region's
  array with its rows scaled by the degrees. The first region's array is the description's first layer of the
  adjacency array, the features with rows scaled by the degrees, the degree column, the first weights and the first
  bias as a row. With every float argument finite the two layers are the plain sums `hidden` and `logits`.
-/
import proofs.«137329_j58411555225976_2_alg».proof.Proof.KArgs
import proofs.«137329_j58411555225976_2_alg».proof.Proof.Region0Final
import proofs.«137329_j58411555225976_2_alg».proof.Proof.Region1Final
import proofs.«137329_j58411555225976_2_alg».proof.Proof.KLayers
import proofs.«137329_j58411555225976_2_alg».proof.Proof.KGlueHead
import proofs.«137329_j58411555225976_2_alg».proof.Proof.KGlueTail
import proofs.«137329_j58411555225976_2_alg».proof.Proof.KGlueArgs
import proofs.«137329_j58411555225976_2_alg».proof.Proof.KGlueClamp
import proofs.«137329_j58411555225976_2_alg».proof.Proof.RefClamp

set_option maxRecDepth 16384

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.KSpec Cert.GcnMath Cert.RefLayers Cert.KernelIdeal.Glue

variable (m : (ℓ : Loc nD τ sig) → Buf (Elt Ideal) ℓ)

/-- Every float argument holds real numbers, on core `c`. -/
abbrev FiniteArgs (c : Dev nD) : Prop :=
  Finite (m ((c.tc : Thread nD τ).loc main_arg0)) ∧ Finite (m ((c.tc : Thread nD τ).loc main_arg1)) ∧ Finite (m ((c.tc : Thread nD τ).loc main_arg2)) ∧ Finite (m ((c.tc : Thread nD τ).loc main_arg3)) ∧ Finite (m ((c.tc : Thread nD τ).loc main_arg4)) ∧ Finite (m ((c.tc : Thread nD τ).loc main_arg5)) ∧ Finite (m ((c.tc : Thread nD τ).loc main_arg6))

/-- The clamped degree vector. -/
abbrev deg (c : Dev nD) : FVec Ideal S8192 .f32 := refD (m ((c.tc : Thread nD τ).loc main_arg2))

/-! ## Buffers the first region and the host operations after it leave alone -/

theorem W5_v2 (c : Dev nD) : W5 m c main_v2 = Gen.V4 m c main_v2 :=
  (W5_arr m c 2).trans (((R0.dat (X4 m) c).arrAt_in 2 rfl _).trans (R0.A_eq (X4 m) c 2))
theorem W5_arg0 (c : Dev nD) : W5 m c main_arg0 = (m ((c.tc : Thread nD τ).loc main_arg0)) :=
  ((W5_arr m c 0).trans (((R0.dat (X4 m) c).arrAt_in 0 rfl _).trans (R0.A_eq (X4 m) c 0))).trans (v4_arg0 m c)

/-! ## The first layer -/

/-- The array the first region leaves is the hidden layer. -/
theorem layer0_at (c : Dev nD) (h : FiniteArgs m c) (r : Fin 8192) (o : Fin 256) :
    (W5 m c main_v7 : FVec Ideal S8192x256 .f32) (ix2 r o)
      = hidden (m ((c.tc : Thread nD τ).loc main_arg0)) (m ((c.tc : Thread nD τ).loc main_arg1)) (deg m c) (m ((c.tc : Thread nD τ).loc main_arg3)) (m ((c.tc : Thread nD τ).loc main_arg4)) r o := by
  obtain ⟨h0, h1, h2, h3, h4, -, -⟩ := h
  have e : (W5 m c main_v7 : FVec Ideal S8192x256 .f32)
      = out0 (R0.arrA (X4 m) c) (R0.arrX (X4 m) c) (R0.arrD (X4 m) c) (R0.arrW (X4 m) c) (R0.arrB (X4 m) c) :=
    (W5_arr m c 5).trans (R0.final (X4 m) c)
  rw [e, show R0.arrA (X4 m) c = (m ((c.tc : Thread nD τ).loc main_arg0)) from v4_arg0 m c, show R0.arrW (X4 m) c = (m ((c.tc : Thread nD τ).loc main_arg3)) from v4_arg3 m c]
  exact Cert.KLayers.out0_eq _ _ _ _ _ h0 h1 (refD_finite _ h2) h3 h4 _ (fun r k => v6_at m c r k) _ (fun r z => v2_at m c r z) _
    (fun z k => v3_at m c z k) r o

/-! ## The second layer -/

/-- The array the second region leaves is the output layer. -/
theorem layer1_at (c : Dev nD) (h : FiniteArgs m c) (r : Fin 8192) (o : Fin 10) :
    (W7 m c main_v10 : FVec Ideal S8192x10 .f32) (ix2 r o)
      = logits (m ((c.tc : Thread nD τ).loc main_arg0)) (m ((c.tc : Thread nD τ).loc main_arg1)) (deg m c) (m ((c.tc : Thread nD τ).loc main_arg3)) (m ((c.tc : Thread nD τ).loc main_arg4)) (m ((c.tc : Thread nD τ).loc main_arg5)) (m ((c.tc : Thread nD τ).loc main_arg6)) r o := by
  have hh := h
  obtain ⟨h0, h1, h2, h3, h4, h5, h6⟩ := h
  have e : (W7 m c main_v10 : FVec Ideal S8192x10 .f32)
      = out1 (R1.arrA (X6 m) c) (R1.arrX (X6 m) c) (R1.arrD (X6 m) c) (R1.arrW (X6 m) c) (R1.arrB (X6 m) c) :=
    (W7_arr m c 5).trans (R1.final (X6 m) c)
  have eA : R1.arrA (X6 m) c = (m ((c.tc : Thread nD τ).loc main_arg0)) := (after1_keep (W5 m c) main_arg0 (by decide)).trans (W5_arg0 m c)
  have eW : R1.arrW (X6 m) c = (m ((c.tc : Thread nD τ).loc main_arg5)) :=
    (after1_keep (W5 m c) main_arg5 (by decide)).trans ((W5_of_ne m c main_arg5 (by decide)).trans (v4_arg5 m c))
  have eD : ∀ (r : Fin 8192) (z : Fin 1), R1.arrD (X6 m) c (ix2 r z) = deg m c (ix1 r) := fun r z => by
    show StableHlo.after (hostOps1 (F := Ideal)) (W5 m c) main_v2 (ix2 r z) = _
    rw [after1_keep (W5 m c) main_v2 (by decide), W5_v2 m c]
    exact v2_at m c r z
  have eB : ∀ (z : Fin 1) (k : Fin 10), R1.arrB (X6 m) c (ix2 z k) = (m ((c.tc : Thread nD τ).loc main_arg6)) (ix1 k) := fun z k => by
    show StableHlo.after (hostOps1 (F := Ideal)) (W5 m c) main_v4 (ix2 z k) = _
    rw [after1_keep (W5 m c) main_v4 (by decide), W5_of_ne m c main_v4 (by decide)]
    exact v4_at m c z k
  have eX : ∀ (r : Fin 8192) (k : Fin 256), R1.arrX (X6 m) c (ix2 r k)
      = hidden (m ((c.tc : Thread nD τ).loc main_arg0)) (m ((c.tc : Thread nD τ).loc main_arg1)) (deg m c) (m ((c.tc : Thread nD τ).loc main_arg3)) (m ((c.tc : Thread nD τ).loc main_arg4)) r k * deg m c (ix1 r) := fun r k => by
    show StableHlo.after (hostOps1 (F := Ideal)) (W5 m c) main_v9 (ix2 r k) = _
    rw [v9_at (W5 m c) r k, layer0_at m c hh r k, W5_v2 m c, v2_at m c r 0]
  rw [e, eA, eW]
  exact Cert.KLayers.out1_eq _ _ _ _ _ _ _ h0 h1 (refD_finite _ h2) h3 h4 h5 h6 _ eX _ eD _ eB r o

/-! ## The result -/

/-- The segment ids reach the last stretch of host operations as launched. -/
theorem W7_arg7 (c : Dev nD) : W7 m c main_arg7 = (m ((c.tc : Thread nD τ).loc main_arg7)) :=
  (W7_of_ne m c main_arg7 (by decide)).trans ((after1_keep (W5 m c) main_arg7 (by decide)).trans
    ((W5_of_ne m c main_arg7 (by decide)).trans (v4_arg7 m c)))

/-- THE RESULT: the segment mean of the output layer. -/
theorem result_eq (c : Dev nD) (h : FiniteArgs m c) :
    (W8 m c main_v22 : FVec Ideal S64x10 .f32)
      = refTail (fun j => logits (m ((c.tc : Thread nD τ).loc main_arg0)) (m ((c.tc : Thread nD τ).loc main_arg1)) (deg m c) (m ((c.tc : Thread nD τ).loc main_arg3)) (m ((c.tc : Thread nD τ).loc main_arg4)) (m ((c.tc : Thread nD τ).loc main_arg5)) (m ((c.tc : Thread nD τ).loc main_arg6)) (j 0) (j 1)) (m ((c.tc : Thread nD τ).loc main_arg7)) := by
  rw [show (W8 m c main_v22 : FVec Ideal S64x10 .f32) = refTail (W7 m c main_v10) (W7 m c main_arg7) from v22_eq (W7 m c), W7_arg7 m c]
  refine congrArg (fun x => refTail x _) ?_
  funext j
  rw [eq_ix2 j]
  exact layer1_at m c h (j 0) (j 1)

end Cert.KernelIdeal.Run

end
-- ==== Proof.RefImports.lean ====
/-
  The reference's run and its operations read at an index: the generated modules this part of the proof starts from.
-/
import proofs.«137329_j58411555225976_2_alg».proof.Proof.Gen.ReferenceIdeal.Run
import proofs.«137329_j58411555225976_2_alg».proof.Proof.Gen.ReferenceIdeal.Read
-- ==== Proof.RefAdj.lean ====
/-
  The reference's normalised adjacency, entry by entry.

  The reference multiplies the adjacency array by the clamped degree vector laid out as a column (so row r is scaled by
  the degree entry of r) and then by the same vector laid out as a row (so column k is scaled by the degree entry of
  k).  Read at the entry (r, k) this is  A r k * d r * d k,  in that order of factors.
-/
import proofs.«137329_j58411555225976_2_alg».proof.Proof.RefImports
import proofs.«137329_j58411555225976_2_alg».proof.Proof.RefDefs
import proofs.«137329_j58411555225976_2_alg».proof.Proof.GcnMath

noncomputable section

namespace Cert.RefLayers

open Cert.ReferenceIdeal Cert.ReferenceIdeal.Read Idealize.ShloMosaic Idealize.ShloMosaic.ValueIdx Cert.GcnMath

/-- The reference's clamped degree vector is the named clamp. -/
theorem val_v1_eq (x2 : FVec Ideal S8192 .f32) : val_main_v1 (F := Ideal) x2 = refD x2 := rfl

/-- The column layout followed by the broadcast along rows reads the vector at the row. -/
theorem idx_col (r k : Fin 8192) : idx_main_v2 (idx_main_v3 (ix2 r k)) = ix1 r :=
  funext fun a => match a with | ⟨0, _⟩ => rfl

/-- The row layout followed by the broadcast along columns reads the vector at the column. -/
theorem idx_row (r k : Fin 8192) : idx_main_v5 (idx_main_v6 (ix2 r k)) = ix1 k :=
  funext fun a => match a with | ⟨0, _⟩ => rfl

/-- The normalised adjacency at (r, k) is A r k * d r * d k with d the clamped degree vector. -/
theorem val_v7_at (x0 : FVec Ideal S8192x8192 .f32) (x2 : FVec Ideal S8192 .f32) (r k : Fin 8192) :
    val_main_v7 (F := Ideal) x0 x2 (ix2 r k) = adjN x0 (refD x2) r k := by
  rw [val_main_v7_apply, val_main_v4_apply, val_main_v3_apply, val_main_v2_apply, val_main_v6_apply,
    val_main_v5_apply, idx_col, idx_row, val_v1_eq]
  rfl

end Cert.RefLayers

end
-- ==== Proof.RefHidden.lean ====
/-
  The reference's first layer, entry by entry.

  The product of the normalised adjacency with the features, then with the first weights, plus the first bias
  broadcast along the rows, clamped below at zero: at node r and feature o this is the hidden-layer formula.
-/
import proofs.«137329_j58411555225976_2_alg».proof.Proof.RefAdj

noncomputable section

open scoped BigOperators

namespace Cert.RefLayers

open Cert.ReferenceIdeal Cert.ReferenceIdeal.Read Idealize.ShloMosaic Idealize.ShloMosaic.ValueIdx Cert.GcnMath

/-- The normalised adjacency times the features at (r, c): the sum over the nodes k. -/
theorem val_v8_at (x0 : FVec Ideal S8192x8192 .f32) (x1 : FVec Ideal S8192x128 .f32) (x2 : FVec Ideal S8192 .f32)
    (r : Fin 8192) (c : Fin 128) :
    val_main_v8 (F := Ideal) x0 x1 x2 (ix2 r c) = ∑ k : Fin 8192, adjN x0 (refD x2) r k * x1 (ix2 k c) := by
  rw [val_main_v8_apply]
  refine Finset.sum_congr rfl fun k _ => ?_
  have el : lidx_main_v8 (ix2 r c) k = ix2 r k := funext fun a => match a with | ⟨0, _⟩ => rfl | ⟨1, _⟩ => rfl
  have er : ridx_main_v8 (ix2 r c) k = ix2 k c := funext fun a => match a with | ⟨0, _⟩ => rfl | ⟨1, _⟩ => rfl
  rw [el, er, val_v7_at]

/-- That product times the first weights at (r, o): the sum over the input features c. -/
theorem val_v9_at (x0 : FVec Ideal S8192x8192 .f32) (x1 : FVec Ideal S8192x128 .f32) (x2 : FVec Ideal S8192 .f32)
    (x3 : FVec Ideal S128x256 .f32) (r : Fin 8192) (o : Fin 256) :
    val_main_v9 (F := Ideal) x0 x1 x2 x3 (ix2 r o)
      = ∑ c : Fin 128, (∑ k : Fin 8192, adjN x0 (refD x2) r k * x1 (ix2 k c)) * x3 (ix2 c o) := by
  rw [val_main_v9_apply]
  refine Finset.sum_congr rfl fun c _ => ?_
  have el : lidx_main_v9 (ix2 r o) c = ix2 r c := funext fun a => match a with | ⟨0, _⟩ => rfl | ⟨1, _⟩ => rfl
  have er : ridx_main_v9 (ix2 r o) c = ix2 c o := funext fun a => match a with | ⟨0, _⟩ => rfl | ⟨1, _⟩ => rfl
  rw [el, er, val_v8_at]

/-- The first bias laid out as a row and broadcast along the rows reads the bias at the column. -/
theorem idx_bias1 (r : Fin 8192) (o : Fin 256) : idx_main_v10 (idx_main_v11 (ix2 r o)) = ix1 o :=
  funext fun a => match a with | ⟨0, _⟩ => rfl

/-- The reference's hidden layer at (r, o) is the hidden-layer formula over the clamped degree vector. -/
theorem val_v13_at (x0 : FVec Ideal S8192x8192 .f32) (x1 : FVec Ideal S8192x128 .f32) (x2 : FVec Ideal S8192 .f32)
    (x3 : FVec Ideal S128x256 .f32) (x4 : FVec Ideal S256 .f32) (r : Fin 8192) (o : Fin 256) :
    val_main_v13 (F := Ideal) x0 x1 x2 x3 x4 (ix2 r o) = hidden x0 x1 (refD x2) x3 x4 r o := by
  rw [val_main_v13_apply, val_main_v12_apply, val_v9_at, val_main_v11_apply, val_main_v10_apply, idx_bias1,
    val_main_call2_v0_apply, val_main_call2_cst_apply, Ideal.ofBits_def, Ideal.ofBits_zero_f32]
  rfl

end Cert.RefLayers

end
-- ==== Proof.RefLogits.lean ====
/-
  The reference's second layer, entry by entry, and the whole array of logits as one function.

  The product of the normalised adjacency with the hidden layer, then with the second weights, plus the second bias
  broadcast along the rows: at node r and class o this is the logits formula.
-/
import proofs.«137329_j58411555225976_2_alg».proof.Proof.RefHidden

noncomputable section

open scoped BigOperators

namespace Cert.RefLayers

open Cert.ReferenceIdeal Cert.ReferenceIdeal.Read Idealize.ShloMosaic Idealize.ShloMosaic.ValueIdx Cert.GcnMath

/-- The normalised adjacency times the hidden layer at (r, c): the sum over the nodes k. -/
theorem val_v14_at (x0 : FVec Ideal S8192x8192 .f32) (x1 : FVec Ideal S8192x128 .f32) (x2 : FVec Ideal S8192 .f32)
    (x3 : FVec Ideal S128x256 .f32) (x4 : FVec Ideal S256 .f32) (r : Fin 8192) (c : Fin 256) :
    val_main_v14 (F := Ideal) x0 x1 x2 x3 x4 (ix2 r c)
      = ∑ k : Fin 8192, adjN x0 (refD x2) r k * hidden x0 x1 (refD x2) x3 x4 k c := by
  rw [val_main_v14_apply]
  refine Finset.sum_congr rfl fun k _ => ?_
  have el : lidx_main_v14 (ix2 r c) k = ix2 r k := funext fun a => match a with | ⟨0, _⟩ => rfl | ⟨1, _⟩ => rfl
  have er : ridx_main_v14 (ix2 r c) k = ix2 k c := funext fun a => match a with | ⟨0, _⟩ => rfl | ⟨1, _⟩ => rfl
  rw [el, er, val_v7_at, val_v13_at]

/-- That product times the second weights at (r, o): the sum over the hidden features c. -/
theorem val_v15_at (x0 : FVec Ideal S8192x8192 .f32) (x1 : FVec Ideal S8192x128 .f32) (x2 : FVec Ideal S8192 .f32)
    (x3 : FVec Ideal S128x256 .f32) (x4 : FVec Ideal S256 .f32) (x5 : FVec Ideal S256x10 .f32)
    (r : Fin 8192) (o : Fin 10) :
    val_main_v15 (F := Ideal) x0 x1 x2 x3 x4 x5 (ix2 r o)
      = ∑ c : Fin 256, (∑ k : Fin 8192, adjN x0 (refD x2) r k * hidden x0 x1 (refD x2) x3 x4 k c) * x5 (ix2 c o) := by
  rw [val_main_v15_apply]
  refine Finset.sum_congr rfl fun c _ => ?_
  have el : lidx_main_v15 (ix2 r o) c = ix2 r c := funext fun a => match a with | ⟨0, _⟩ => rfl | ⟨1, _⟩ => rfl
  have er : ridx_main_v15 (ix2 r o) c = ix2 c o := funext fun a => match a with | ⟨0, _⟩ => rfl | ⟨1, _⟩ => rfl
  rw [el, er, val_v14_at]

/-- The second bias laid out as a row and broadcast along the rows reads the bias at the column. -/
theorem idx_bias2 (r : Fin 8192) (o : Fin 10) : idx_main_v16 (idx_main_v17 (ix2 r o)) = ix1 o :=
  funext fun a => match a with | ⟨0, _⟩ => rfl

/-- The reference's logits at (r, o) are the logits formula over the clamped degree vector. -/
theorem val_v18_at (x0 : FVec Ideal S8192x8192 .f32) (x1 : FVec Ideal S8192x128 .f32) (x2 : FVec Ideal S8192 .f32)
    (x3 : FVec Ideal S128x256 .f32) (x4 : FVec Ideal S256 .f32) (x5 : FVec Ideal S256x10 .f32)
    (x6 : FVec Ideal S10 .f32) (r : Fin 8192) (o : Fin 10) :
    val_main_v18 (F := Ideal) x0 x1 x2 x3 x4 x5 x6 (ix2 r o) = logits x0 x1 (refD x2) x3 x4 x5 x6 r o := by
  rw [val_main_v18_apply, val_v15_at, val_main_v17_apply, val_main_v16_apply, idx_bias2]
  rfl

/-- The reference's array of logits is the logits formula read at each index's two coordinates. -/
theorem val_v18_eq (x0 : FVec Ideal S8192x8192 .f32) (x1 : FVec Ideal S8192x128 .f32) (x2 : FVec Ideal S8192 .f32)
    (x3 : FVec Ideal S128x256 .f32) (x4 : FVec Ideal S256 .f32) (x5 : FVec Ideal S256x10 .f32)
    (x6 : FVec Ideal S10 .f32) :
    val_main_v18 (F := Ideal) x0 x1 x2 x3 x4 x5 x6
      = fun j => logits x0 x1 (refD x2) x3 x4 x5 x6 (j 0) (j 1) := by
  funext j
  obtain ⟨r, o, rfl⟩ : ∃ (r : Fin 8192) (o : Fin 10), j = ix2 r o := ⟨j 0, j 1, eq_ix2 j⟩
  exact val_v18_at x0 x1 x2 x3 x4 x5 x6 r o

end Cert.RefLayers

end
-- ==== Proof.RefRun.lean ====
/-
  The reference's run, with its result written as the per-graph mean of the logits formula.

  Every weakly fair execution of the reference ends with its result array equal to the per-graph mean (rows summed by
  graph id and divided by the node counts) of the array whose entry (r, o) is the two-layer formula over the
  arguments, the degree vector clamped first; the arguments end unchanged.
-/
import proofs.«137329_j58411555225976_2_alg».proof.Proof.RefLogits

noncomputable section

namespace Cert.RefLayers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.GcnMath

/-- The reference's result is its last operations applied to its array of logits and the graph ids. -/
theorem val_v30_eq_tail (x0 : FVec Ideal S8192x8192 .f32) (x1 : FVec Ideal S8192x128 .f32) (x2 : FVec Ideal S8192 .f32)
    (x3 : FVec Ideal S128x256 .f32) (x4 : FVec Ideal S256 .f32) (x5 : FVec Ideal S256x10 .f32)
    (x6 : FVec Ideal S10 .f32) (x7 : Vec Ideal S8192 .i32) :
    val_main_v30 (F := Ideal) x0 x1 x2 x3 x4 x5 x6 x7
      = refTail (val_main_v18 (F := Ideal) x0 x1 x2 x3 x4 x5 x6) x7 := rfl

/-- The reference runs to the per-graph mean of the logits formula, its arguments unchanged. -/
theorem ref_run (m' : (ℓ : Loc nD τ sig) → Buf (Elt Ideal) ℓ) (ρ' : Dev nD → PrngReg)
    (hfin : ∀ c : Dev nD,
      Finite (m' ((c.tc : Thread nD τ).loc main_arg0)) ∧ Finite (m' ((c.tc : Thread nD τ).loc main_arg1))
      ∧ Finite (m' ((c.tc : Thread nD τ).loc main_arg2)) ∧ Finite (m' ((c.tc : Thread nD τ).loc main_arg3))
      ∧ Finite (m' ((c.tc : Thread nD τ).loc main_arg4)) ∧ Finite (m' ((c.tc : Thread nD τ).loc main_arg5))
      ∧ Finite (m' ((c.tc : Thread nD τ).loc main_arg6))) :
    θ_run (defs (F := Ideal)) (onTc (τ := τ) (main (F := Ideal))) ⟨m', fun _ => 0, ρ'⟩ (fun r => ∀ c : Dev nD,
      r.2.mem ((c.tc : Thread nD τ).loc main_v30)
        = refTail (fun j => logits (m' ((c.tc : Thread nD τ).loc main_arg0)) (m' ((c.tc : Thread nD τ).loc main_arg1))
            (refD (m' ((c.tc : Thread nD τ).loc main_arg2))) (m' ((c.tc : Thread nD τ).loc main_arg3))
            (m' ((c.tc : Thread nD τ).loc main_arg4)) (m' ((c.tc : Thread nD τ).loc main_arg5))
            (m' ((c.tc : Thread nD τ).loc main_arg6)) (j 0) (j 1)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run defs _ _).mono (fun _ h c =>
      ⟨(h c).1.trans ((val_main_v30_eq (F := Ideal) _ _ _ _ _ _ _ _).trans
          ((val_v30_eq_tail _ _ _ _ _ _ _ _).trans (congrArg (refTail · _) (val_v18_eq _ _ _ _ _ _ _)))),
        (h c).2⟩)
    (Cert.ReferenceIdeal.Value.run (F := Ideal) m' ρ')

end Cert.RefLayers

end
-- ==== Proof.RefPre.lean ====
/-
  From the precondition to "every entry of every float argument is a real number".

  The precondition is one bit: for each of the seven float arguments, the conjunction over all entries x of
  "|x| < +∞", and then the conjunction of the seven.  The bit being one, each of the seven conjunctions is one, hence
  each entry's comparison is one, and |x| = max x (-x) < +∞ says that x is neither +∞ nor -∞.
-/
import proofs.«137329_j58411555225976_2_alg».proof.Defs
import proofs.«137329_j58411555225976_2_alg».proof.Proof.Gen.Pre_finite_inputs
import proofs.«137329_j58411555225976_2_alg».proof.Proof.GcnMath
import Idealize.ShloMosaic.Lib.ReduceAll
import Idealize.ShloMosaic.Lib.ValueIdx
import Idealize.ShloMosaic.PureOps.Ideal.Laws

noncomputable section

namespace Cert.RefLayers

open Idealize.ShloMosaic Idealize.SL.Sem Cert.GcnMath

/-- The scalar shape has one index. -/
instance subsingleton_scalar_idx : Subsingleton (⟨0, ![]⟩ : Shape).Idx := ⟨fun a b => funext fun d => d.elim0⟩

/-- An extended real whose absolute value max x (-x) compares below the word 0x7F800000 (which reads +∞) is a real. -/
theorem real_of_abs_lt (x : EReal)
    (h : Ideal.cmp .olt (max x (-x)) (Ideal.ofBits .f32 0x7F800000#32) = 1#1) : x ≠ ⊤ ∧ x ≠ ⊥ := by
  have hinf : Ideal.ofBits .f32 0x7F800000#32 = (⊤ : EReal) := by simp [Ideal.ofBits, Ideal.ieee]
  rw [hinf] at h
  have hlt : max x (-x) < ⊤ := by
    by_contra hn
    simp only [Ideal.cmp, hn, decide_false] at h
    exact absurd h (by decide)
  rw [max_lt_iff] at hlt
  refine ⟨ne_of_lt hlt.1, fun hb => ?_⟩
  rw [hb] at hlt
  exact absurd hlt.2 (by simp)

/-- An array whose "all entries have absolute value below +∞" bit is one is an array of reals. -/
theorem finite_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf (F := Ideal) x)
          (broadcastInDim s ![] hb (constant (F := Ideal) (⟨0, ![]⟩ : Shape) .f32 0x7F800000#32)))
          (constantI (⟨0, ![]⟩ : Shape) 1 1#1) hr hu ValueIdx.ix0 = 1#1) : Finite x := fun i =>
  real_of_abs_lt (x i) (Host.reduce_andi_all _ _ hr hu ValueIdx.ix0 e i)

/-- Under the precondition, on every device, each of the seven float arguments is an array of reals. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1))
    ∧ Finite (m ((c.tc : Thread Cert.KernelIdeal.nD Cert.KernelIdeal.τ).loc Cert.KernelIdeal.main_arg2))
    ∧ Finite (m ((c.tc : Thread Cert.KernelIdeal.nD Cert.KernelIdeal.τ).loc Cert.KernelIdeal.main_arg3))
    ∧ Finite (m ((c.tc : Thread Cert.KernelIdeal.nD Cert.KernelIdeal.τ).loc Cert.KernelIdeal.main_arg4))
    ∧ Finite (m ((c.tc : Thread Cert.KernelIdeal.nD Cert.KernelIdeal.τ).loc Cert.KernelIdeal.main_arg5))
    ∧ Finite (m ((c.tc : Thread Cert.KernelIdeal.nD Cert.KernelIdeal.τ).loc Cert.KernelIdeal.main_arg6)) := by
  have hc := congrFun (h c) ValueIdx.ix0
  generalize m ((c.tc : Thread Cert.KernelIdeal.nD Cert.KernelIdeal.τ).loc Cert.KernelIdeal.main_arg0) = a0 at hc ⊢
  generalize m ((c.tc : Thread Cert.KernelIdeal.nD Cert.KernelIdeal.τ).loc Cert.KernelIdeal.main_arg1) = a1 at hc ⊢
  generalize m ((c.tc : Thread Cert.KernelIdeal.nD Cert.KernelIdeal.τ).loc Cert.KernelIdeal.main_arg2) = a2 at hc ⊢
  generalize m ((c.tc : Thread Cert.KernelIdeal.nD Cert.KernelIdeal.τ).loc Cert.KernelIdeal.main_arg3) = a3 at hc ⊢
  generalize m ((c.tc : Thread Cert.KernelIdeal.nD Cert.KernelIdeal.τ).loc Cert.KernelIdeal.main_arg4) = a4 at hc ⊢
  generalize m ((c.tc : Thread Cert.KernelIdeal.nD Cert.KernelIdeal.τ).loc Cert.KernelIdeal.main_arg5) = a5 at hc ⊢
  generalize m ((c.tc : Thread Cert.KernelIdeal.nD Cert.KernelIdeal.τ).loc Cert.KernelIdeal.main_arg6) = a6 at hc ⊢
  generalize m ((c.tc : Thread Cert.KernelIdeal.nD Cert.KernelIdeal.τ).loc Cert.KernelIdeal.main_arg7) = a7 at hc
  dsimp only [Cert.Pre_finite_inputs.fn, Cert.Pre_finite_inputs.fn_part1, andi] at hc
  obtain ⟨h5, e6⟩ := IntOp.andi_eq_one.1 hc
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6⟩

end Cert.RefLayers

end
-- ==== Proof.lean ====
/-
  The claim: the graph-convolution kernel and its reference compute the same per-graph means.

  Both programs clamp the degree vector, apply two graph-convolution layers and take the mean of the output layer
  over each graph's nodes. The reference normalises the adjacency array first (entry `A r k` times the degrees of row
  `r` and column `k`) and multiplies whole matrices. The kernel scales the rows of a layer's input by the degrees,
  multiplies by the raw adjacency array tile by tile — four row tiles, each accumulated over four column tiles in a
  scratch buffer that keeps its contents between grid points — and scales row `r` of the accumulator by the degree of
  `r` before the weights and the bias. Over the extended reals the two arrangements agree when every entry is a real
  number, which is what the precondition says: regrouping a sum is always allowed, taking the factor `d r` out of a
  sum is allowed for real entries. A change of float format is the identity at the ideal instance.

  The frames of the two kernel programs come from one run of each program's items (host operations and the two kernel
  regions) that ends with every unscoped buffer at a known valuation; the reference's frame is its generated run. The
  idealization rewrote nothing. For the value claim the kernel's result buffer at the last valuation is the segment
  mean of the output layer `logits` of the arguments, and so is the reference's.
-/
import proofs.«137329_j58411555225976_2_alg».proof.Defs
import proofs.«137329_j58411555225976_2_alg».proof.Proof.Gen.Kernel
import proofs.«137329_j58411555225976_2_alg».proof.Proof.Gen.KernelIdeal
import proofs.«137329_j58411555225976_2_alg».proof.Proof.Gen.ReferenceIdeal
import proofs.«137329_j58411555225976_2_alg».proof.Proof.Gen.Pre_finite_inputs
import proofs.«137329_j58411555225976_2_alg».proof.Proof.Gen.ReferenceIdeal.Run
import proofs.«137329_j58411555225976_2_alg».proof.Proof.WKArgs
import proofs.«137329_j58411555225976_2_alg».proof.Proof.KValue
import proofs.«137329_j58411555225976_2_alg».proof.Proof.RefRun
import proofs.«137329_j58411555225976_2_alg».proof.Proof.RefPre
import Idealize.ShloMosaic.Adequacy
import Idealize.ShloMosaic.Init

noncomputable section

namespace Cert.Proof

open Idealize.ShloMosaic Idealize.ShloMosaic.TcCoe Idealize.SL.Sem Cert.GcnMath Cert.RefLayers

/-- The kernel program as printed runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Run.frame m ρ

/-- So does its reading at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, every float argument finite, both programs end with the segment mean of
    the output layer of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin : ∀ c, Cert.KernelIdeal.Run.FiniteArgs m c := fun c => finite_of_pre m hpre c
  refine ⟨fun c => refTail (fun j => logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (refD (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (j 0) (j 1)) (m ((c.tc : Thread Cert.KernelIdeal.nD Cert.KernelIdeal.τ).loc Cert.KernelIdeal.main_arg7)), ?_, ?_⟩
  · refine (θ_run Cert.KernelIdeal.defs _ _).mono (fun _ h c => ?_) (Cert.KernelIdeal.Run.run m ρ)
    exact ⟨(h c _ (Cert.KernelIdeal.Run.mem_uc Cert.KernelIdeal.main_v22 (by decide))).trans (Cert.KernelIdeal.Run.result_eq m c (hfin c)),
      (h c _ (Cert.KernelIdeal.Run.mem_uc Cert.KernelIdeal.main_arg0 (by decide))).trans (Cert.KernelIdeal.Run.W8_arg0 m c),
      (h c _ (Cert.KernelIdeal.Run.mem_uc Cert.KernelIdeal.main_arg1 (by decide))).trans (Cert.KernelIdeal.Run.W8_arg1 m c),
      (h c _ (Cert.KernelIdeal.Run.mem_uc Cert.KernelIdeal.main_arg2 (by decide))).trans (Cert.KernelIdeal.Run.W8_arg2 m c),
      (h c _ (Cert.KernelIdeal.Run.mem_uc Cert.KernelIdeal.main_arg3 (by decide))).trans (Cert.KernelIdeal.Run.W8_arg3 m c),
      (h c _ (Cert.KernelIdeal.Run.mem_uc Cert.KernelIdeal.main_arg4 (by decide))).trans (Cert.KernelIdeal.Run.W8_arg4 m c),
      (h c _ (Cert.KernelIdeal.Run.mem_uc Cert.KernelIdeal.main_arg5 (by decide))).trans (Cert.KernelIdeal.Run.W8_arg5 m c),
      (h c _ (Cert.KernelIdeal.Run.mem_uc Cert.KernelIdeal.main_arg6 (by decide))).trans (Cert.KernelIdeal.Run.W8_arg6 m c),
      (h c _ (Cert.KernelIdeal.Run.mem_uc Cert.KernelIdeal.main_arg7 (by decide))).trans (Cert.KernelIdeal.Run.W8_arg7 m c)⟩
  · have hfin' : ∀ c : Dev Cert.ReferenceIdeal.nD, Finite (m' ((c.tc : Thread Cert.ReferenceIdeal.nD Cert.ReferenceIdeal.τ).loc Cert.ReferenceIdeal.main_arg0)) ∧ Finite (m' ((c.tc : Thread Cert.ReferenceIdeal.nD Cert.ReferenceIdeal.τ).loc Cert.ReferenceIdeal.main_arg1)) ∧ Finite (m' ((c.tc : Thread Cert.ReferenceIdeal.nD Cert.ReferenceIdeal.τ).loc Cert.ReferenceIdeal.main_arg2)) ∧ Finite (m' ((c.tc : Thread Cert.ReferenceIdeal.nD Cert.ReferenceIdeal.τ).loc Cert.ReferenceIdeal.main_arg3))
        ∧ Finite (m' ((c.tc : Thread Cert.ReferenceIdeal.nD Cert.ReferenceIdeal.τ).loc Cert.ReferenceIdeal.main_arg4)) ∧ Finite (m' ((c.tc : Thread Cert.ReferenceIdeal.nD Cert.ReferenceIdeal.τ).loc Cert.ReferenceIdeal.main_arg5)) ∧ Finite (m' ((c.tc : Thread Cert.ReferenceIdeal.nD Cert.ReferenceIdeal.τ).loc Cert.ReferenceIdeal.main_arg6)) := fun c => by
      obtain ⟨e0, e1, e2, e3, e4, e5, e6, e7⟩ := hagree c
      obtain ⟨f0, f1, f2, f3, f4, f5, f6⟩ := hfin c
      refine ⟨?_, ?_, ?_, ?_, ?_, ?_, ?_⟩
      · rw [e0]; exact f0
      · rw [e1]; exact f1
      · rw [e2]; exact f2
      · rw [e3]; exact f3
      · rw [e4]; exact f4
      · rw [e5]; exact f5
      · rw [e6]; exact f6
    refine (θ_run Cert.ReferenceIdeal.defs _ _).mono (fun _ h c => ⟨(h c).1.trans ?_, (h c).2⟩) (ref_run m' ρ' hfin')
    obtain ⟨e0, e1, e2, e3, e4, e5, e6, e7⟩ := hagree c
    rw [e0, e1, e2, e3, e4, e5, e6, e7]

/-- The five claims together, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
